-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x128 : Shape := ⟨2, ![200000, 128]⟩
abbrev S100000x16 : Shape := ⟨2, ![100000, 16]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64 .f32) (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : FVec F S200000x128 .f32) (main_arg2 : IVec S100000x16 32) (main_arg3 : FVec F S64x128 .f32) (main_arg4 : FVec F S64 .f32) (main_arg5 : FVec F S64 .f32) (main_arg6 : FVec F S64 .f32) (main_arg7 : FVec F S64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S200000x128 : Shape := ⟨2, ![200000, 128]⟩
abbrev S100000x16 : Shape := ⟨2, ![100000, 16]⟩
abbrev S64x128 : Shape := ⟨2, ![64, 128]⟩
abbrev S64 : Shape := ⟨1, ![64]⟩
abbrev S_ : Shape := ⟨0, ![]⟩
abbrev S100000x16x1 : Shape := ⟨3, ![100000, 16, 1]⟩
abbrev S100000x16x128 : Shape := ⟨3, ![100000, 16, 128]⟩
abbrev S100000x16x64 : Shape := ⟨3, ![100000, 16, 64]⟩
abbrev S1x64 : Shape := ⟨2, ![1, 64]⟩
abbrev S1000x16x128 : Shape := ⟨3, ![1000, 16, 128]⟩
abbrev S1000x16x64 : Shape := ⟨3, ![1000, 16, 64]⟩
abbrev S16000x128 : Shape := ⟨2, ![16000, 128]⟩
abbrev S16000x64 : Shape := ⟨2, ![16000, 64]⟩
abbrev S1000x64 : Shape := ⟨2, ![1000, 64]⟩
abbrev S1x1x64 : Shape := ⟨3, ![1, 1, 64]⟩
abbrev S10000x64 : Shape := ⟨2, ![10000, 64]⟩

abbrev nBuf : Space → Nat
  | .hbm => 45
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S200000x128, .f32⟩
  | .hbm, ⟨2, _⟩ => ⟨S100000x16, .i32⟩
  | .hbm, ⟨3, _⟩ => ⟨S64x128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S100000x16, .i32⟩
  | .hbm, ⟨11, _⟩ => ⟨S100000x16, .i1⟩
  | .hbm, ⟨12, _⟩ => ⟨S_, .i32⟩
  | .hbm, ⟨13, _⟩ => ⟨S100000x16, .i32⟩
  | .hbm, ⟨14, _⟩ => ⟨S100000x16, .i32⟩
  | .hbm, ⟨15, _⟩ => ⟨S100000x16, .i32⟩
  | .hbm, ⟨16, _⟩ => ⟨S100000x16x1, .i32⟩
  | .hbm, ⟨17, _⟩ => ⟨S100000x16x128, .f32⟩
  | .hbm, ⟨18, _⟩ => ⟨S100000x16x64, .f32⟩
  | .hbm, ⟨19, _⟩ => ⟨S1x64, .f32⟩
  | .hbm, ⟨20, _⟩ => ⟨S1x64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S100000x64, .f32⟩
  | .hbm, ⟨32, _⟩ => ⟨S1x64, .f32⟩
  | .hbm, ⟨33, _⟩ => ⟨S1x64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S100000x64, .f32⟩
  | .local _ .vmem, ⟨0, _⟩ => ⟨S1000x16x128, .f32⟩
  | .local _ .vmem, ⟨1, _⟩ => ⟨S1000x16x128, .f32⟩
  | .local _ .vmem, ⟨2, _⟩ => ⟨S64x128, .f32⟩
  | .local _ .vmem, ⟨3, _⟩ => ⟨S64, .f32⟩
  | .local _ .vmem, ⟨4, _⟩ => ⟨S1000x16x64, .f32⟩
  | .local _ .vmem, ⟨5, _⟩ => ⟨S1000x16x64, .f32⟩
  | .local _ .vmem, ⟨6, _⟩ => ⟨S1x64, .f32⟩
  | .local _ .vmem, ⟨7, _⟩ => ⟨S1x64, .f32⟩
  | .local _ .vmem, ⟨8, _⟩ => ⟨S1000x16x64, .f32⟩
  | .local _ .vmem, ⟨9, _⟩ => ⟨S1000x16x64, .f32⟩
  | .local _ .vmem, ⟨10, _⟩ => ⟨S1000x64, .f32⟩
  | .local _ .vmem, ⟨11, _⟩ => ⟨S1000x64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S1000x64, .f32⟩
  | .local _ .vmem, ⟨17, _⟩ => ⟨S1000x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem8_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![100], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  inb_S1x64_S1x64_0_0 : ∀ a, (![0, 0] : Fin 2 → Nat) a + S1x64.size a ≤ S1x64.size a
  h_S1x64 : 0 < S1x64.numel
  inb_S1000x16x128_S1000x16x128_0_0_0 : ∀ a, (![0, 0, 0] : Fin 3 → Nat) a + S1000x16x128.size a ≤ S1000x16x128.size a
  h_S1000x16x128 : 0 < S1000x16x128.numel
  shapeCasts_S1000x16x128_S1000x16x128 : S1000x16x128.ShapeCasts S1000x16x128
  bitsLt_bf16_f32 : FTy.bits .bf16 < FTy.bits .f32
  shapeCasts_S1000x16x128_S16000x128 : S1000x16x128.ShapeCasts S16000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  reduces_S16000x64_S64 : S16000x64.Reduces [0] S64
  shapeCasts_S1x64_S1x64 : S1x64.ShapeCasts S1x64
  shapeCasts_S16000x64_S1000x16x64 : S16000x64.ShapeCasts S1000x16x64
  inb_S1000x16x64_S1000x16x64_0_0_0 : ∀ a, (![0, 0, 0] : Fin 3 → Nat) a + S1000x16x64.size a ≤ S1000x16x64.size a
  h_S1000x16x64 : 0 < S1000x16x64.numel
  shapeCasts_S1x64_S64 : S1x64.ShapeCasts S64
  bcast_S_S64 : S_.BroadcastsInDim S64 (![] : Fin 0 → Fin S64.rank)
  shapeCasts_S1000x16x64_S1000x16x64 : S1000x16x64.ShapeCasts S1000x16x64
  shapeCasts_S64_S64 : S64.ShapeCasts S64
  shapeCasts_S64_S1x1x64 : S64.ShapeCasts S1x1x64
  broadcasts_S1x1x64_S1000x16x64 : S1x1x64.Broadcasts S1000x16x64
  reduces_S1000x16x64_S1000x64 : S1000x16x64.Reduces [1] S1000x64
  inb_S1000x64_S1000x64_0_0 : ∀ a, (![0, 0] : Fin 2 → Nat) a + S1000x64.size a ≤ S1000x64.size a
  h_S1000x64 : 0 < S1000x64.numel
  reduces_S1000x64_S64 : S1000x64.Reduces [0] S64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S200000x128_S100000x16x1_S100000x16x128_2_0_n_n_0_2_1128_wf : GatherDims.WF S200000x128 S100000x16x1 S100000x16x128 [2] [0] [] [0] [] 2 ![1, 128]
  dot_S16000x128_S64x128_S16000x64_1_1_0_0_n_n_wf : DotDims.WF S16000x128 S64x128 S16000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x128.size a ≤ S100000x16x128.size a
  hwx0_0 : ∀ i : grid0.Coords, EltTy.bits .f32 = 32 ∨ (Rect.block (s := S100000x16x128) S1000x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x16x64.size a ≤ S100000x16x64.size a
  hwx0_3 : ∀ i : grid0.Coords, EltTy.bits .f32 = 32 ∨ (Rect.block (s := S100000x16x64) S1000x16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x16x64.size a ≤ S100000x16x64.size a
  hwx1_0 : ∀ i : grid1.Coords, EltTy.bits .f32 = 32 ∨ (Rect.block (s := S100000x16x64) S1000x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S100000x64.size a
  hwx1_1 : ∀ i : grid1.Coords, EltTy.bits .f32 = 32 ∨ (Rect.block (s := S100000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x64.size a ≤ S100000x64.size a
  hwx1_6 : ∀ i : grid1.Coords, EltTy.bits .f32 = 32 ∨ (Rect.block (s := S100000x64) S1000x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S200000x128_S100000x16x1_S100000x16x128_2_0_n_n_0_2_1128 : GatherDims S200000x128 S100000x16x1 S100000x16x128 where
  offsetDims := [2]
  collapsedSliceDims := [0]
  operandBatchingDims := []
  startIndicesBatchingDims := []
  startIndexMap := [0]
  indexVectorDim := 2
  sliceSizes := ![1, 128]
  wf := gather_S200000x128_S100000x16x1_S100000x16x128_2_0_n_n_0_2_1128_wf
def dot_S16000x128_S64x128_S16000x64_1_1_0_0_n_n : DotDims S16000x128 S64x128 S16000x64 where
  lhsContracting := [1]
  rhsContracting := [1]
  lhsNonContracting := [0]
  rhsNonContracting := [0]
  lhsBatch := []
  rhsBatch := []
  wf := dot_S16000x128_S64x128_S16000x64_1_1_0_0_n_n_wf

abbrev win0_0 : Pipeline.Window sig grid0 :=
  Pipeline.Window.ofSpec (Memref.whole main_v6) S1000x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1000x16x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_0) S1000x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16_0) S1000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v16_1) S1x64.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16_2) S1x64.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v16_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S200000x128 : Shape := ⟨2, ![200000, 128]⟩
abbrev S100000x16 : Shape := ⟨2, ![100000, 16]⟩
abbrev S64x128 : Shape := ⟨2, ![64, 128]⟩
abbrev S64 : Shape := ⟨1, ![64]⟩
abbrev S_ : Shape := ⟨0, ![]⟩
abbrev S100000x16x1 : Shape := ⟨3, ![100000, 16, 1]⟩
abbrev S100000x16x128 : Shape := ⟨3, ![100000, 16, 128]⟩
abbrev S100000x16x64 : Shape := ⟨3, ![100000, 16, 64]⟩
abbrev S1x1x64 : Shape := ⟨3, ![1, 1, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S200000x128, .f32⟩
  | .hbm, ⟨2, _⟩ => ⟨S100000x16, .i32⟩
  | .hbm, ⟨3, _⟩ => ⟨S64x128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S100000x16, .i32⟩
  | .hbm, ⟨11, _⟩ => ⟨S100000x16, .i1⟩
  | .hbm, ⟨12, _⟩ => ⟨S_, .i32⟩
  | .hbm, ⟨13, _⟩ => ⟨S100000x16, .i32⟩
  | .hbm, ⟨14, _⟩ => ⟨S100000x16, .i32⟩
  | .hbm, ⟨15, _⟩ => ⟨S100000x16, .i32⟩
  | .hbm, ⟨16, _⟩ => ⟨S100000x16x1, .i32⟩
  | .hbm, ⟨17, _⟩ => ⟨S100000x16x128, .f32⟩
  | .hbm, ⟨18, _⟩ => ⟨S100000x16x64, .f32⟩
  | .hbm, ⟨19, _⟩ => ⟨S1x1x64, .f32⟩
  | .hbm, ⟨20, _⟩ => ⟨S100000x16x64, .f32⟩
  | .hbm, ⟨21, _⟩ => ⟨S100000x16x64, .f32⟩
  | .hbm, ⟨22, _⟩ => ⟨S_, .f32⟩
  | .hbm, ⟨23, _⟩ => ⟨S64, .f32⟩
  | .hbm, ⟨24, _⟩ => ⟨S1x1x64, .f32⟩
  | .hbm, ⟨25, _⟩ => ⟨S_, .f32⟩
  | .hbm, ⟨26, _⟩ => ⟨S1x1x64, .f32⟩
  | .hbm, ⟨27, _⟩ => ⟨S1x1x64, .f32⟩
  | .hbm, ⟨28, _⟩ => ⟨S100000x16x64, .f32⟩
  | .hbm, ⟨29, _⟩ => ⟨S100000x16x64, .f32⟩
  | .hbm, ⟨30, _⟩ => ⟨S100000x16x64, .f32⟩
  | .hbm, ⟨31, _⟩ => ⟨S_, .f32⟩
  | .hbm, ⟨32, _⟩ => ⟨S64, .f32⟩
  | .hbm, ⟨33, _⟩ => ⟨S1x1x64, .f32⟩
  | .hbm, ⟨34, _⟩ => ⟨S_, .f32⟩
  | .hbm, ⟨35, _⟩ => ⟨S1x1x64, .f32⟩
  | .hbm, ⟨36, _⟩ => ⟨S1x1x64, .f32⟩
  | .hbm, ⟨37, _⟩ => ⟨S100000x16x64, .f32⟩
  | .hbm, ⟨38, _⟩ => ⟨S100000x16x64, .f32⟩
  | .hbm, ⟨39, _⟩ => ⟨S1x1x64, .f32⟩
  | .hbm, ⟨40, _⟩ => ⟨S100000x16x64, .f32⟩
  | .hbm, ⟨41, _⟩ => ⟨S100000x16x64, .f32⟩
  | .hbm, ⟨42, _⟩ => ⟨S_, .f32⟩
  | .hbm, ⟨43, _⟩ => ⟨S1x1x64, .f32⟩
  | .hbm, ⟨44, _⟩ => ⟨S1x1x64, .f32⟩
  | .hbm, ⟨45, _⟩ => ⟨S1x1x64, .f32⟩
  | .hbm, ⟨46, _⟩ => ⟨S100000x16x64, .f32⟩
  | .hbm, ⟨47, _⟩ => ⟨S100000x16x64, .f32⟩
  | .hbm, ⟨48, _⟩ => ⟨S1x1x64, .f32⟩
  | .hbm, ⟨49, _⟩ => ⟨S100000x16x64, .f32⟩
  | .hbm, ⟨50, _⟩ => ⟨S100000x16x64, .f32⟩
  | .hbm, ⟨51, _⟩ => ⟨S_, .f32⟩
  | .hbm, ⟨52, _⟩ => ⟨S100000x16x64, .f32⟩
  | .hbm, ⟨53, _⟩ => ⟨S100000x16x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S64, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S64, .f32⟩
  | .hbm, ⟨68, _⟩ => ⟨S1x64, .f32⟩
  | .hbm, ⟨69, _⟩ => ⟨S_, .f32⟩
  | .hbm, ⟨70, _⟩ => ⟨S1x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S64_S1x1x64_2 : S64.BroadcastsInDim S1x1x64 (![2] : Fin 1 → Fin S1x1x64.rank)
  bcast_S1x1x64_S100000x16x64_0_1_2 : S1x1x64.BroadcastsInDim S100000x16x64 (![0, 1, 2] : Fin 3 → Fin S100000x16x64.rank)
  reducesTo_S100000x16x64_S64_d0_1 : S100000x16x64.ReducesTo [0, 1] S64
  h_S_ : 0 < S_.numel
  bcast_S_S1x1x64 : S_.BroadcastsInDim S1x1x64 (![] : Fin 0 → Fin S1x1x64.rank)
  bcast_S_S100000x16x64 : S_.BroadcastsInDim S100000x16x64 (![] : Fin 0 → Fin S100000x16x64.rank)
  reducesTo_S100000x16x64_S100000x64_d1 : S100000x16x64.ReducesTo [1] S100000x64
  reducesTo_S100000x64_S64_d0 : S100000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  gather_S200000x128_S100000x16x1_S100000x16x128_2_0_n_n_0_2_1128_wf : GatherDims.WF S200000x128 S100000x16x1 S100000x16x128 [2] [0] [] [0] [] 2 ![1, 128]
  dot_S100000x16x128_S64x128_S100000x16x64_2_1_01_0_n_n_wf : DotDims.WF S100000x16x128 S64x128 S100000x16x64 [2] [1] [0, 1] [0] [] []

variable [Facts₀]

def gather_S200000x128_S100000x16x1_S100000x16x128_2_0_n_n_0_2_1128 : GatherDims S200000x128 S100000x16x1 S100000x16x128 where
  offsetDims := [2]
  collapsedSliceDims := [0]
  operandBatchingDims := []
  startIndicesBatchingDims := []
  startIndexMap := [0]
  indexVectorDim := 2
  sliceSizes := ![1, 128]
  wf := gather_S200000x128_S100000x16x1_S100000x16x128_2_0_n_n_0_2_1128_wf
def dot_S100000x16x128_S64x128_S100000x16x64_2_1_01_0_n_n : DotDims S100000x16x128 S64x128 S100000x16x64 where
  lhsContracting := [2]
  rhsContracting := [1]
  lhsNonContracting := [0, 1]
  rhsNonContracting := [0]
  lhsBatch := []
  rhsBatch := []
  wf := dot_S100000x16x128_S64x128_S100000x16x64_2_1_01_0_n_n_wf

class Facts : Prop extends Facts₀ where

variable [Facts]
-- ==== Proof.KRun.lean ====
import proofs.«153973_j47287589929775_2_alg».proof.Proof.Gen.KernelIdeal.Frame

set_option maxRecDepth 16384

noncomputable section

/-! The idealized kernel program's run, with its result named: every weakly fair execution ends with the result
    buffer at what the third kernel's write-backs leave (the last boundary's contents), the arguments as launched. -/
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v25) = W6 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v25 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Gen

end
-- ==== Proof.K1Pieces.lean ====
import proofs.«153973_j47287589929775_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What one grid step of the first kernel leaves in its three output buffers, as values: the linear layer's block,
    and the two running sums (of the block's rows, and of their squares) added to what the buffers held — zero at
    the first step. -/
namespace Cert.KernelIdeal.K1

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem outB3 (c : Dev nD) (i : grid0.Coords) (a1 : Memref sig .tc .vmem S1000x16x128 .f32) (h1 : a1.IsWhole) (a2 : Memref sig .tc .vmem S64x128 .f32) (h2 : a2.IsWhole) (a3 : Memref sig .tc .vmem S64 .f32) (h3 : a3.IsWhole) (a4 : Memref sig .tc .vmem S1000x16x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S1000x16x128 .f32) (x1 : Vec F S64x128 .f32) (x2 : Vec F S64 .f32) (xo4 xo5 : Vec F S1x64 .f32) :
    out0_B_3 c i a1 h1 a2 h2 a3 h3 a4 h4 a5 h5 a6 h6 hc x0 x1 x2 xo4 xo5 = k0_pay6 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz3]
  simp only [View.readAt_eq_ld, h1.read_unread, h2.read_unread, h3.read_unread, h5.read_unread, h6.read_unread, View.ld_unit_zero (S := S1000x16x128) hz3, View.ld_unit_zero (S := S64x128) hz2, View.ld_unit_zero (S := S64) hz1, View.ld_unit_zero (S := S1x64) hz2]

theorem outB4 (c : Dev nD) (i : grid0.Coords) (a1 : Memref sig .tc .vmem S1000x16x128 .f32) (h1 : a1.IsWhole) (a2 : Memref sig .tc .vmem S64x128 .f32) (h2 : a2.IsWhole) (a3 : Memref sig .tc .vmem S64 .f32) (h3 : a3.IsWhole) (a4 : Memref sig .tc .vmem S1000x16x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S1000x16x128 .f32) (x1 : Vec F S64x128 .f32) (x2 : Vec F S64 .f32) (xo4 xo5 : Vec F S1x64 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz2]
  simp only [View.readAt_eq_ld, h1.read_unread, h2.read_unread, h3.read_unread, h5.read_unread, h6.read_unread, View.ld_unit_zero (S := S1000x16x128) hz3, View.ld_unit_zero (S := S64x128) hz2, View.ld_unit_zero (S := S64) hz1, View.ld_unit_zero (S := S1x64) hz2]

theorem outB5 (c : Dev nD) (i : grid0.Coords) (a1 : Memref sig .tc .vmem S1000x16x128 .f32) (h1 : a1.IsWhole) (a2 : Memref sig .tc .vmem S64x128 .f32) (h2 : a2.IsWhole) (a3 : Memref sig .tc .vmem S64 .f32) (h3 : a3.IsWhole) (a4 : Memref sig .tc .vmem S1000x16x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S1000x16x128 .f32) (x1 : Vec F S64x128 .f32) (x2 : Vec F S64 .f32) (xo4 xo5 : Vec F S1x64 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz2]
  simp only [View.readAt_eq_ld, h1.read_unread, h2.read_unread, h3.read_unread, h5.read_unread, h6.read_unread, View.ld_unit_zero (S := S1000x16x128) hz3, View.ld_unit_zero (S := S64x128) hz2, View.ld_unit_zero (S := S64) hz1, View.ld_unit_zero (S := S1x64) hz2]

theorem outA3 (c : Dev nD) (i : grid0.Coords) (a1 : Memref sig .tc .vmem S1000x16x128 .f32) (h1 : a1.IsWhole) (a2 : Memref sig .tc .vmem S64x128 .f32) (h2 : a2.IsWhole) (a3 : Memref sig .tc .vmem S64 .f32) (h3 : a3.IsWhole) (a4 : Memref sig .tc .vmem S1000x16x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S1000x16x128 .f32) (x1 : Vec F S64x128 .f32) (x2 : Vec F S64 .f32) :
    out0_A_3 c i a1 h1 a2 h2 a3 h3 a4 h4 a5 h5 a6 h6 hc x0 x1 x2 = k0_pay6 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz3]
  simp only [View.readAt_eq_ld, h1.read_unread, h2.read_unread, h3.read_unread, h5.read_unread, h6.read_unread, View.ld_unit_zero (S := S1000x16x128) hz3, View.ld_unit_zero (S := S64x128) hz2, View.ld_unit_zero (S := S64) hz1, View.ld_unit_zero (S := S1x64) hz2]

theorem outA4 (c : Dev nD) (i : grid0.Coords) (a1 : Memref sig .tc .vmem S1000x16x128 .f32) (h1 : a1.IsWhole) (a2 : Memref sig .tc .vmem S64x128 .f32) (h2 : a2.IsWhole) (a3 : Memref sig .tc .vmem S64 .f32) (h3 : a3.IsWhole) (a4 : Memref sig .tc .vmem S1000x16x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S1000x16x128 .f32) (x1 : Vec F S64x128 .f32) (x2 : Vec F S64 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h5.read_unread, h6.read_unread, View.ld_unit_zero (S := S1000x16x128) hz3, View.ld_unit_zero (S := S64x128) hz2, View.ld_unit_zero (S := S64) hz1, View.ld_unit_zero (S := S1x64) hz2]

theorem outA5 (c : Dev nD) (i : grid0.Coords) (a1 : Memref sig .tc .vmem S1000x16x128 .f32) (h1 : a1.IsWhole) (a2 : Memref sig .tc .vmem S64x128 .f32) (h2 : a2.IsWhole) (a3 : Memref sig .tc .vmem S64 .f32) (h3 : a3.IsWhole) (a4 : Memref sig .tc .vmem S1000x16x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S1000x16x128 .f32) (x1 : Vec F S64x128 .f32) (x2 : Vec F S64 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h5.read_unread, h6.read_unread, View.ld_unit_zero (S := S1000x16x128) hz3, View.ld_unit_zero (S := S64x128) hz2, View.ld_unit_zero (S := S64) hz1, View.ld_unit_zero (S := S1x64) hz2]

end Cert.KernelIdeal.K1
end
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.LibRowReduce.lean ====
/-
  Row and column reductions of a two-axis array read at an index, at the exact extended-real instance: the minimum,
  maximum and sum of a row `p` of an `[R, C]` array are the fold of `min` / `max` from the accumulator's value, or the sum, over
  the row's entries `src (p, c)`; the sum over the rows of a one-column array `[R, 1]` is the sum of its entries.
-/
import Idealize.ShloMosaic.Lib.ValueIdx
import Idealize.ShloMosaic.PureOps.Ideal.Laws
import Idealize.ShloMosaic.PureOps.Reduce
import proofs.«153973_j47287589929775_2_alg».proof.Proof.LibCol

noncomputable section

open scoped BigOperators

namespace Cert.LibRowReduce

open Idealize.ShloMosaic Idealize.ShloMosaic.ValueIdx

variable {R C : ℕ}

/-- The least entry of row `p`, from the accumulator's value. -/
theorem row_min (src : FVec Ideal ⟨2, ![R, C]⟩ .f32) (acc : BitVec 32) (h : (⟨2, ![R, C]⟩ : Shape).Reduces [1] ⟨1, ![R]⟩)
    (hφ : FKind.Formats .f32) (hacc : acc = FKind.minimumf.neutral .f32 hφ) (p : Fin R) :
    multiReduction .minimumf [1] ⟨1, ![R]⟩ src acc h hφ hacc (ix1 p)
      = (Finset.univ : Finset (Fin C)).fold min (Ideal.ofBits .f32 acc) fun c => src (ix2 p c) := by
  rw [multiReduction_minimumf_eq_fold]
  refine (h.fold_filter_drop_single _ _ src (ix1 p)).trans ?_
  exact congrArg (fun f => Finset.fold min (Ideal.ofBits .f32 acc) f (Finset.univ : Finset (Fin C)))
    (funext fun c => congrArg src (LibCol.lift_last h p c))

/-- The greatest entry of row `p`, from the accumulator's value. -/
theorem row_max (src : FVec Ideal ⟨2, ![R, C]⟩ .f32) (acc : BitVec 32) (h : (⟨2, ![R, C]⟩ : Shape).Reduces [1] ⟨1, ![R]⟩)
    (hφ : FKind.Formats .f32) (hacc : acc = FKind.maximumf.neutral .f32 hφ) (p : Fin R) :
    multiReduction .maximumf [1] ⟨1, ![R]⟩ src acc h hφ hacc (ix1 p)
      = (Finset.univ : Finset (Fin C)).fold max (Ideal.ofBits .f32 acc) fun c => src (ix2 p c) := by
  rw [multiReduction_maximumf_eq_fold]
  refine (h.fold_filter_drop_single _ _ src (ix1 p)).trans ?_
  exact congrArg (fun f => Finset.fold max (Ideal.ofBits .f32 acc) f (Finset.univ : Finset (Fin C)))
    (funext fun c => congrArg src (LibCol.lift_last h p c))

/-- The sum of row `p`. -/
theorem row_sum (src : FVec Ideal ⟨2, ![R, C]⟩ .f32) (acc : BitVec 32) (h : (⟨2, ![R, C]⟩ : Shape).Reduces [1] ⟨1, ![R]⟩)
    (hφ : FKind.Formats .f32) (hacc : acc = FKind.add.neutral .f32 hφ) (p : Fin R) :
    multiReduction .add [1] ⟨1, ![R]⟩ src acc h hφ hacc (ix1 p) = ∑ c : Fin C, src (ix2 p c) :=
  (Ideal.multiReduction_add_single src acc h hφ hacc (ix1 p)).trans
    (Finset.sum_congr rfl fun c _ => congrArg src (LibCol.lift_last h p c))

/-- The sum of a column `q` over the rows. -/
theorem col_sum (src : FVec Ideal ⟨2, ![R, C]⟩ .f32) (acc : BitVec 32) (h : (⟨2, ![R, C]⟩ : Shape).Reduces [0] ⟨1, ![C]⟩)
    (hφ : FKind.Formats .f32) (hacc : acc = FKind.add.neutral .f32 hφ) (q : Fin C) :
    multiReduction .add [0] ⟨1, ![C]⟩ src acc h hφ hacc (ix1 q) = ∑ r : Fin R, src (ix2 r q) :=
  (Ideal.multiReduction_add_single src acc h hφ hacc (ix1 q)).trans
    (Finset.sum_congr rfl fun r _ => congrArg src (LibCol.lift_first h q r))

end Cert.LibRowReduce

end
-- ==== Proof.K1Value.lean ====
import proofs.«153973_j47287589929775_2_alg».proof.Proof.Gen.KernelIdeal.Skeleton
import proofs.«153973_j47287589929775_2_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

open scoped BigOperators

/-! The first kernel's arithmetic on one block of 1000 points, read entry by entry over the extended reals: row
    `16 q + s` of the block's matrix product with the weights, plus the bias, is the linear layer of neighbour `s` of
    point `q`; the step's two column sums run over the block's 16000 rows. -/
namespace Cert.KernelIdeal.K1V

open Cert.KernelIdeal Cert.KernelIdeal.Gen Idealize.ShloMosaic Idealize.ShloMosaic.ValueIdx

abbrev D1 := dot_S16000x128_S64x128_S16000x64_1_1_0_0_n_n

/-- The linear layer on one block: channel `d` of neighbour `s` of the block's point `q`. -/
def linB (x0 : FVec Ideal S1000x16x128 .f32) (x1 : FVec Ideal S64x128 .f32) (x2 : FVec Ideal S64 .f32)
    (q : Fin 1000) (s : Fin 16) (d : Fin 64) : EReal :=
  (∑ k : Fin 128, x0 (ix3 q s k) * x1 (ix2 d k)) + x2 (ix1 d)

theorem lhs0 (i : S16000x64.Idx) (q : D1.contr.Idx) : (D1.lhsIdx i q 0).val = (i 0).val := by
  unfold DotDims.lhsIdx
  rw [dif_neg (show ¬(0 : Fin S16000x128.rank) ∈ D1.lhsBatch by decide), dif_pos (show (0 : Fin S16000x128.rank) ∈ D1.lhsNonContracting by decide)]
  rfl
theorem lhs1 (i : S16000x64.Idx) (q : D1.contr.Idx) : (D1.lhsIdx i q 1).val = (q ⟨0, by decide⟩).val :=
  D1.lhsIdx_val_of_single rfl i q
theorem rhs0 (i : S16000x64.Idx) (q : D1.contr.Idx) : (D1.rhsIdx i q 0).val = (i 1).val := by
  unfold DotDims.rhsIdx
  rw [dif_neg (show ¬(0 : Fin S64x128.rank) ∈ D1.rhsBatch by decide), dif_pos (show (0 : Fin S64x128.rank) ∈ D1.rhsNonContracting by decide)]
  rfl
theorem rhs1 (i : S16000x64.Idx) (q : D1.contr.Idx) : (D1.rhsIdx i q 1).val = (q ⟨0, by decide⟩).val :=
  D1.rhsIdx_val_of_single rfl i q

/-- Row `16 q + s` of the block's product with the weights, plus the bias. -/
theorem pay3_apply (x0 : FVec Ideal S1000x16x128 .f32) (x1 : FVec Ideal S64x128 .f32) (x2 : FVec Ideal S64 .f32)
    (q : Fin 1000) (s : Fin 16) (d : Fin 64) (r : Fin 16000) (hr : r.val = q.val * 16 + s.val) :
    k0_pay3 (F := Ideal) x0 x1 x2 (ix2 r d) = linB x0 x1 x2 q s d := by
  unfold k0_pay3 linB
  rw [addf_apply]
  congr 1
  · refine (Ideal.matmul_constant_zero_apply D1 none _ _ (ix2 r d)).trans ?_
    rw [← Equiv.sum_comp (contrEquiv1 D1 128 rfl rfl).symm]
    refine Finset.sum_congr rfl fun k _ => ?_
    have hk := contrEquiv1_symm_val D1 128 rfl rfl k
    congr 1
    · rw [shapeCast_apply _ _ _ (ix3 q s k) (by
        rw [Shape.rowMajor_val_three, Shape.rowMajor_val_two, lhs0, lhs1, hk]
        show (q.val * 16 + s.val) * 128 + k.val = r.val * 128 + k.val
        rw [hr])]
      rw [truncf_apply, shapeCast_self]
    · rw [truncf_apply]
      exact congrArg x1 (funext fun a => Fin.ext (by
        match a with
        | ⟨0, _⟩ => exact rhs0 _ _
        | ⟨1, _⟩ => exact (rhs1 _ _).trans hk))
  · rw [broadcastTo_1b_ab_apply, shapeCast_a_1a_apply]

/-- The stored block at `(q, s, d)` is the linear layer there. -/
theorem pay6_apply (x0 : FVec Ideal S1000x16x128 .f32) (x1 : FVec Ideal S64x128 .f32) (x2 : FVec Ideal S64 .f32)
    (q : Fin 1000) (s : Fin 16) (d : Fin 64) :
    k0_pay6 (F := Ideal) x0 x1 x2 (ix3 q s d) = linB x0 x1 x2 q s d := by
  unfold k0_pay6
  have hlt : q.val * 16 + s.val < 16000 := by have := q.isLt; have := s.isLt; omega
  rw [shapeCast_apply _ _ _ (ix2 (⟨q.val * 16 + s.val, hlt⟩ : Fin 16000) d) (by
    rw [Shape.rowMajor_val_three, Shape.rowMajor_val_two]; rfl)]
  exact pay3_apply x0 x1 x2 q s d _ rfl

/-- The running sum after a step: what the buffer held plus the column sum over the block's rows. -/
theorem pay4_apply (x0 : FVec Ideal S1000x16x128 .f32) (x1 : FVec Ideal S64x128 .f32) (x2 : FVec Ideal S64 .f32)
    (acc : FVec Ideal S1x64 .f32) (d : Fin 64) :
    k0_pay4 (F := Ideal) x0 x1 x2 acc (ix2 (0 : Fin 1) d)
      = acc (ix2 (0 : Fin 1) d) + ∑ r : Fin 16000, k0_pay3 (F := Ideal) x0 x1 x2 (ix2 r d) := by
  unfold k0_pay4
  rw [addf_apply, shapeCast_self, shapeCast_a_1a_apply]
  exact congrArg (acc (ix2 (0 : Fin 1) d) + ·) (Cert.LibRowReduce.col_sum _ _ _ _ _ d)

/-- The running sum of squares after a step. -/
theorem pay5_apply (x0 : FVec Ideal S1000x16x128 .f32) (x1 : FVec Ideal S64x128 .f32) (x2 : FVec Ideal S64 .f32)
    (acc : FVec Ideal S1x64 .f32) (d : Fin 64) :
    k0_pay5 (F := Ideal) x0 x1 x2 acc (ix2 (0 : Fin 1) d)
      = acc (ix2 (0 : Fin 1) d) + ∑ r : Fin 16000, k0_pay3 (F := Ideal) x0 x1 x2 (ix2 r d) * k0_pay3 (F := Ideal) x0 x1 x2 (ix2 r d) := by
  unfold k0_pay5
  rw [addf_apply, shapeCast_self, shapeCast_a_1a_apply]
  refine congrArg (acc (ix2 (0 : Fin 1) d) + ·) ((Cert.LibRowReduce.col_sum _ _ _ _ _ d).trans ?_)
  rfl

/-- The zero the sums start from. -/
theorem pay1_apply (i : S1x64.Idx) : k0_pay1 (F := Ideal) i = 0 := by
  unfold k0_pay1; exact Ideal.ofBits_zero_f32
theorem pay2_apply (i : S1x64.Idx) : k0_pay2 (F := Ideal) i = 0 := by
  unfold k0_pay2; exact Ideal.ofBits_zero_f32

end Cert.KernelIdeal.K1V

end
-- ==== Proof.Spec.lean ====
/-
  Neighbour feature propagation, as one function of its inputs over the extended reals.

  Each of 100000 points has 16 gathered neighbour rows of 128 features (`g`). A linear layer takes a row to 64
  channels (`lin`). Per channel, the mean and the variance of `lin` over all 1600000 (point, neighbour) pairs
  normalise it (batch normalisation with scale `γ₁` and shift `β₁`); the result is clipped below at zero and
  the largest of a point's 16 values is added to the point's own feature `f1` (`pre`). A second batch
  normalisation, over the 100000 points, gives the result (`out`).

  Two spellings of the statistics are stated: the variance as the mean of squared deviations (`var1`, `var2`),
  and as the mean of squares minus the squared mean (`kvar1`, `kvar2`). They agree on real inputs; the proof is in
  the module that imports this one.
-/
import Idealize.ShloMosaic.PureOps.Ideal
import Idealize.ShloMosaic.PureOps.Ideal.Laws

noncomputable section

open scoped BigOperators

namespace Cert.FP

open Idealize.ShloMosaic

/-- The number of (point, neighbour) pairs, 1600000, as a single-precision constant. -/
def cN1 : EReal := Ideal.ofBits .f32 0x49C35000#32
/-- The number of points, 100000, as a single-precision constant. -/
def cN2 : EReal := Ideal.ofBits .f32 0x47C35000#32
/-- The variance offset (the single-precision number nearest 1e-5). -/
def eps : EReal := Ideal.ofBits .f32 0x3727C5AC#32
/-- Minus infinity, the start of a maximum. -/
def negInf : EReal := Ideal.ofBits .f32 0xFF800000#32

variable (g : Fin 100000 → Fin 16 → Fin 128 → EReal) (Wm : Fin 64 → Fin 128 → EReal)
  (b γ₁ β₁ γ₂ β₂ : Fin 64 → EReal) (f1 : Fin 100000 → Fin 64 → EReal)

/-- The linear layer: channel `d` of neighbour `s` of point `p`. -/
def lin (p : Fin 100000) (s : Fin 16) (d : Fin 64) : EReal := (∑ k : Fin 128, g p s k * Wm d k) + b d

/-! ## Deviation form (mean of squared deviations) -/

def mean1 (d : Fin 64) : EReal := Ideal.div (0 + ∑ p : Fin 100000, ∑ s : Fin 16, lin g Wm b p s d) cN1
def var1 (d : Fin 64) : EReal :=
  Ideal.div (0 + ∑ p : Fin 100000, ∑ s : Fin 16,
    (lin g Wm b p s d - mean1 g Wm b d) * (lin g Wm b p s d - mean1 g Wm b d)) cN1
/-- Normalised, scaled, shifted, clipped below at zero. -/
def act (p : Fin 100000) (s : Fin 16) (d : Fin 64) : EReal :=
  max (γ₁ d * (lin g Wm b p s d - mean1 g Wm b d) * Ideal.rsqrt (var1 g Wm b d + eps) + β₁ d) 0
/-- The largest of a point's 16 values. -/
def pool (p : Fin 100000) (d : Fin 64) : EReal :=
  (Finset.univ : Finset (Fin 16)).fold max negInf fun s => act g Wm b γ₁ β₁ p s d
def pre (p : Fin 100000) (d : Fin 64) : EReal := f1 p d + pool g Wm b γ₁ β₁ p d
def mean2 (d : Fin 64) : EReal := Ideal.div (0 + ∑ p : Fin 100000, pre g Wm b γ₁ β₁ f1 p d) cN2
def var2 (d : Fin 64) : EReal :=
  Ideal.div (0 + ∑ p : Fin 100000,
    (pre g Wm b γ₁ β₁ f1 p d - mean2 g Wm b γ₁ β₁ f1 d) * (pre g Wm b γ₁ β₁ f1 p d - mean2 g Wm b γ₁ β₁ f1 d)) cN2
def out (p : Fin 100000) (d : Fin 64) : EReal :=
  γ₂ d * (pre g Wm b γ₁ β₁ f1 p d - mean2 g Wm b γ₁ β₁ f1 d) * Ideal.rsqrt (var2 g Wm b γ₁ β₁ f1 d + eps) + β₂ d

/-! ## Moment form (mean of squares minus squared mean) -/

def kmean1 (d : Fin 64) : EReal := Ideal.div (∑ p : Fin 100000, ∑ s : Fin 16, lin g Wm b p s d) cN1
def kvar1 (d : Fin 64) : EReal :=
  Ideal.div (∑ p : Fin 100000, ∑ s : Fin 16, lin g Wm b p s d * lin g Wm b p s d) cN1 - kmean1 g Wm b d * kmean1 g Wm b d
def kact (p : Fin 100000) (s : Fin 16) (d : Fin 64) : EReal :=
  max (γ₁ d * (lin g Wm b p s d - kmean1 g Wm b d) * Ideal.rsqrt (kvar1 g Wm b d + eps) + β₁ d) 0
def kpool (p : Fin 100000) (d : Fin 64) : EReal :=
  (Finset.univ : Finset (Fin 16)).fold max negInf fun s => kact g Wm b γ₁ β₁ p s d
def kpre (p : Fin 100000) (d : Fin 64) : EReal := f1 p d + kpool g Wm b γ₁ β₁ p d
def kmean2 (d : Fin 64) : EReal := Ideal.div (∑ p : Fin 100000, kpre g Wm b γ₁ β₁ f1 p d) cN2
def kvar2 (d : Fin 64) : EReal :=
  Ideal.div (∑ p : Fin 100000, kpre g Wm b γ₁ β₁ f1 p d * kpre g Wm b γ₁ β₁ f1 p d) cN2
    - kmean2 g Wm b γ₁ β₁ f1 d * kmean2 g Wm b γ₁ β₁ f1 d
def kout (p : Fin 100000) (d : Fin 64) : EReal :=
  γ₂ d * (kpre g Wm b γ₁ β₁ f1 p d - kmean2 g Wm b γ₁ β₁ f1 d) * Ideal.rsqrt (kvar2 g Wm b γ₁ β₁ f1 d + eps) + β₂ d

end Cert.FP

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.SpecBridge.lean ====
/-
  The two spellings of the statistics agree on real inputs, and two regroupings of sums over the points.

  * On a finite nonempty family of real numbers, with `c` its size, the mean of the squared deviations from the mean
    is the mean of the squares minus the squared mean: with `μ = (∑ r i) / N`,
    `∑ (r i - μ)² = ∑ r i² - 2 μ ∑ r i + N μ² = ∑ r i² - N μ²`. Both sides are computed in the extended reals, where
    all quantities are real numbers and the quotient by a nonzero real number is the real quotient.
  * The first normalisation is over the 1600000 (point, neighbour) pairs, the second over the 100000 points. For the
    second one the normalised quantity must be real: the first variance is a nonnegative real number, the offset is a
    positive real number, so the reciprocal square root is real; a maximum of finitely many (at least one) real numbers,
    started from minus infinity, is real.
  * A sum over 100 tiles of 1000 points is the sum over the 100000 points; a sum over 100 tiles of 16000 (point,
    neighbour) pairs, the pair `r` being neighbour `r % 16` of the tile's point `r / 16`, is the sum over all pairs.
-/
import Mathlib
import proofs.«153973_j47287589929775_2_alg».proof.Proof.Spec
import proofs.«153973_j47287589929775_2_alg».proof.Proof.LibReal
import proofs.«153973_j47287589929775_2_alg».proof.Proof.LibTileSum

noncomputable section

open scoped BigOperators

namespace Cert.FP

open Idealize.ShloMosaic Cert.LibReal

/-! ## The constants -/

theorem cN1_eq : cN1 = ((1600000 : ℝ) : EReal) := by
  unfold cN1
  simp [Ideal.ofBits, Ideal.ieee]
  rw [← EReal.coe_mul]; congr 1; norm_num

theorem cN2_eq : cN2 = ((100000 : ℝ) : EReal) := by
  unfold cN2
  simp [Ideal.ofBits, Ideal.ieee]
  rw [← EReal.coe_mul]; congr 1; norm_num

theorem negInf_eq : negInf = ⊥ := by
  unfold negInf
  simp [Ideal.ofBits, Ideal.ieee]

/-- The variance offset is a positive real number. -/
theorem eps_pos : ∃ e : ℝ, 0 < e ∧ eps = (e : EReal) := by
  unfold eps
  simp [Ideal.ofBits, Ideal.ieee]
  exact ⟨10995116 * (2 ^ 40)⁻¹, by positivity, (EReal.coe_mul _ _).symm⟩

/-! ## Real numbers: quotient, maximum, reciprocal square root -/

theorem div_real {x : EReal} (hx : IsReal x) {N : ℝ} (hN : N ≠ 0) : IsReal (Ideal.div x (N : EReal)) := by
  rw [Ideal.div_coe hN]; exact hx.mul (IsReal.coe _)

theorem max_real {a b : EReal} (ha : IsReal a) (hb : IsReal b) : IsReal (max a b) := by
  obtain ⟨r, rfl⟩ := ha; obtain ⟨s, rfl⟩ := hb; exact ⟨max r s, coe_max r s⟩

/-- A maximum of at least one real number, started from minus infinity, is real. -/
theorem fold_max_real {ι : Type*} (s : Finset ι) (hs : s.Nonempty) (f : ι → EReal) (hf : ∀ i, IsReal (f i)) :
    IsReal (s.fold max ⊥ f) := by
  induction hs using Finset.Nonempty.cons_induction with
  | singleton a => rw [Finset.fold_singleton, max_bot_right]; exact hf a
  | cons a s h hs ih => rw [Finset.fold_cons]; exact max_real (hf a) ih

/-- The reciprocal square root of a positive real number is real. -/
theorem rsqrt_real {r : ℝ} (hr : 0 < r) : IsReal (Ideal.rsqrt (r : EReal)) := by
  rw [Ideal.rsqrt_coe, if_neg (not_lt.mpr hr.le), if_neg hr.ne']; exact IsReal.coe _

/-! ## The variance identity -/

/-- In the real numbers: the sum of squared deviations from the mean, over `N`, is the mean of squares minus the
    squared mean. -/
theorem real_var {ι : Type*} [Fintype ι] (r : ι → ℝ) (N : ℝ) (hcard : (Fintype.card ι : ℝ) = N) (hN : N ≠ 0) :
    (∑ i, (r i - (∑ i, r i) * (1 / N)) * (r i - (∑ i, r i) * (1 / N))) * (1 / N)
      = (∑ i, r i * r i) * (1 / N) - (∑ i, r i) * (1 / N) * ((∑ i, r i) * (1 / N)) := by
  have h : ∀ μ : ℝ, ∑ i, (r i - μ) * (r i - μ) = ∑ i, r i * r i - 2 * μ * (∑ i, r i) + N * (μ * μ) := by
    intro μ
    have e : ∀ i, (r i - μ) * (r i - μ) = r i * r i - 2 * μ * r i + μ * μ := fun i => by ring
    simp only [e, Finset.sum_add_distrib, Finset.sum_sub_distrib, ← Finset.mul_sum, Finset.sum_const,
      Finset.card_univ, nsmul_eq_mul, hcard]
    ring
  rw [h]
  field_simp
  ring

/-- The two spellings of the variance agree on a finite family of real numbers whose size is the real number `N ≠ 0`. -/
theorem var_moment {ι : Type*} [Fintype ι] (x : ι → EReal) (hx : ∀ i, IsReal (x i)) (c : EReal) (N : ℝ)
    (hc : c = (N : EReal)) (hcard : (Fintype.card ι : ℝ) = N) (hN : N ≠ 0) :
    Ideal.div (0 + ∑ i, (x i - Ideal.div (0 + ∑ i, x i) c) * (x i - Ideal.div (0 + ∑ i, x i) c)) c
      = Ideal.div (∑ i, x i * x i) c - Ideal.div (∑ i, x i) c * Ideal.div (∑ i, x i) c := by
  choose r hr using hx
  obtain rfl : x = fun i => ((r i : ℝ) : EReal) := funext hr
  subst hc
  simp only [zero_add, Ideal.div_coe hN, sum_coe, ← EReal.coe_mul, ← EReal.coe_sub]
  rw [real_var r N hcard hN]

/-- The mean of squared deviations of real numbers from a real number is a nonnegative real number. -/
theorem dev_nonneg {ι : Type*} [Fintype ι] (x : ι → EReal) (hx : ∀ i, IsReal (x i)) (m : EReal) (hm : IsReal m)
    (c : EReal) (N : ℝ) (hc : c = (N : EReal)) (hN : 0 < N) :
    ∃ v : ℝ, 0 ≤ v ∧ Ideal.div (0 + ∑ i, (x i - m) * (x i - m)) c = (v : EReal) := by
  choose r hr using hx
  obtain rfl : x = fun i => ((r i : ℝ) : EReal) := funext hr
  obtain ⟨μ, rfl⟩ := hm
  subst hc
  refine ⟨(∑ i, (r i - μ) * (r i - μ)) * (1 / N), ?_, ?_⟩
  · exact mul_nonneg (Finset.sum_nonneg fun i _ => mul_self_nonneg _) (by positivity)
  · simp only [zero_add, Ideal.div_coe hN.ne', sum_coe, ← EReal.coe_mul, ← EReal.coe_sub]

/-! ## The same over the (point, neighbour) pairs, as a double sum -/

theorem card_pairs : (Fintype.card (Fin 100000 × Fin 16) : ℝ) = 1600000 := by
  rw [Fintype.card_prod, Fintype.card_fin, Fintype.card_fin]; norm_num

theorem var_moment₂ (x : Fin 100000 → Fin 16 → EReal) (hx : ∀ p s, IsReal (x p s)) :
    Ideal.div (0 + ∑ p, ∑ s, (x p s - Ideal.div (0 + ∑ p, ∑ s, x p s) cN1)
        * (x p s - Ideal.div (0 + ∑ p, ∑ s, x p s) cN1)) cN1
      = Ideal.div (∑ p, ∑ s, x p s * x p s) cN1 - Ideal.div (∑ p, ∑ s, x p s) cN1 * Ideal.div (∑ p, ∑ s, x p s) cN1 := by
  have h := var_moment (ι := Fin 100000 × Fin 16) (fun ps => x ps.1 ps.2) (fun ps => hx ps.1 ps.2) cN1 1600000
    cN1_eq card_pairs (by norm_num)
  simpa only [Fintype.sum_prod_type] using h

theorem dev_nonneg₂ (x : Fin 100000 → Fin 16 → EReal) (hx : ∀ p s, IsReal (x p s)) (m : EReal) (hm : IsReal m) :
    ∃ v : ℝ, 0 ≤ v ∧ Ideal.div (0 + ∑ p, ∑ s, (x p s - m) * (x p s - m)) cN1 = (v : EReal) := by
  have h := dev_nonneg (ι := Fin 100000 × Fin 16) (fun ps => x ps.1 ps.2) (fun ps => hx ps.1 ps.2) m hm cN1 1600000
    cN1_eq (by norm_num)
  simpa only [Fintype.sum_prod_type] using h

/-! ## The first normalisation -/

section Bridge

variable (g : Fin 100000 → Fin 16 → Fin 128 → EReal) (Wm : Fin 64 → Fin 128 → EReal)
  (b γ₁ β₁ γ₂ β₂ : Fin 64 → EReal) (f1 : Fin 100000 → Fin 64 → EReal)

theorem lin_real (hg : ∀ p s k, IsReal (g p s k)) (hW : ∀ d k, IsReal (Wm d k)) (hb : ∀ d, IsReal (b d))
    (p : Fin 100000) (s : Fin 16) (d : Fin 64) : IsReal (lin g Wm b p s d) :=
  (IsReal.sum _ _ fun k => (hg p s k).mul (hW d k)).add (hb d)

theorem kmean1_eq (d : Fin 64) : kmean1 g Wm b d = mean1 g Wm b d := by
  unfold kmean1 mean1; rw [zero_add]

theorem kvar1_eq (hg : ∀ p s k, IsReal (g p s k)) (hW : ∀ d k, IsReal (Wm d k)) (hb : ∀ d, IsReal (b d))
    (d : Fin 64) : kvar1 g Wm b d = var1 g Wm b d := by
  unfold kvar1 var1 kmean1 mean1
  exact (var_moment₂ (fun p s => lin g Wm b p s d) fun p s => lin_real g Wm b hg hW hb p s d).symm

theorem kpre_eq (hg : ∀ p s k, IsReal (g p s k)) (hW : ∀ d k, IsReal (Wm d k)) (hb : ∀ d, IsReal (b d))
    (p : Fin 100000) (d : Fin 64) : kpre g Wm b γ₁ β₁ f1 p d = pre g Wm b γ₁ β₁ f1 p d := by
  unfold kpre pre kpool pool kact act
  simp only [kmean1_eq, kvar1_eq g Wm b hg hW hb]

theorem mean1_real (hg : ∀ p s k, IsReal (g p s k)) (hW : ∀ d k, IsReal (Wm d k)) (hb : ∀ d, IsReal (b d))
    (d : Fin 64) : IsReal (mean1 g Wm b d) := by
  unfold mean1
  rw [cN1_eq]
  exact div_real (IsReal.zero.add (IsReal.sum _ _ fun p => IsReal.sum _ _ fun s => lin_real g Wm b hg hW hb p s d))
    (by norm_num)

theorem pre_real (hg : ∀ p s k, IsReal (g p s k)) (hW : ∀ d k, IsReal (Wm d k)) (hb : ∀ d, IsReal (b d))
    (hγ₁ : ∀ d, IsReal (γ₁ d)) (hβ₁ : ∀ d, IsReal (β₁ d)) (hf1 : ∀ p d, IsReal (f1 p d))
    (p : Fin 100000) (d : Fin 64) : IsReal (pre g Wm b γ₁ β₁ f1 p d) := by
  have hm := mean1_real g Wm b hg hW hb d
  obtain ⟨v, hv, hvar⟩ := dev_nonneg₂ (fun p s => lin g Wm b p s d) (fun p s => lin_real g Wm b hg hW hb p s d)
    (mean1 g Wm b d) hm
  obtain ⟨e, he, heps⟩ := eps_pos
  have hrs : IsReal (Ideal.rsqrt (var1 g Wm b d + eps)) := by
    have : var1 g Wm b d + eps = ((v + e : ℝ) : EReal) := by
      rw [EReal.coe_add, ← heps, ← hvar]; rfl
    rw [this]
    exact rsqrt_real (by linarith)
  have hact : ∀ s, IsReal (act g Wm b γ₁ β₁ p s d) := fun s =>
    max_real ((((hγ₁ d).mul ((lin_real g Wm b hg hW hb p s d).sub hm)).mul hrs).add (hβ₁ d)) IsReal.zero
  unfold pre pool
  rw [negInf_eq]
  exact (hf1 p d).add (fold_max_real _ Finset.univ_nonempty _ hact)

/-! ## The second normalisation -/

theorem kmean2_eq (hg : ∀ p s k, IsReal (g p s k)) (hW : ∀ d k, IsReal (Wm d k)) (hb : ∀ d, IsReal (b d))
    (d : Fin 64) : kmean2 g Wm b γ₁ β₁ f1 d = mean2 g Wm b γ₁ β₁ f1 d := by
  unfold kmean2 mean2
  simp only [kpre_eq g Wm b γ₁ β₁ f1 hg hW hb, zero_add]

theorem kvar2_eq (hg : ∀ p s k, IsReal (g p s k)) (hW : ∀ d k, IsReal (Wm d k)) (hb : ∀ d, IsReal (b d))
    (hγ₁ : ∀ d, IsReal (γ₁ d)) (hβ₁ : ∀ d, IsReal (β₁ d)) (hf1 : ∀ p d, IsReal (f1 p d))
    (d : Fin 64) : kvar2 g Wm b γ₁ β₁ f1 d = var2 g Wm b γ₁ β₁ f1 d := by
  unfold kvar2 var2 kmean2 mean2
  simp only [kpre_eq g Wm b γ₁ β₁ f1 hg hW hb]
  exact (var_moment (fun p => pre g Wm b γ₁ β₁ f1 p d) (fun p => pre_real g Wm b γ₁ β₁ f1 hg hW hb hγ₁ hβ₁ hf1 p d)
    cN2 100000 cN2_eq (by rw [Fintype.card_fin]; norm_num) (by norm_num)).symm

end Bridge

open Cert.LibReal in
theorem kout_eq_out (g : Fin 100000 → Fin 16 → Fin 128 → EReal) (Wm : Fin 64 → Fin 128 → EReal) (b γ₁ β₁ γ₂ β₂ : Fin 64 → EReal) (f1 : Fin 100000 → Fin 64 → EReal)
    (hg : ∀ p s k, IsReal (g p s k)) (hW : ∀ d k, IsReal (Wm d k)) (hb : ∀ d, IsReal (b d)) (hγ₁ : ∀ d, IsReal (γ₁ d)) (hβ₁ : ∀ d, IsReal (β₁ d))
    (hf1 : ∀ p d, IsReal (f1 p d)) (p : Fin 100000) (d : Fin 64) :
    kout g Wm b γ₁ β₁ γ₂ β₂ f1 p d = out g Wm b γ₁ β₁ γ₂ β₂ f1 p d := by
  unfold kout out
  rw [kpre_eq g Wm b γ₁ β₁ f1 hg hW hb, kmean2_eq g Wm b γ₁ β₁ f1 hg hW hb,
    kvar2_eq g Wm b γ₁ β₁ f1 hg hW hb hγ₁ hβ₁ hf1]

/-! ## Regrouping sums over the points -/

theorem sum_tiles_points {M : Type*} [AddCommMonoid M] (f : Fin 100000 → M) :
    ∑ t : Fin 100, ∑ q : Fin 1000, f ⟨t.val * 1000 + q.val, by have := t.isLt; have := q.isLt; omega⟩ = ∑ p : Fin 100000, f p :=
  TileSum.sum_tiles (T := 100) (B := 1000) (M := M) f

theorem sum_tiles_pairs {M : Type*} [AddCommMonoid M] (f : Fin 100000 → Fin 16 → M) :
    ∑ t : Fin 100, ∑ r : Fin 16000, f ⟨t.val * 1000 + r.val / 16, by have := t.isLt; have := r.isLt; omega⟩ ⟨r.val % 16, Nat.mod_lt _ (by decide)⟩ = ∑ p : Fin 100000, ∑ s : Fin 16, f p s := by
  rw [← sum_tiles_points fun p => ∑ s : Fin 16, f p s]
  refine Fintype.sum_congr _ _ fun t => ?_
  have h := TileSum.sum_tiles (T := 1000) (B := 16) (M := M) fun r : Fin (1000 * 16) =>
    f ⟨t.val * 1000 + r.val / 16, by have := t.isLt; have := r.isLt; omega⟩ ⟨r.val % 16, Nat.mod_lt _ (by decide)⟩
  refine Eq.trans h.symm ?_
  refine Fintype.sum_congr _ _ fun q => Fintype.sum_congr _ _ fun s => ?_
  have hs := s.isLt
  congr 1
  · apply Fin.ext
    show t.val * 1000 + (q.val * 16 + s.val) / 16 = t.val * 1000 + q.val
    omega
  · apply Fin.ext
    show (q.val * 16 + s.val) % 16 = s.val
    omega

end Cert.FP

end
-- ==== Proof.K1Array.lean ====
import proofs.«153973_j47287589929775_2_alg».proof.Proof.K1Pieces
import proofs.«153973_j47287589929775_2_alg».proof.Proof.K1Value
import proofs.«153973_j47287589929775_2_alg».proof.Proof.Spec
import proofs.«153973_j47287589929775_2_alg».proof.Proof.SpecBridge
import Idealize.ShloMosaic.Lib.Pipeline.Value
import Idealize.ShloMosaic.Lib.ValueIdx

noncomputable section

open scoped BigOperators

/-! The first kernel's three output arrays after its 100 grid steps, from whatever its input arrays hold when it
    starts: the linear layer of every (point, neighbour) pair, and per channel the sum of the layer over all pairs
    and the sum of its squares — each step adds its 16000 rows to the running sums, which start at zero. -/
namespace Cert.KernelIdeal.K1A

open Cert.KernelIdeal Cert.KernelIdeal.Gen Idealize.ShloMosaic Idealize.ShloMosaic.ValueIdx Idealize.ShloMosaic.TcCoe
open Idealize.ShloMosaic.Pipeline (Dat)
open Cert.KernelIdeal.K1V

variable (V : (c : Dev nD) → (b : Ref sig .tc) → Buf (Elt Ideal) ((c : Thread nD τ).loc b))

/-- The gathered rows, the weights and the bias the kernel finds, by coordinates. -/
def gV (c : Dev nD) : Fin 100000 → Fin 16 → Fin 128 → EReal := fun p s k => V c main_v6 (ix3 p s k)
def wV (c : Dev nD) : Fin 64 → Fin 128 → EReal := fun d k => V c main_arg3 (ix2 d k)
def bV (c : Dev nD) : Fin 64 → EReal := fun d => V c main_arg4 (ix1 d)

/-- An array of the layer's shape from a function of the coordinates. -/
def arr3 (f : Fin 100000 → Fin 16 → Fin 64 → EReal) : S100000x16x64.Idx → EReal :=
  fun i => f ⟨(i 0).val, (i 0).isLt⟩ ⟨(i 1).val, (i 1).isLt⟩ ⟨(i 2).val, (i 2).isLt⟩
/-- A one-row array from a function of the channel. -/
def row1 (f : Fin 64 → EReal) : S1x64.Idx → EReal := fun i => f ⟨(i 1).val, (i 1).isLt⟩

theorem hN : cfg0.N = 100 := N_0

/-- Where each window's block sits at a grid step: the block of step `t` of the gathered rows and of the layer
    is the `t`-th along the points; every other window has one block. -/
theorem idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0 ∧ win0_5.index t (0 : Fin 2) = 0 ∧ win0_5.index t (1 : Fin 2) = 0 :=
  (by decide +kernel : ∀ t : Fin grid0.N, _)

/-- Step `t`'s block of the gathered rows holds points `1000 t` … `1000 t + 999`. -/
theorem blk0 (c : Dev nD) (t : Fin cfg0.N) (q : Fin 1000) (s : Fin 16) (k : Fin 128) (p : Fin 100000)
    (hp : p.val = t.val * 1000 + q.val) :
    (iblk0 V c 0 t : Vec Ideal S1000x16x128 .f32) (ix3 q s k) = gV V c p s k := by
  obtain ⟨e0, e1, e2, -⟩ := idx0 t
  unfold iblk0 gV
  rw [View.read_apply]
  show V c main_v6 _ = V c main_v6 _
  refine congrArg (V c main_v6) (funext fun a => Fin.ext ?_)
  match a with
  | ⟨0, _⟩ => show win0_0.index t (0 : Fin 3) * 1000 + 1 * q.val = p.val; rw [e0, hp]; omega
  | ⟨1, _⟩ => show win0_0.index t (1 : Fin 3) * 16 + 1 * s.val = s.val; rw [e1]; omega
  | ⟨2, _⟩ => show win0_0.index t (2 : Fin 3) * 128 + 1 * k.val = k.val; rw [e2]; omega

/-- Every step sees the whole weights and the whole bias. -/
theorem blk1 (c : Dev nD) (t : Fin cfg0.N) (d : Fin 64) (k : Fin 128) :
    (iblk0 V c 1 t : Vec Ideal S64x128 .f32) (ix2 d k) = wV V c d k := by
  obtain ⟨-, -, -, e0, e1, -⟩ := idx0 t
  unfold iblk0 wV
  rw [View.read_apply]
  show V c main_arg3 _ = V c main_arg3 _
  refine congrArg (V c main_arg3) (funext fun a => Fin.ext ?_)
  match a with
  | ⟨0, _⟩ => show win0_1.index t (0 : Fin 2) * 64 + 1 * d.val = d.val; rw [e0]; omega
  | ⟨1, _⟩ => show win0_1.index t (1 : Fin 2) * 128 + 1 * k.val = k.val; rw [e1]; omega
theorem blk2 (c : Dev nD) (t : Fin cfg0.N) (d : Fin 64) :
    (iblk0 V c 2 t : Vec Ideal S64 .f32) (ix1 d) = bV V c d := by
  obtain ⟨-, -, -, -, -, e0, -⟩ := idx0 t
  unfold iblk0 bV
  rw [View.read_apply]
  show V c main_arg4 _ = V c main_arg4 _
  refine congrArg (V c main_arg4) (funext fun a => Fin.ext ?_)
  match a with
  | ⟨0, _⟩ => show win0_2.index t (0 : Fin 1) * 64 + 1 * d.val = d.val; rw [e0]; omega

/-- The layer on step `t`'s block is the layer on the whole, at the block's points. -/
theorem linB_eq (c : Dev nD) (t : Fin cfg0.N) (q : Fin 1000) (s : Fin 16) (d : Fin 64) (p : Fin 100000)
    (hp : p.val = t.val * 1000 + q.val) :
    linB (iblk0 V c 0 t) (iblk0 V c 1 t) (iblk0 V c 2 t) q s d = Cert.FP.lin (gV V c) (wV V c) (bV V c) p s d := by
  unfold linB Cert.FP.lin
  rw [blk2]
  refine congrArg (· + bV V c d) (Finset.sum_congr rfl fun k _ => ?_)
  rw [blk0 V c t q s k p hp, blk1]

/-! ## The running sums -/

/-- A running sum over the grid steps, from zero. -/
def acc (g : Fin cfg0.N → EReal) : (n : ℕ) → n < cfg0.N → EReal
  | 0, h => 0 + g ⟨0, h⟩
  | n + 1, h => acc g n (Nat.lt_of_succ_lt h) + g ⟨n + 1, h⟩

theorem acc_eq_sum (g : Fin cfg0.N → EReal) : ∀ (n : ℕ) (h : n < cfg0.N),
    acc g n h = ∑ t : Fin (n + 1), g ⟨t.val, lt_of_lt_of_le t.isLt (Nat.succ_le_of_lt h)⟩
  | 0, h => by
    rw [Fin.sum_univ_one]; exact zero_add _
  | n + 1, h => by
    rw [Fin.sum_univ_castSucc]
    show acc g n (Nat.lt_of_succ_lt h) + g ⟨n + 1, h⟩ = _
    rw [acc_eq_sum g n (Nat.lt_of_succ_lt h)]; rfl

/-- Step `t`'s column sums over its block's 16000 rows. -/
def col1 (c : Dev nD) (d : Fin 64) (t : Fin cfg0.N) : EReal :=
  ∑ r : Fin 16000, k0_pay3 (F := Ideal) (iblk0 V c 0 t) (iblk0 V c 1 t) (iblk0 V c 2 t) (ix2 r d)
def colsq1 (c : Dev nD) (d : Fin 64) (t : Fin cfg0.N) : EReal :=
  ∑ r : Fin 16000, k0_pay3 (F := Ideal) (iblk0 V c 0 t) (iblk0 V c 1 t) (iblk0 V c 2 t) (ix2 r d)
    * k0_pay3 (F := Ideal) (iblk0 V c 0 t) (iblk0 V c 1 t) (iblk0 V c 2 t) (ix2 r d)

/-- The buffers after a first step (`A`) and after a later step (`B`), as the step's arithmetic on its blocks. -/
theorem ptA3 (c : Dev nD) (t : Fin cfg0.N) (h0 : t.val % 100 = 0) :
    (outsAt0 V c t.val t.isLt).1 = k0_pay6 (F := Ideal) (iblk0 V c 0 t) (iblk0 V c 1 t) (iblk0 V c 2 t) :=
  by rw [outsAt0_A V c t h0]; dsimp only; exact K1.outA3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
theorem ptA4 (c : Dev nD) (t : Fin cfg0.N) (h0 : t.val % 100 = 0) :
    (outsAt0 V c t.val t.isLt).2.1 = k0_pay4 (F := Ideal) (iblk0 V c 0 t) (iblk0 V c 1 t) (iblk0 V c 2 t) (k0_pay1 (F := Ideal)) :=
  by rw [outsAt0_A V c t h0]; dsimp only; exact K1.outA4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
theorem ptA5 (c : Dev nD) (t : Fin cfg0.N) (h0 : t.val % 100 = 0) :
    (outsAt0 V c t.val t.isLt).2.2 = k0_pay5 (F := Ideal) (iblk0 V c 0 t) (iblk0 V c 1 t) (iblk0 V c 2 t) (k0_pay2 (F := Ideal)) :=
  by rw [outsAt0_A V c t h0]; dsimp only; exact K1.outA5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
theorem ptB3 (c : Dev nD) (t : Fin cfg0.N) (h0 : ¬t.val % 100 = 0) :
    (outsAt0 V c t.val t.isLt).1 = k0_pay6 (F := Ideal) (iblk0 V c 0 t) (iblk0 V c 1 t) (iblk0 V c 2 t) :=
  by rw [outsAt0_B V c t h0]; dsimp only; exact K1.outB3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem ptB4 (c : Dev nD) (t : Fin cfg0.N) (h0 : ¬t.val % 100 = 0) :
    (outsAt0 V c t.val t.isLt).2.1 = k0_pay4 (F := Ideal) (iblk0 V c 0 t) (iblk0 V c 1 t) (iblk0 V c 2 t) (outsAt0 V c (t.val - 1) (Nat.lt_of_le_of_lt (Nat.sub_le _ _) t.isLt)).2.1 :=
  by rw [outsAt0_B V c t h0]; dsimp only; exact K1.outB4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem ptB5 (c : Dev nD) (t : Fin cfg0.N) (h0 : ¬t.val % 100 = 0) :
    (outsAt0 V c t.val t.isLt).2.2 = k0_pay5 (F := Ideal) (iblk0 V c 0 t) (iblk0 V c 1 t) (iblk0 V c 2 t) (outsAt0 V c (t.val - 1) (Nat.lt_of_le_of_lt (Nat.sub_le _ _) t.isLt)).2.2 :=
  by rw [outsAt0_B V c t h0]; dsimp only; exact K1.outB5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- What the three output buffers hold after step `n`: the layer's block, and the two running sums. -/
theorem outsAt_eq (c : Dev nD) : ∀ (n : ℕ) (hn : n < cfg0.N),
    (outsAt0 V c n hn).1 = k0_pay6 (F := Ideal) (iblk0 V c 0 ⟨n, hn⟩) (iblk0 V c 1 ⟨n, hn⟩) (iblk0 V c 2 ⟨n, hn⟩)
    ∧ (∀ d : Fin 64, (outsAt0 V c n hn).2.1 (ix2 (0 : Fin 1) d) = acc (col1 V c d) n hn)
    ∧ (∀ d : Fin 64, (outsAt0 V c n hn).2.2 (ix2 (0 : Fin 1) d) = acc (colsq1 V c d) n hn)
  | 0, hn => by
    have h0 : (⟨0, hn⟩ : Fin cfg0.N).val % 100 = 0 := Nat.zero_mod 100
    refine ⟨ptA3 V c ⟨0, hn⟩ h0, fun d => ?_, fun d => ?_⟩
    · refine (congrFun (ptA4 V c ⟨0, hn⟩ h0) (ix2 (0 : Fin 1) d)).trans ?_
      refine (pay4_apply _ _ _ _ d).trans ?_
      rw [pay1_apply]; rfl
    · refine (congrFun (ptA5 V c ⟨0, hn⟩ h0) (ix2 (0 : Fin 1) d)).trans ?_
      refine (pay5_apply _ _ _ _ d).trans ?_
      rw [pay2_apply]; rfl
  | n + 1, hn => by
    have hB : ¬(⟨n + 1, hn⟩ : Fin cfg0.N).val % 100 = 0 := by
      have := hN; dsimp only; omega
    obtain ⟨-, ih4, ih5⟩ := outsAt_eq c n (Nat.lt_of_succ_lt hn)
    refine ⟨ptB3 V c ⟨n + 1, hn⟩ hB, fun d => ?_, fun d => ?_⟩
    · refine (congrFun (ptB4 V c ⟨n + 1, hn⟩ hB) (ix2 (0 : Fin 1) d)).trans ?_
      refine (pay4_apply _ _ _ _ d).trans ?_
      show (outsAt0 V c n (Nat.lt_of_succ_lt hn)).2.1 (ix2 (0 : Fin 1) d) + _ = _
      rw [ih4 d]; rfl
    · refine (congrFun (ptB5 V c ⟨n + 1, hn⟩ hB) (ix2 (0 : Fin 1) d)).trans ?_
      refine (pay5_apply _ _ _ _ d).trans ?_
      show (outsAt0 V c n (Nat.lt_of_succ_lt hn)).2.2 (ix2 (0 : Fin 1) d) + _ = _
      rw [ih5 d]; rfl

end Cert.KernelIdeal.K1A

end
-- ==== Proof.K1Final.lean ====
import proofs.«153973_j47287589929775_2_alg».proof.Proof.K1Array

noncomputable section

open scoped BigOperators

/-! The first kernel's output arrays once its write-backs are done: every step writes its block of the linear
    layer back, and the blocks tile the array; the two running sums are written back once, after the last step. -/
namespace Cert.KernelIdeal.K1A

open Cert.KernelIdeal Cert.KernelIdeal.Gen Idealize.ShloMosaic Idealize.ShloMosaic.ValueIdx Idealize.ShloMosaic.TcCoe
open Idealize.ShloMosaic.Pipeline (Dat)
open Cert.KernelIdeal.K1V

variable (V : (c : Dev nD) → (b : Ref sig .tc) → Buf (Elt Ideal) ((c : Thread nD τ).loc b))

/-- A stored block against the whole array: the entry `y` of step `tv`'s block is the layer at point `1000 tv + y₀`. -/
theorem blockval (x0 : FVec Ideal S1000x16x128 .f32) (x1 : FVec Ideal S64x128 .f32) (x2 : FVec Ideal S64 .f32)
    (f : Fin 100000 → Fin 16 → Fin 64 → EReal) (tv : ℕ)
    (hlin : ∀ (q : Fin 1000) (s : Fin 16) (d : Fin 64) (p : Fin 100000), p.val = tv * 1000 + q.val → linB x0 x1 x2 q s d = f p s d)
    (y : S1000x16x64.Idx) (i : S100000x16x64.Idx) (h0 : (i 0).val = tv * 1000 + (y 0).val) (h1 : (i 1).val = (y 1).val)
    (h2 : (i 2).val = (y 2).val) : k0_pay6 (F := Ideal) x0 x1 x2 y = arr3 f i := by
  obtain ⟨q, s, d, rfl⟩ : ∃ (q : Fin 1000) (s : Fin 16) (d : Fin 64), y = ix3 q s d := ⟨y 0, y 1, y 2, eq_ix3 y⟩
  rw [pay6_apply, hlin q s d ⟨(i 0).val, (i 0).isLt⟩ h0]
  unfold arr3
  congr 1
  · exact Fin.ext h1.symm
  · exact Fin.ext h2.symm

/-- What step `t` writes back of the layer is the block of the whole layer at its points. -/
theorem flushed3 (c : Dev nD) (t : Fin cfg0.N) :
    (dat0 V c).flushed 3 t = ((cfg0.win 3).blk t).view.read (Elt Ideal) (arr3 (Cert.FP.lin (gV V c) (wV V c) (bV V c))) := by
  obtain ⟨-, -, -, -, -, -, e0, e1, e2, -⟩ := idx0 t
  show (cfg0.win 3).cut (grid0.coords t) ((dat0 V c).after 3 t) = _
  rw [after0_3, (outsAt_eq V c t.val t.isLt).1]
  funext j
  rw [View.read_apply]
  show k0_pay6 (F := Ideal) (iblk0 V c 0 t) (iblk0 V c 1 t) (iblk0 V c 2 t) j = arr3 (Cert.FP.lin (gV V c) (wV V c) (bV V c)) (((cfg0.win 3).blk t).view.emb j)
  refine blockval (iblk0 V c 0 t) (iblk0 V c 1 t) (iblk0 V c 2 t) (Cert.FP.lin (gV V c) (wV V c) (bV V c)) t.val
    (fun q s d p hp => linB_eq V c t q s d p hp) j _ ?_ ?_ ?_
  · show win0_3.index t (0 : Fin 3) * 1000 + 1 * (j 0).val = t.val * 1000 + (j 0).val; rw [e0]; omega
  · show win0_3.index t (1 : Fin 3) * 16 + 1 * (j 1).val = (j 1).val; rw [e1]; omega
  · show win0_3.index t (2 : Fin 3) * 64 + 1 * (j 2).val = (j 2).val; rw [e2]; omega

theorem mem_blk3 (t : Fin cfg0.N) (i : S100000x16x64.Idx) :
    i ∈ ((cfg0.win 3).blk t).view.set ↔ ∀ a : Fin 3, win0_3.index t a * S1000x16x64.size a ≤ (i a).val ∧ (i a).val < win0_3.index t a * S1000x16x64.size a + S1000x16x64.size a := by
  show i ∈ ((View.whole main_v7_0).slice (win0_3.rect t)).set ↔ _
  rw [View.set_slice_whole, Rect.mem_set_unit]
  exact Iff.rfl

/-- The layer's array after the kernel: the layer at every (point, neighbour, channel). -/
theorem final3 (c : Dev nD) : (dat0 V c).arrAt 3 cfg0.N = arr3 (Cert.FP.lin (gV V c) (wV V c) (bV V c)) :=
  (dat0 V c).arrAt_eq_of_cover 3 _ (fun t _ => flushed3 V c t) fun i => by
    have hi0 : (i 0).val < 100000 := (i 0).isLt
    have hi1 : (i 1).val < 16 := (i 1).isLt
    have hi2 : (i 2).val < 64 := (i 2).isLt
    have hlt : (i 0).val / 1000 < cfg0.N := by rw [hN]; omega
    obtain ⟨-, -, -, -, -, -, e0, e1, e2, -⟩ := idx0 ⟨(i 0).val / 1000, hlt⟩
    refine ⟨⟨(i 0).val / 1000, hlt⟩, flush0_3 _, ?_⟩
    rw [mem_blk3]
    intro a
    match a with
    | ⟨0, _⟩ =>
      show win0_3.index ⟨(i 0).val / 1000, hlt⟩ (0 : Fin 3) * 1000 ≤ (i 0).val ∧ (i 0).val < win0_3.index ⟨(i 0).val / 1000, hlt⟩ (0 : Fin 3) * 1000 + 1000
      rw [e0]; dsimp only; omega
    | ⟨1, _⟩ =>
      show win0_3.index ⟨(i 0).val / 1000, hlt⟩ (1 : Fin 3) * 16 ≤ (i 1).val ∧ (i 1).val < win0_3.index ⟨(i 0).val / 1000, hlt⟩ (1 : Fin 3) * 16 + 16
      rw [e1]; omega
    | ⟨2, _⟩ =>
      show win0_3.index ⟨(i 0).val / 1000, hlt⟩ (2 : Fin 3) * 64 ≤ (i 2).val ∧ (i 2).val < win0_3.index ⟨(i 0).val / 1000, hlt⟩ (2 : Fin 3) * 64 + 64
      rw [e2]; omega

/-! ## The two sums: written back after the last step -/

/-- The sums' buffers after step `n`, as contents of their arrays. -/
abbrev resAt4 (c : Dev nD) (n : ℕ) (hn : n < cfg0.N) : Buf (Elt Ideal) ((c : Thread nD τ).loc main_v7_1) := (outsAt0 V c n hn).2.1
abbrev resAt5 (c : Dev nD) (n : ℕ) (hn : n < cfg0.N) : Buf (Elt Ideal) ((c : Thread nD τ).loc main_v7_2) := (outsAt0 V c n hn).2.2

theorem flushed4 (c : Dev nD) (n : ℕ) (hn : n < cfg0.N) (h99 : n = 99) (t : Fin cfg0.N) (hf : (cfg0.win 4).flush t = true) :
    (dat0 V c).flushed 4 t = ((cfg0.win 4).blk t).view.read (Elt Ideal) (resAt4 V c n hn) := by
  have h3 : t.val = n := by have := (flush0_4 t).mp hf; have := t.isLt; have := hN; omega
  obtain ⟨-, -, -, -, -, -, -, -, -, e0, e1, -⟩ := idx0 t
  show (cfg0.win 4).cut (grid0.coords t) ((dat0 V c).after 4 t) = _
  rw [after0_4]
  have hres : ∀ (k : ℕ) (hk : k < cfg0.N), k = n → (outsAt0 V c k hk).2.1 = resAt4 V c n hn := by
    intro k hk e; subst e; rfl
  rw [hres t.val t.isLt h3]
  have hz' : (fun a => win0_4.index t a * main_v7_1.ty.shape.size a) = fun _ => 0 := funext fun a => by
    match a with
    | ⟨0, _⟩ => show win0_4.index t (0 : Fin 2) * 1 = 0; rw [e0]
    | ⟨1, _⟩ => show win0_4.index t (1 : Fin 2) * 64 = 0; rw [e1]
  exact (Memref.read_access_unit_zero (Elt Ideal) main_v7_1 hz' (fun a => by rw [congrFun hz' a]; simp) (resAt4 V c n hn)).symm

theorem mem_blk4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v7_1).slice (win0_4.rect t)).set ↔ _
  rw [View.set_slice_whole, Rect.mem_set_unit]
  exact Iff.rfl

theorem final4 (c : Dev nD) (n : ℕ) (hn : n < cfg0.N) (h99 : n = 99) : (dat0 V c).arrAt 4 cfg0.N = resAt4 V c n hn :=
  (dat0 V c).arrAt_eq_of_cover 4 (resAt4 V c n hn) (flushed4 V c n hn h99) fun i => by
    have hi0 : (i 0).val < 1 := (i 0).isLt
    have hi1 : (i 1).val < 64 := (i 1).isLt
    obtain ⟨-, -, -, -, -, -, -, -, -, e0, e1, -⟩ := idx0 ⟨n, hn⟩
    refine ⟨⟨n, hn⟩, (flush0_4 _).mpr (by show n % 100 = 99; rw [h99]), ?_⟩
    rw [mem_blk4]
    intro a
    match a with
    | ⟨0, _⟩ => show win0_4.index ⟨n, hn⟩ (0 : Fin 2) * 1 ≤ (i 0).val ∧ (i 0).val < win0_4.index ⟨n, hn⟩ (0 : Fin 2) * 1 + 1; rw [e0]; omega
    | ⟨1, _⟩ => show win0_4.index ⟨n, hn⟩ (1 : Fin 2) * 64 ≤ (i 1).val ∧ (i 1).val < win0_4.index ⟨n, hn⟩ (1 : Fin 2) * 64 + 64; rw [e1]; omega

theorem flushed5 (c : Dev nD) (n : ℕ) (hn : n < cfg0.N) (h99 : n = 99) (t : Fin cfg0.N) (hf : (cfg0.win 5).flush t = true) :
    (dat0 V c).flushed 5 t = ((cfg0.win 5).blk t).view.read (Elt Ideal) (resAt5 V c n hn) := by
  have h3 : t.val = n := by have := (flush0_5 t).mp hf; have := t.isLt; have := hN; omega
  obtain ⟨-, -, -, -, -, -, -, -, -, -, -, e0, e1⟩ := idx0 t
  show (cfg0.win 5).cut (grid0.coords t) ((dat0 V c).after 5 t) = _
  rw [after0_5]
  have hres : ∀ (k : ℕ) (hk : k < cfg0.N), k = n → (outsAt0 V c k hk).2.2 = resAt5 V c n hn := by
    intro k hk e; subst e; rfl
  rw [hres t.val t.isLt h3]
  have hz' : (fun a => win0_5.index t a * main_v7_2.ty.shape.size a) = fun _ => 0 := funext fun a => by
    match a with
    | ⟨0, _⟩ => show win0_5.index t (0 : Fin 2) * 1 = 0; rw [e0]
    | ⟨1, _⟩ => show win0_5.index t (1 : Fin 2) * 64 = 0; rw [e1]
  exact (Memref.read_access_unit_zero (Elt Ideal) main_v7_2 hz' (fun a => by rw [congrFun hz' a]; simp) (resAt5 V c n hn)).symm

theorem mem_blk5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v7_2).slice (win0_5.rect t)).set ↔ _
  rw [View.set_slice_whole, Rect.mem_set_unit]
  exact Iff.rfl

theorem final5 (c : Dev nD) (n : ℕ) (hn : n < cfg0.N) (h99 : n = 99) : (dat0 V c).arrAt 5 cfg0.N = resAt5 V c n hn :=
  (dat0 V c).arrAt_eq_of_cover 5 (resAt5 V c n hn) (flushed5 V c n hn h99) fun i => by
    have hi0 : (i 0).val < 1 := (i 0).isLt
    have hi1 : (i 1).val < 64 := (i 1).isLt
    obtain ⟨-, -, -, -, -, -, -, -, -, -, -, e0, e1⟩ := idx0 ⟨n, hn⟩
    refine ⟨⟨n, hn⟩, (flush0_5 _).mpr (by show n % 100 = 99; rw [h99]), ?_⟩
    rw [mem_blk5]
    intro a
    match a with
    | ⟨0, _⟩ => show win0_5.index ⟨n, hn⟩ (0 : Fin 2) * 1 ≤ (i 0).val ∧ (i 0).val < win0_5.index ⟨n, hn⟩ (0 : Fin 2) * 1 + 1; rw [e0]; omega
    | ⟨1, _⟩ => show win0_5.index ⟨n, hn⟩ (1 : Fin 2) * 64 ≤ (i 1).val ∧ (i 1).val < win0_5.index ⟨n, hn⟩ (1 : Fin 2) * 64 + 64; rw [e1]; omega

/-! ## The sums as sums over all (point, neighbour) pairs -/

/-- A step's column sum is the layer summed over the step's 1000 points and their 16 neighbours. -/
theorem col1_eq (c : Dev nD) (d : Fin 64) (t : Fin cfg0.N) :
    col1 V c d t = ∑ r : Fin 16000, Cert.FP.lin (gV V c) (wV V c) (bV V c)
      ⟨t.val * 1000 + r.val / 16, by have := t.isLt; have := hN; have := r.isLt; omega⟩ ⟨r.val % 16, Nat.mod_lt _ (by decide)⟩ d := by
  unfold col1
  refine Finset.sum_congr rfl fun r _ => ?_
  have hr : r.val / 16 < 1000 := by have := r.isLt; omega
  rw [pay3_apply _ _ _ ⟨r.val / 16, hr⟩ ⟨r.val % 16, Nat.mod_lt _ (by decide)⟩ d r (by show r.val = r.val / 16 * 16 + r.val % 16; omega)]
  exact linB_eq V c t ⟨r.val / 16, hr⟩ ⟨r.val % 16, Nat.mod_lt _ (by decide)⟩ d ⟨t.val * 1000 + r.val / 16, by have := t.isLt; have := hN; omega⟩ rfl
theorem colsq1_eq (c : Dev nD) (d : Fin 64) (t : Fin cfg0.N) :
    colsq1 V c d t = ∑ r : Fin 16000, Cert.FP.lin (gV V c) (wV V c) (bV V c)
        ⟨t.val * 1000 + r.val / 16, by have := t.isLt; have := hN; have := r.isLt; omega⟩ ⟨r.val % 16, Nat.mod_lt _ (by decide)⟩ d
      * Cert.FP.lin (gV V c) (wV V c) (bV V c)
        ⟨t.val * 1000 + r.val / 16, by have := t.isLt; have := hN; have := r.isLt; omega⟩ ⟨r.val % 16, Nat.mod_lt _ (by decide)⟩ d := by
  unfold colsq1
  refine Finset.sum_congr rfl fun r _ => ?_
  have hr : r.val / 16 < 1000 := by have := r.isLt; omega
  rw [pay3_apply _ _ _ ⟨r.val / 16, hr⟩ ⟨r.val % 16, Nat.mod_lt _ (by decide)⟩ d r (by show r.val = r.val / 16 * 16 + r.val % 16; omega)]
  rw [linB_eq V c t ⟨r.val / 16, hr⟩ ⟨r.val % 16, Nat.mod_lt _ (by decide)⟩ d ⟨t.val * 1000 + r.val / 16, by have := t.isLt; have := hN; omega⟩ rfl]

/-- A one-row array from a function of the channel, as contents of a sum's array. -/
theorem row1_apply (f : Fin 64 → EReal) (d : Fin 64) : row1 f (ix2 (0 : Fin 1) d) = f d := rfl

theorem sum1_val (c : Dev nD) (n : ℕ) (hn : n < cfg0.N) (h99 : n = 99) (d : Fin 64) :
    resAt4 V c n hn (ix2 (0 : Fin 1) d) = ∑ p : Fin 100000, ∑ s : Fin 16, Cert.FP.lin (gV V c) (wV V c) (bV V c) p s d := by
  show (outsAt0 V c n hn).2.1 (ix2 (0 : Fin 1) d) = _
  rw [(outsAt_eq V c n hn).2.1 d, acc_eq_sum]
  subst h99
  rw [← Cert.FP.sum_tiles_pairs]
  refine Finset.sum_congr rfl fun t _ => ?_
  rw [col1_eq]
theorem sumsq1_val (c : Dev nD) (n : ℕ) (hn : n < cfg0.N) (h99 : n = 99) (d : Fin 64) :
    resAt5 V c n hn (ix2 (0 : Fin 1) d) = ∑ p : Fin 100000, ∑ s : Fin 16,
      Cert.FP.lin (gV V c) (wV V c) (bV V c) p s d * Cert.FP.lin (gV V c) (wV V c) (bV V c) p s d := by
  show (outsAt0 V c n hn).2.2 (ix2 (0 : Fin 1) d) = _
  rw [(outsAt_eq V c n hn).2.2 d, acc_eq_sum]
  subst h99
  rw [← Cert.FP.sum_tiles_pairs (fun p s => Cert.FP.lin (gV V c) (wV V c) (bV V c) p s d * Cert.FP.lin (gV V c) (wV V c) (bV V c) p s d)]
  refine Finset.sum_congr rfl fun t _ => ?_
  rw [colsq1_eq]

/-- The first sum's array after the kernel: per channel, the layer summed over all pairs. -/
theorem final4_val (c : Dev nD) : (dat0 V c).arrAt 4 cfg0.N
    = (row1 (fun d => ∑ p : Fin 100000, ∑ s : Fin 16, Cert.FP.lin (gV V c) (wV V c) (bV V c) p s d) : Buf (Elt Ideal) ((c : Thread nD τ).loc main_v7_1)) := by
  obtain ⟨n, hn, e⟩ : ∃ n, ∃ _ : n < cfg0.N, n = 99 := ⟨99, by rw [hN]; decide, rfl⟩
  rw [final4 V c n hn e]
  funext i
  obtain ⟨u, d, rfl⟩ : ∃ (u : Fin 1) (d : Fin 64), i = ix2 u d := ⟨i 0, i 1, eq_ix2 i⟩
  obtain rfl : u = 0 := Subsingleton.elim _ _
  exact sum1_val V c n hn e d
/-- The second sum's array after the kernel: per channel, the layer's square summed over all pairs. -/
theorem final5_val (c : Dev nD) : (dat0 V c).arrAt 5 cfg0.N
    = (row1 (fun d => ∑ p : Fin 100000, ∑ s : Fin 16,
        Cert.FP.lin (gV V c) (wV V c) (bV V c) p s d * Cert.FP.lin (gV V c) (wV V c) (bV V c) p s d) : Buf (Elt Ideal) ((c : Thread nD τ).loc main_v7_2)) := by
  obtain ⟨n, hn, e⟩ : ∃ n, ∃ _ : n < cfg0.N, n = 99 := ⟨99, by rw [hN]; decide, rfl⟩
  rw [final5 V c n hn e]
  funext i
  obtain ⟨u, d, rfl⟩ : ∃ (u : Fin 1) (d : Fin 64), i = ix2 u d := ⟨i 0, i 1, eq_ix2 i⟩
  obtain rfl : u = 0 := Subsingleton.elim _ _
  exact sumsq1_val V c n hn e d

end Cert.KernelIdeal.K1A

end
-- ==== Proof.K2Pieces.lean ====
import proofs.«153973_j47287589929775_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What one grid step of the second kernel leaves in its three output buffers, as values: the block of pooled
    features added to the points' own features, and the two running sums (of the block's rows, and of their
    squares) added to what the buffers held — zero at the first step. -/
namespace Cert.KernelIdeal.K2

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem outB6 (c : Dev nD) (i : grid1.Coords) (a1 : Memref sig .tc .vmem S1000x16x64 .f32) (h1 : a1.IsWhole) (a2 : Memref sig .tc .vmem S1000x64 .f32) (h2 : a2.IsWhole) (a3 : Memref sig .tc .vmem S64 .f32) (h3 : a3.IsWhole) (a4 : Memref sig .tc .vmem S64 .f32) (h4 : a4.IsWhole) (a5 : Memref sig .tc .vmem S64 .f32) (h5 : a5.IsWhole) (a6 : Memref sig .tc .vmem S64 .f32) (h6 : a6.IsWhole) (a7 : Memref sig .tc .vmem S1000x64 .f32) (h7 : a7.IsWhole) (a8 : Memref sig .tc .vmem S1x64 .f32) (h8 : a8.IsWhole) (a9 : Memref sig .tc .vmem S1x64 .f32) (h9 : a9.IsWhole) (hc : ¬cond1_0 i) (x0 : Vec F S1000x16x64 .f32) (x1 : Vec F S1000x64 .f32) (x2 x3 x4 x5 : Vec F S64 .f32) (xo7 xo8 : Vec F S1x64 .f32) :
    out1_B_6 c i a1 h1 a2 h2 a3 h3 a4 h4 a5 h5 a6 h6 a7 h7 a8 h8 a9 h9 hc x0 x1 x2 x3 x4 x5 xo7 xo8 = k1_pay5 x0 x2 x3 x4 x5 x1 := by
  unfold out1_B_6
  rw [View.read_writes_eq_canon _ _ _ (cover1_B_6 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz2]
  simp only [View.readAt_eq_ld, h1.read_unread, h2.read_unread, h3.read_unread, h4.read_unread, h5.read_unread, h6.read_unread, h8.read_unread, h9.read_unread, View.ld_unit_zero (S := S1000x16x64) hz3, View.ld_unit_zero (S := S1000x64) hz2, View.ld_unit_zero (S := S64) hz1, View.ld_unit_zero (S := S1x64) hz2]

theorem outB7 (c : Dev nD) (i : grid1.Coords) (a1 : Memref sig .tc .vmem S1000x16x64 .f32) (h1 : a1.IsWhole) (a2 : Memref sig .tc .vmem S1000x64 .f32) (h2 : a2.IsWhole) (a3 : Memref sig .tc .vmem S64 .f32) (h3 : a3.IsWhole) (a4 : Memref sig .tc .vmem S64 .f32) (h4 : a4.IsWhole) (a5 : Memref sig .tc .vmem S64 .f32) (h5 : a5.IsWhole) (a6 : Memref sig .tc .vmem S64 .f32) (h6 : a6.IsWhole) (a7 : Memref sig .tc .vmem S1000x64 .f32) (h7 : a7.IsWhole) (a8 : Memref sig .tc .vmem S1x64 .f32) (h8 : a8.IsWhole) (a9 : Memref sig .tc .vmem S1x64 .f32) (h9 : a9.IsWhole) (hc : ¬cond1_0 i) (x0 : Vec F S1000x16x64 .f32) (x1 : Vec F S1000x64 .f32) (x2 x3 x4 x5 : Vec F S64 .f32) (xo7 xo8 : Vec F S1x64 .f32) :
    out1_B_7 c i a1 h1 a2 h2 a3 h3 a4 h4 a5 h5 a6 h6 a7 h7 a8 h8 a9 h9 hc x0 x1 x2 x3 x4 x5 xo7 xo8 = k1_pay1 (k1_pay6 x0 x2 x3 x4 x5 x1) (k1_pay8 xo7) := by
  unfold out1_B_7
  rw [View.read_writes_eq_canon _ _ _ (cover1_B_7 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz2]
  simp only [View.readAt_eq_ld, h1.read_unread, h2.read_unread, h3.read_unread, h4.read_unread, h5.read_unread, h6.read_unread, h8.read_unread, h9.read_unread, View.ld_unit_zero (S := S1000x16x64) hz3, View.ld_unit_zero (S := S1000x64) hz2, View.ld_unit_zero (S := S64) hz1, View.ld_unit_zero (S := S1x64) hz2]

theorem outB8 (c : Dev nD) (i : grid1.Coords) (a1 : Memref sig .tc .vmem S1000x16x64 .f32) (h1 : a1.IsWhole) (a2 : Memref sig .tc .vmem S1000x64 .f32) (h2 : a2.IsWhole) (a3 : Memref sig .tc .vmem S64 .f32) (h3 : a3.IsWhole) (a4 : Memref sig .tc .vmem S64 .f32) (h4 : a4.IsWhole) (a5 : Memref sig .tc .vmem S64 .f32) (h5 : a5.IsWhole) (a6 : Memref sig .tc .vmem S64 .f32) (h6 : a6.IsWhole) (a7 : Memref sig .tc .vmem S1000x64 .f32) (h7 : a7.IsWhole) (a8 : Memref sig .tc .vmem S1x64 .f32) (h8 : a8.IsWhole) (a9 : Memref sig .tc .vmem S1x64 .f32) (h9 : a9.IsWhole) (hc : ¬cond1_0 i) (x0 : Vec F S1000x16x64 .f32) (x1 : Vec F S1000x64 .f32) (x2 x3 x4 x5 : Vec F S64 .f32) (xo7 xo8 : Vec F S1x64 .f32) :
    out1_B_8 c i a1 h1 a2 h2 a3 h3 a4 h4 a5 h5 a6 h6 a7 h7 a8 h8 a9 h9 hc x0 x1 x2 x3 x4 x5 xo7 xo8 = k1_pay2 (k1_pay7 x0 x2 x3 x4 x5 x1) xo8 := by
  unfold out1_B_8
  rw [View.read_writes_eq_canon _ _ _ (cover1_B_8 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz2]
  simp only [View.readAt_eq_ld, h1.read_unread, h2.read_unread, h3.read_unread, h4.read_unread, h5.read_unread, h6.read_unread, h8.read_unread, h9.read_unread, View.ld_unit_zero (S := S1000x16x64) hz3, View.ld_unit_zero (S := S1000x64) hz2, View.ld_unit_zero (S := S64) hz1, View.ld_unit_zero (S := S1x64) hz2]

theorem outA6 (c : Dev nD) (i : grid1.Coords) (a1 : Memref sig .tc .vmem S1000x16x64 .f32) (h1 : a1.IsWhole) (a2 : Memref sig .tc .vmem S1000x64 .f32) (h2 : a2.IsWhole) (a3 : Memref sig .tc .vmem S64 .f32) (h3 : a3.IsWhole) (a4 : Memref sig .tc .vmem S64 .f32) (h4 : a4.IsWhole) (a5 : Memref sig .tc .vmem S64 .f32) (h5 : a5.IsWhole) (a6 : Memref sig .tc .vmem S64 .f32) (h6 : a6.IsWhole) (a7 : Memref sig .tc .vmem S1000x64 .f32) (h7 : a7.IsWhole) (a8 : Memref sig .tc .vmem S1x64 .f32) (h8 : a8.IsWhole) (a9 : Memref sig .tc .vmem S1x64 .f32) (h9 : a9.IsWhole) (hc : cond1_0 i) (x0 : Vec F S1000x16x64 .f32) (x1 : Vec F S1000x64 .f32) (x2 x3 x4 x5 : Vec F S64 .f32) :
    out1_A_6 c i a1 h1 a2 h2 a3 h3 a4 h4 a5 h5 a6 h6 a7 h7 a8 h8 a9 h9 hc x0 x1 x2 x3 x4 x5 = k1_pay5 x0 x2 x3 x4 x5 x1 := by
  unfold out1_A_6
  rw [View.read_writes_eq_canon _ _ _ (cover1_A_6 c i a1 h1 a2 h2 a3 h3 a4 h4 a5 h5 a6 h6 a7 h7 a8 h8 a9 h9 hc x0 x1 x2 x3 x4 x5)]
  unfold kernelRun1_A
  dsimp only
  sl_unfold_words
  rw [View.canon_unit_zero hz2]
  simp only [View.readAt_eq_ld, h1.read_unread, h2.read_unread, h3.read_unread, h4.read_unread, h5.read_unread, h6.read_unread, h8.read_unread, h9.read_unread, View.ld_unit_zero (S := S1000x16x64) hz3, View.ld_unit_zero (S := S1000x64) hz2, View.ld_unit_zero (S := S64) hz1, View.ld_unit_zero (S := S1x64) hz2]

theorem outA7 (c : Dev nD) (i : grid1.Coords) (a1 : Memref sig .tc .vmem S1000x16x64 .f32) (h1 : a1.IsWhole) (a2 : Memref sig .tc .vmem S1000x64 .f32) (h2 : a2.IsWhole) (a3 : Memref sig .tc .vmem S64 .f32) (h3 : a3.IsWhole) (a4 : Memref sig .tc .vmem S64 .f32) (h4 : a4.IsWhole) (a5 : Memref sig .tc .vmem S64 .f32) (h5 : a5.IsWhole) (a6 : Memref sig .tc .vmem S64 .f32) (h6 : a6.IsWhole) (a7 : Memref sig .tc .vmem S1000x64 .f32) (h7 : a7.IsWhole) (a8 : Memref sig .tc .vmem S1x64 .f32) (h8 : a8.IsWhole) (a9 : Memref sig .tc .vmem S1x64 .f32) (h9 : a9.IsWhole) (hc : cond1_0 i) (x0 : Vec F S1000x16x64 .f32) (x1 : Vec F S1000x64 .f32) (x2 x3 x4 x5 : Vec F S64 .f32) :
    out1_A_7 c i a1 h1 a2 h2 a3 h3 a4 h4 a5 h5 a6 h6 a7 h7 a8 h8 a9 h9 hc x0 x1 x2 x3 x4 x5 = k1_pay1 (k1_pay6 x0 x2 x3 x4 x5 x1) (k1_pay8 (k1_pay3 (F := F))) := by
  unfold out1_A_7
  rw [View.read_writes_eq_canon _ _ _ (cover1_A_7 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread, h8.read_unread, h9.read_unread, View.ld_unit_zero (S := S1000x16x64) hz3, View.ld_unit_zero (S := S1000x64) hz2, View.ld_unit_zero (S := S64) hz1, View.ld_unit_zero (S := S1x64) hz2]

theorem outA8 (c : Dev nD) (i : grid1.Coords) (a1 : Memref sig .tc .vmem S1000x16x64 .f32) (h1 : a1.IsWhole) (a2 : Memref sig .tc .vmem S1000x64 .f32) (h2 : a2.IsWhole) (a3 : Memref sig .tc .vmem S64 .f32) (h3 : a3.IsWhole) (a4 : Memref sig .tc .vmem S64 .f32) (h4 : a4.IsWhole) (a5 : Memref sig .tc .vmem S64 .f32) (h5 : a5.IsWhole) (a6 : Memref sig .tc .vmem S64 .f32) (h6 : a6.IsWhole) (a7 : Memref sig .tc .vmem S1000x64 .f32) (h7 : a7.IsWhole) (a8 : Memref sig .tc .vmem S1x64 .f32) (h8 : a8.IsWhole) (a9 : Memref sig .tc .vmem S1x64 .f32) (h9 : a9.IsWhole) (hc : cond1_0 i) (x0 : Vec F S1000x16x64 .f32) (x1 : Vec F S1000x64 .f32) (x2 x3 x4 x5 : Vec F S64 .f32) :
    out1_A_8 c i a1 h1 a2 h2 a3 h3 a4 h4 a5 h5 a6 h6 a7 h7 a8 h8 a9 h9 hc x0 x1 x2 x3 x4 x5 = k1_pay2 (k1_pay7 x0 x2 x3 x4 x5 x1) (k1_pay4 (F := F)) := by
  unfold out1_A_8
  rw [View.read_writes_eq_canon _ _ _ (cover1_A_8 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread, h8.read_unread, h9.read_unread, View.ld_unit_zero (S := S1000x16x64) hz3, View.ld_unit_zero (S := S1000x64) hz2, View.ld_unit_zero (S := S64) hz1, View.ld_unit_zero (S := S1x64) hz2]

end Cert.KernelIdeal.K2
end
-- ==== Proof.K2Value.lean ====
import proofs.«153973_j47287589929775_2_alg».proof.Proof.Gen.KernelIdeal.Skeleton
import proofs.«153973_j47287589929775_2_alg».proof.Proof.LibRowReduce
import proofs.«153973_j47287589929775_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

/-! The second and third kernels' arithmetic on one block, read entry by entry over the extended reals: the
    normalised, clipped linear layer, its maximum over a point's 16 neighbours added to the point's own feature,
    the step's two column sums over the block's 1000 rows; and the final normalisation of a block of 10000 rows. -/
namespace Cert.KernelIdeal.K2V

open Cert.KernelIdeal Cert.KernelIdeal.Gen Idealize.ShloMosaic Idealize.ShloMosaic.ValueIdx

/-- A per-channel vector laid out as `[1,1,64]` reads the vector at the channel. -/
theorem cast3 {α : Type} (x : S64.Idx → α) (h : S64.ShapeCasts S1x1x64) (d : Fin 64) :
    shapeCast S1x1x64 x h (ix3 (0 : Fin 1) (0 : Fin 1) d) = x (ix1 d) :=
  shapeCast_apply x h _ _ (by
    rw [Shape.rowMajor_val_three, Shape.rowMajor_val_one]
    show d.val = (0 * 1 + 0) * 64 + d.val
    omega)

/-- A `[1,1,64]` array repeated over a block's points and neighbours reads its one row at the channel. -/
theorem bcast3 {α : Type} (v : S1x1x64.Idx → α) (h : S1x1x64.Broadcasts S1000x16x64) (q : Fin 1000) (s : Fin 16) (d : Fin 64) :
    broadcastTo S1000x16x64 v h (ix3 q s d) = v (ix3 (0 : Fin 1) (0 : Fin 1) d) := by
  refine broadcastTo_apply v h (ix3 q s d) (ix3 (0 : Fin 1) (0 : Fin 1) d) fun ax => ?_
  match ax with
  | ⟨0, _⟩ => rfl
  | ⟨1, _⟩ => rfl
  | ⟨2, _⟩ => rfl

/-- The maximum over the middle axis: the source index over `(q, d)` with neighbour `s` is `(q, s, d)`. -/
theorem lift_mid (h : S1000x16x64.Reduces [1] S1000x64) (q : Fin 1000) (d : Fin 64) (s : Fin 16) :
    h.lift (ix2 q d) s = ix3 q s d :=
  funext fun c => Fin.ext (by
    match c with
    | ⟨0, _⟩ => rfl
    | ⟨1, _⟩ => rfl
    | ⟨2, _⟩ => rfl)

/-- Normalised, scaled, shifted, clipped below at zero: one entry of a block. -/
def actB (h : FVec Ideal S1000x16x64 .f32) (mean var γ β : FVec Ideal S64 .f32) (q : Fin 1000) (s : Fin 16) (d : Fin 64) : EReal :=
  max (γ (ix1 d) * (h (ix3 q s d) - mean (ix1 d)) * Ideal.rsqrt (var (ix1 d) + Cert.FP.eps) + β (ix1 d)) 0

/-- The point's own feature plus the largest of its 16 values. -/
def preB (h : FVec Ideal S1000x16x64 .f32) (f : FVec Ideal S1000x64 .f32) (mean var γ β : FVec Ideal S64 .f32) (q : Fin 1000) (d : Fin 64) : EReal :=
  f (ix2 q d) + (Finset.univ : Finset (Fin 16)).fold max Cert.FP.negInf fun s => actB h mean var γ β q s d

theorem pay5_apply (h : FVec Ideal S1000x16x64 .f32) (f : FVec Ideal S1000x64 .f32) (mean var γ β : FVec Ideal S64 .f32) (q : Fin 1000) (d : Fin 64) :
    k1_pay5 (F := Ideal) h mean var γ β f (ix2 q d) = preB h f mean var γ β q d := by
  unfold k1_pay5 preB
  rw [addf_apply]
  refine congrArg (f (ix2 q d) + ·) ?_
  refine (Ideal.multiReduction_maximumf_single _ _ reduces_S1000x16x64_S1000x64 _ _ (ix2 q d)).trans ?_
  refine congrArg (fun g => Finset.fold max _ g (Finset.univ : Finset (Fin 16))) (funext fun (s : Fin 16) => ?_)
  show maximumf _ _ (reduces_S1000x16x64_S1000x64.lift (ix2 q d) s) = _
  rw [lift_mid]
  unfold actB
  simp only [maximumf_apply, addf_apply, mulf_apply, subf_apply, bcast3, cast3, shapeCast_self, broadcast_apply]
  show max (γ (ix1 d) * (h (ix3 q s d) - mean (ix1 d)) * Ideal.rsqrt (addf (shapeCast S1x1x64 var shapeCasts_S64_S1x1x64) (broadcast S1x1x64 (FloatOps.ofBits .f32 0x3727C5AC#32)) (ix3 (0 : Fin 1) (0 : Fin 1) d)) + β (ix1 d)) (Ideal.ofBits .f32 0x00000000#32) = _
  rw [addf_apply, cast3, broadcast_apply, Ideal.ofBits_zero_f32]
  rfl

theorem pay1_apply (h : FVec Ideal S1000x16x64 .f32) (f : FVec Ideal S1000x64 .f32) (mean var γ β : FVec Ideal S64 .f32)
    (acc : FVec Ideal S1x64 .f32) (d : Fin 64) :
    k1_pay1 (F := Ideal) (k1_pay6 h mean var γ β f) (k1_pay8 acc) (ix2 (0 : Fin 1) d)
      = acc (ix2 (0 : Fin 1) d) + ∑ q : Fin 1000, k1_pay5 (F := Ideal) h mean var γ β f (ix2 q d) := by
  unfold k1_pay1 k1_pay6 k1_pay8
  rw [addf_apply, shapeCast_self, shapeCast_a_1a_apply]
  exact congrArg (acc (ix2 (0 : Fin 1) d) + ·) (Cert.LibRowReduce.col_sum _ _ _ _ _ d)

theorem pay2_apply (h : FVec Ideal S1000x16x64 .f32) (f : FVec Ideal S1000x64 .f32) (mean var γ β : FVec Ideal S64 .f32)
    (acc : FVec Ideal S1x64 .f32) (d : Fin 64) :
    k1_pay2 (F := Ideal) (k1_pay7 h mean var γ β f) acc (ix2 (0 : Fin 1) d)
      = acc (ix2 (0 : Fin 1) d) + ∑ q : Fin 1000, k1_pay5 (F := Ideal) h mean var γ β f (ix2 q d) * k1_pay5 (F := Ideal) h mean var γ β f (ix2 q d) := by
  unfold k1_pay2 k1_pay7
  rw [addf_apply, shapeCast_self, shapeCast_a_1a_apply]
  refine congrArg (acc (ix2 (0 : Fin 1) d) + ·) ((Cert.LibRowReduce.col_sum _ _ _ _ _ d).trans ?_)
  rfl

theorem pay3_apply (i : S1x64.Idx) : k1_pay3 (F := Ideal) i = 0 := by
  unfold k1_pay3; exact Ideal.ofBits_zero_f32
theorem pay4_apply (i : S1x64.Idx) : k1_pay4 (F := Ideal) i = 0 := by
  unfold k1_pay4; exact Ideal.ofBits_zero_f32

/-! ## The third kernel: the final normalisation of a block of 10000 rows -/

/-- One entry of the final normalisation. -/
def outB (x : FVec Ideal S10000x64 .f32) (mean var γ β : FVec Ideal S64 .f32) (q : Fin 10000) (d : Fin 64) : EReal :=
  γ (ix1 d) * (x (ix2 q d) - mean (ix1 d)) * Ideal.rsqrt (var (ix1 d) + Cert.FP.eps) + β (ix1 d)

theorem k3_apply (x : FVec Ideal S10000x64 .f32) (mean var γ β : FVec Ideal S64 .f32) (q : Fin 10000) (d : Fin 64) :
    k2_pay1 (F := Ideal) x mean var γ β (ix2 q d) = outB x mean var γ β q d := by
  unfold k2_pay1 outB
  simp only [addf_apply, mulf_apply, subf_apply, broadcastTo_1b_ab_apply, shapeCast_a_1a_apply, shapeCast_self]
  show γ (ix1 d) * (x (ix2 q d) - mean (ix1 d)) * Ideal.rsqrt (addf (shapeCast S1x64 var shapeCasts_S64_S1x64) (broadcast S1x64 (FloatOps.ofBits .f32 0x3727C5AC#32)) (ix2 (0 : Fin 1) d)) + β (ix1 d) = _
  rw [addf_apply, shapeCast_a_1a_apply, broadcast_apply]
  rfl

end Cert.KernelIdeal.K2V

end
-- ==== Proof.K2Array.lean ====
import proofs.«153973_j47287589929775_2_alg».proof.Proof.K2Pieces
import proofs.«153973_j47287589929775_2_alg».proof.Proof.K2Value
import proofs.«153973_j47287589929775_2_alg».proof.Proof.Spec
import proofs.«153973_j47287589929775_2_alg».proof.Proof.SpecBridge
import Idealize.ShloMosaic.Lib.Pipeline.Value
import Idealize.ShloMosaic.Lib.ValueIdx

noncomputable section

open scoped BigOperators

/-! The second kernel's three output arrays after its 100 grid steps, from whatever its input arrays hold when it
    starts: per point and channel the pooled, normalised layer added to the point's own feature, and per channel the
    sum of that over all points and the sum of its squares — each step adds its 1000 rows to the running sums, which
    start at zero and are written back once, after the last step. -/
namespace Cert.KernelIdeal.K2A

open Cert.KernelIdeal Cert.KernelIdeal.Gen Idealize.ShloMosaic Idealize.ShloMosaic.ValueIdx Idealize.ShloMosaic.TcCoe
open Idealize.ShloMosaic.Pipeline (Dat)
open Cert.KernelIdeal.K2V

variable (V : (c : Dev nD) → (b : Ref sig .tc) → Buf (Elt Ideal) ((c : Thread nD τ).loc b))

/-- What the kernel finds in its input arrays, by coordinates. -/
def hV (c : Dev nD) : Fin 100000 → Fin 16 → Fin 64 → EReal := fun p s d => V c main_v7_0 (ix3 p s d)
def fV (c : Dev nD) : Fin 100000 → Fin 64 → EReal := fun p d => V c main_arg0 (ix2 p d)
def meanV (c : Dev nD) : Fin 64 → EReal := fun d => V c main_v10 (ix1 d)
def varV (c : Dev nD) : Fin 64 → EReal := fun d => V c main_v15 (ix1 d)
def g1V (c : Dev nD) : Fin 64 → EReal := fun d => V c main_arg5 (ix1 d)
def b1V (c : Dev nD) : Fin 64 → EReal := fun d => V c main_arg6 (ix1 d)

/-- The point's own feature plus the largest of its 16 normalised, clipped values. -/
def preV (c : Dev nD) (p : Fin 100000) (d : Fin 64) : EReal :=
  fV V c p d + (Finset.univ : Finset (Fin 16)).fold max Cert.FP.negInf fun s =>
    max (g1V V c d * (hV V c p s d - meanV V c d) * Ideal.rsqrt (varV V c d + Cert.FP.eps) + b1V V c d) 0

/-- An array of the points' shape from a function of the coordinates. -/
def arr2 (f : Fin 100000 → Fin 64 → EReal) : S100000x64.Idx → EReal :=
  fun i => f ⟨(i 0).val, (i 0).isLt⟩ ⟨(i 1).val, (i 1).isLt⟩

theorem hN : cfg1.N = 100 := N_1

theorem idx1 : ∀ t : Fin cfg1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0 ∧ win1_5.index t (0 : Fin 1) = 0
    ∧ win1_6.index t (0 : Fin 2) = t.val ∧ win1_6.index t (1 : Fin 2) = 0
    ∧ win1_7.index t (0 : Fin 2) = 0 ∧ win1_7.index t (1 : Fin 2) = 0 ∧ win1_8.index t (0 : Fin 2) = 0 ∧ win1_8.index t (1 : Fin 2) = 0 :=
  (by decide +kernel : ∀ t : Fin grid1.N, _)

theorem blk0 (c : Dev nD) (t : Fin cfg1.N) (q : Fin 1000) (s : Fin 16) (d : Fin 64) (p : Fin 100000)
    (hp : p.val = t.val * 1000 + q.val) :
    (iblk1 V c 0 t : Vec Ideal S1000x16x64 .f32) (ix3 q s d) = hV V c p s d := by
  obtain ⟨e0, e1, e2, -⟩ := idx1 t
  unfold iblk1 hV
  rw [View.read_apply]
  show V c main_v7_0 _ = V c main_v7_0 _
  refine congrArg (V c main_v7_0) (funext fun a => Fin.ext ?_)
  match a with
  | ⟨0, _⟩ => show win1_0.index t (0 : Fin 3) * 1000 + 1 * q.val = p.val; rw [e0, hp]; omega
  | ⟨1, _⟩ => show win1_0.index t (1 : Fin 3) * 16 + 1 * s.val = s.val; rw [e1]; omega
  | ⟨2, _⟩ => show win1_0.index t (2 : Fin 3) * 64 + 1 * d.val = d.val; rw [e2]; omega
theorem blk1 (c : Dev nD) (t : Fin cfg1.N) (q : Fin 1000) (d : Fin 64) (p : Fin 100000)
    (hp : p.val = t.val * 1000 + q.val) :
    (iblk1 V c 1 t : Vec Ideal S1000x64 .f32) (ix2 q d) = fV V c p d := by
  obtain ⟨-, -, -, e0, e1, -⟩ := idx1 t
  unfold iblk1 fV
  rw [View.read_apply]
  show V c main_arg0 _ = V c main_arg0 _
  refine congrArg (V c main_arg0) (funext fun a => Fin.ext ?_)
  match a with
  | ⟨0, _⟩ => show win1_1.index t (0 : Fin 2) * 1000 + 1 * q.val = p.val; rw [e0, hp]; omega
  | ⟨1, _⟩ => show win1_1.index t (1 : Fin 2) * 64 + 1 * d.val = d.val; rw [e1]; omega
theorem blk2 (c : Dev nD) (t : Fin cfg1.N) (d : Fin 64) : (iblk1 V c 2 t : Vec Ideal S64 .f32) (ix1 d) = meanV V c d := by
  obtain ⟨-, -, -, -, -, e0, -⟩ := idx1 t
  unfold iblk1 meanV
  rw [View.read_apply]
  show V c main_v10 _ = V c main_v10 _
  refine congrArg (V c main_v10) (funext fun a => Fin.ext ?_)
  match a with
  | ⟨0, _⟩ => show win1_2.index t (0 : Fin 1) * 64 + 1 * d.val = d.val; rw [e0]; omega
theorem blk3 (c : Dev nD) (t : Fin cfg1.N) (d : Fin 64) : (iblk1 V c 3 t : Vec Ideal S64 .f32) (ix1 d) = varV V c d := by
  obtain ⟨-, -, -, -, -, -, e0, -⟩ := idx1 t
  unfold iblk1 varV
  rw [View.read_apply]
  show V c main_v15 _ = V c main_v15 _
  refine congrArg (V c main_v15) (funext fun a => Fin.ext ?_)
  match a with
  | ⟨0, _⟩ => show win1_3.index t (0 : Fin 1) * 64 + 1 * d.val = d.val; rw [e0]; omega
theorem blk4 (c : Dev nD) (t : Fin cfg1.N) (d : Fin 64) : (iblk1 V c 4 t : Vec Ideal S64 .f32) (ix1 d) = g1V V c d := by
  obtain ⟨-, -, -, -, -, -, -, e0, -⟩ := idx1 t
  unfold iblk1 g1V
  rw [View.read_apply]
  show V c main_arg5 _ = V c main_arg5 _
  refine congrArg (V c main_arg5) (funext fun a => Fin.ext ?_)
  match a with
  | ⟨0, _⟩ => show win1_4.index t (0 : Fin 1) * 64 + 1 * d.val = d.val; rw [e0]; omega
theorem blk5 (c : Dev nD) (t : Fin cfg1.N) (d : Fin 64) : (iblk1 V c 5 t : Vec Ideal S64 .f32) (ix1 d) = b1V V c d := by
  obtain ⟨-, -, -, -, -, -, -, -, e0, -⟩ := idx1 t
  unfold iblk1 b1V
  rw [View.read_apply]
  show V c main_arg6 _ = V c main_arg6 _
  refine congrArg (V c main_arg6) (funext fun a => Fin.ext ?_)
  match a with
  | ⟨0, _⟩ => show win1_5.index t (0 : Fin 1) * 64 + 1 * d.val = d.val; rw [e0]; omega

/-- The pooled value on step `t`'s block is the pooled value on the whole, at the block's points. -/
theorem preB_eq (c : Dev nD) (t : Fin cfg1.N) (q : Fin 1000) (d : Fin 64) (p : Fin 100000)
    (hp : p.val = t.val * 1000 + q.val) :
    preB (iblk1 V c 0 t) (iblk1 V c 1 t) (iblk1 V c 2 t) (iblk1 V c 3 t) (iblk1 V c 4 t) (iblk1 V c 5 t) q d = preV V c p d := by
  unfold preB preV actB
  rw [blk1 V c t q d p hp, blk2, blk3, blk4, blk5]
  refine congrArg (fV V c p d + ·) ?_
  refine congrArg (fun g => Finset.fold max Cert.FP.negInf g (Finset.univ : Finset (Fin 16))) (funext fun s => ?_)
  rw [blk0 V c t q s d p hp]

/-! ## The running sums -/

def acc (g : Fin cfg1.N → EReal) : (n : ℕ) → n < cfg1.N → EReal
  | 0, h => 0 + g ⟨0, h⟩
  | n + 1, h => acc g n (Nat.lt_of_succ_lt h) + g ⟨n + 1, h⟩

theorem acc_eq_sum (g : Fin cfg1.N → EReal) : ∀ (n : ℕ) (h : n < cfg1.N),
    acc g n h = ∑ t : Fin (n + 1), g ⟨t.val, lt_of_lt_of_le t.isLt (Nat.succ_le_of_lt h)⟩
  | 0, h => by
    rw [Fin.sum_univ_one]; exact zero_add _
  | n + 1, h => by
    rw [Fin.sum_univ_castSucc]
    show acc g n (Nat.lt_of_succ_lt h) + g ⟨n + 1, h⟩ = _
    rw [acc_eq_sum g n (Nat.lt_of_succ_lt h)]; rfl

def col2 (c : Dev nD) (d : Fin 64) (t : Fin cfg1.N) : EReal :=
  ∑ q : Fin 1000, k1_pay5 (F := Ideal) (iblk1 V c 0 t) (iblk1 V c 2 t) (iblk1 V c 3 t) (iblk1 V c 4 t) (iblk1 V c 5 t) (iblk1 V c 1 t) (ix2 q d)
def colsq2 (c : Dev nD) (d : Fin 64) (t : Fin cfg1.N) : EReal :=
  ∑ q : Fin 1000, k1_pay5 (F := Ideal) (iblk1 V c 0 t) (iblk1 V c 2 t) (iblk1 V c 3 t) (iblk1 V c 4 t) (iblk1 V c 5 t) (iblk1 V c 1 t) (ix2 q d) * k1_pay5 (F := Ideal) (iblk1 V c 0 t) (iblk1 V c 2 t) (iblk1 V c 3 t) (iblk1 V c 4 t) (iblk1 V c 5 t) (iblk1 V c 1 t) (ix2 q d)

theorem ptA6 (c : Dev nD) (t : Fin cfg1.N) (h0 : t.val % 100 = 0) :
    (outsAt1 V c t.val t.isLt).1 = k1_pay5 (F := Ideal) (iblk1 V c 0 t) (iblk1 V c 2 t) (iblk1 V c 3 t) (iblk1 V c 4 t) (iblk1 V c 5 t) (iblk1 V c 1 t) :=
  by rw [outsAt1_A V c t h0]; dsimp only; exact K2.outA6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)
theorem ptA7 (c : Dev nD) (t : Fin cfg1.N) (h0 : t.val % 100 = 0) :
    (outsAt1 V c t.val t.isLt).2.1 = k1_pay1 (F := Ideal) (k1_pay6 (iblk1 V c 0 t) (iblk1 V c 2 t) (iblk1 V c 3 t) (iblk1 V c 4 t) (iblk1 V c 5 t) (iblk1 V c 1 t)) (k1_pay8 (k1_pay3 (F := Ideal))) :=
  by rw [outsAt1_A V c t h0]; dsimp only; exact K2.outA7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)
theorem ptA8 (c : Dev nD) (t : Fin cfg1.N) (h0 : t.val % 100 = 0) :
    (outsAt1 V c t.val t.isLt).2.2 = k1_pay2 (F := Ideal) (k1_pay7 (iblk1 V c 0 t) (iblk1 V c 2 t) (iblk1 V c 3 t) (iblk1 V c 4 t) (iblk1 V c 5 t) (iblk1 V c 1 t)) (k1_pay4 (F := Ideal)) :=
  by rw [outsAt1_A V c t h0]; dsimp only; exact K2.outA8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)
theorem ptB6 (c : Dev nD) (t : Fin cfg1.N) (h0 : ¬t.val % 100 = 0) :
    (outsAt1 V c t.val t.isLt).1 = k1_pay5 (F := Ideal) (iblk1 V c 0 t) (iblk1 V c 2 t) (iblk1 V c 3 t) (iblk1 V c 4 t) (iblk1 V c 5 t) (iblk1 V c 1 t) :=
  by rw [outsAt1_B V c t h0]; dsimp only; exact K2.outB6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2
theorem ptB7 (c : Dev nD) (t : Fin cfg1.N) (h0 : ¬t.val % 100 = 0) :
    (outsAt1 V c t.val t.isLt).2.1 = k1_pay1 (F := Ideal) (k1_pay6 (iblk1 V c 0 t) (iblk1 V c 2 t) (iblk1 V c 3 t) (iblk1 V c 4 t) (iblk1 V c 5 t) (iblk1 V c 1 t)) (k1_pay8 (outsAt1 V c (t.val - 1) (Nat.lt_of_le_of_lt (Nat.sub_le _ _) t.isLt)).2.1) :=
  by rw [outsAt1_B V c t h0]; dsimp only; exact K2.outB7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2
theorem ptB8 (c : Dev nD) (t : Fin cfg1.N) (h0 : ¬t.val % 100 = 0) :
    (outsAt1 V c t.val t.isLt).2.2 = k1_pay2 (F := Ideal) (k1_pay7 (iblk1 V c 0 t) (iblk1 V c 2 t) (iblk1 V c 3 t) (iblk1 V c 4 t) (iblk1 V c 5 t) (iblk1 V c 1 t)) (outsAt1 V c (t.val - 1) (Nat.lt_of_le_of_lt (Nat.sub_le _ _) t.isLt)).2.2 :=
  by rw [outsAt1_B V c t h0]; dsimp only; exact K2.outB8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2

/-- What the three output buffers hold after step `n`: the pooled block, and the two running sums. -/
theorem outsAt_eq (c : Dev nD) : ∀ (n : ℕ) (hn : n < cfg1.N),
    (outsAt1 V c n hn).1 = k1_pay5 (F := Ideal) (iblk1 V c 0 ⟨n, hn⟩) (iblk1 V c 2 ⟨n, hn⟩) (iblk1 V c 3 ⟨n, hn⟩) (iblk1 V c 4 ⟨n, hn⟩) (iblk1 V c 5 ⟨n, hn⟩) (iblk1 V c 1 ⟨n, hn⟩)
    ∧ (∀ d : Fin 64, (outsAt1 V c n hn).2.1 (ix2 (0 : Fin 1) d) = acc (col2 V c d) n hn)
    ∧ (∀ d : Fin 64, (outsAt1 V c n hn).2.2 (ix2 (0 : Fin 1) d) = acc (colsq2 V c d) n hn)
  | 0, hn => by
    have h0 : (⟨0, hn⟩ : Fin cfg1.N).val % 100 = 0 := Nat.zero_mod 100
    refine ⟨ptA6 V c ⟨0, hn⟩ h0, fun d => ?_, fun d => ?_⟩
    · refine (congrFun (ptA7 V c ⟨0, hn⟩ h0) (ix2 (0 : Fin 1) d)).trans ?_
      refine (pay1_apply _ _ _ _ _ _ _ d).trans ?_
      rw [pay3_apply]; rfl
    · refine (congrFun (ptA8 V c ⟨0, hn⟩ h0) (ix2 (0 : Fin 1) d)).trans ?_
      refine (pay2_apply _ _ _ _ _ _ _ d).trans ?_
      rw [pay4_apply]; rfl
  | n + 1, hn => by
    have hB : ¬(⟨n + 1, hn⟩ : Fin cfg1.N).val % 100 = 0 := by
      have := hN; dsimp only; omega
    obtain ⟨-, ih7, ih8⟩ := outsAt_eq c n (Nat.lt_of_succ_lt hn)
    refine ⟨ptB6 V c ⟨n + 1, hn⟩ hB, fun d => ?_, fun d => ?_⟩
    · refine (congrFun (ptB7 V c ⟨n + 1, hn⟩ hB) (ix2 (0 : Fin 1) d)).trans ?_
      refine (pay1_apply _ _ _ _ _ _ _ d).trans ?_
      show (outsAt1 V c n (Nat.lt_of_succ_lt hn)).2.1 (ix2 (0 : Fin 1) d) + _ = _
      rw [ih7 d]; rfl
    · refine (congrFun (ptB8 V c ⟨n + 1, hn⟩ hB) (ix2 (0 : Fin 1) d)).trans ?_
      refine (pay2_apply _ _ _ _ _ _ _ d).trans ?_
      show (outsAt1 V c n (Nat.lt_of_succ_lt hn)).2.2 (ix2 (0 : Fin 1) d) + _ = _
      rw [ih8 d]; rfl

end Cert.KernelIdeal.K2A

end
-- ==== Proof.K2Final.lean ====
import proofs.«153973_j47287589929775_2_alg».proof.Proof.K2Array

noncomputable section

open scoped BigOperators

/-! The second kernel's output arrays once its write-backs are done: every step writes its block of pooled
    features back, and the blocks tile the array; the two running sums are written back once, after the last step. -/
namespace Cert.KernelIdeal.K2A

open Cert.KernelIdeal Cert.KernelIdeal.Gen Idealize.ShloMosaic Idealize.ShloMosaic.ValueIdx Idealize.ShloMosaic.TcCoe
open Idealize.ShloMosaic.Pipeline (Dat)
open Cert.KernelIdeal.K2V

variable (V : (c : Dev nD) → (b : Ref sig .tc) → Buf (Elt Ideal) ((c : Thread nD τ).loc b))

/-- A stored block against the whole array: the entry `y` of step `tv`'s block is the value at point `1000 tv + y₀`. -/
theorem blockval (h : FVec Ideal S1000x16x64 .f32) (fb : FVec Ideal S1000x64 .f32) (mean var γ β : FVec Ideal S64 .f32)
    (f : Fin 100000 → Fin 64 → EReal) (tv : ℕ)
    (hpre : ∀ (q : Fin 1000) (d : Fin 64) (p : Fin 100000), p.val = tv * 1000 + q.val → preB h fb mean var γ β q d = f p d)
    (y : S1000x64.Idx) (i : S100000x64.Idx) (h0 : (i 0).val = tv * 1000 + (y 0).val) (h1 : (i 1).val = (y 1).val) :
    k1_pay5 (F := Ideal) h mean var γ β fb y = arr2 f i := by
  obtain ⟨q, d, rfl⟩ : ∃ (q : Fin 1000) (d : Fin 64), y = ix2 q d := ⟨y 0, y 1, eq_ix2 y⟩
  rw [pay5_apply, hpre q d ⟨(i 0).val, (i 0).isLt⟩ h0]
  unfold arr2
  congr 1
  exact Fin.ext h1.symm

theorem flushed6 (c : Dev nD) (t : Fin cfg1.N) :
    (dat1 V c).flushed 6 t = ((cfg1.win 6).blk t).view.read (Elt Ideal) (arr2 (preV V c)) := by
  obtain ⟨-, -, -, -, -, -, -, -, -, e0, e1, -⟩ := idx1 t
  show (cfg1.win 6).cut (grid1.coords t) ((dat1 V c).after 6 t) = _
  rw [after1_6, (outsAt_eq V c t.val t.isLt).1]
  funext j
  rw [View.read_apply]
  show k1_pay5 (F := Ideal) (iblk1 V c 0 t) (iblk1 V c 2 t) (iblk1 V c 3 t) (iblk1 V c 4 t) (iblk1 V c 5 t) (iblk1 V c 1 t) j = arr2 (preV V c) (((cfg1.win 6).blk t).view.emb j)
  refine blockval (iblk1 V c 0 t) (iblk1 V c 1 t) (iblk1 V c 2 t) (iblk1 V c 3 t) (iblk1 V c 4 t) (iblk1 V c 5 t) (preV V c) t.val
    (fun q d p hp => preB_eq V c t q d p hp) j _ ?_ ?_
  · show win1_6.index t (0 : Fin 2) * 1000 + 1 * (j 0).val = t.val * 1000 + (j 0).val; rw [e0]; omega
  · show win1_6.index t (1 : Fin 2) * 64 + 1 * (j 1).val = (j 1).val; rw [e1]; omega

theorem mem_blk6 (t : Fin cfg1.N) (i : S100000x64.Idx) :
    i ∈ ((cfg1.win 6).blk t).view.set ↔ ∀ a : Fin 2, win1_6.index t a * S1000x64.size a ≤ (i a).val ∧ (i a).val < win1_6.index t a * S1000x64.size a + S1000x64.size a := by
  show i ∈ ((View.whole main_v16_0).slice (win1_6.rect t)).set ↔ _
  rw [View.set_slice_whole, Rect.mem_set_unit]
  exact Iff.rfl

/-- The pooled array after the kernel. -/
theorem final6 (c : Dev nD) : (dat1 V c).arrAt 6 cfg1.N = arr2 (preV V c) :=
  (dat1 V c).arrAt_eq_of_cover 6 _ (fun t _ => flushed6 V c t) fun i => by
    have hi0 : (i 0).val < 100000 := (i 0).isLt
    have hi1 : (i 1).val < 64 := (i 1).isLt
    have hlt : (i 0).val / 1000 < cfg1.N := by rw [hN]; omega
    obtain ⟨-, -, -, -, -, -, -, -, -, e0, e1, -⟩ := idx1 ⟨(i 0).val / 1000, hlt⟩
    refine ⟨⟨(i 0).val / 1000, hlt⟩, flush1_6 _, ?_⟩
    rw [mem_blk6]
    intro a
    match a with
    | ⟨0, _⟩ =>
      show win1_6.index ⟨(i 0).val / 1000, hlt⟩ (0 : Fin 2) * 1000 ≤ (i 0).val ∧ (i 0).val < win1_6.index ⟨(i 0).val / 1000, hlt⟩ (0 : Fin 2) * 1000 + 1000
      rw [e0]; dsimp only; omega
    | ⟨1, _⟩ =>
      show win1_6.index ⟨(i 0).val / 1000, hlt⟩ (1 : Fin 2) * 64 ≤ (i 1).val ∧ (i 1).val < win1_6.index ⟨(i 0).val / 1000, hlt⟩ (1 : Fin 2) * 64 + 64
      rw [e1]; omega

/-! ## The two sums: written back after the last step -/

/-- The sums' buffers after step `n`, as contents of their arrays. -/
abbrev resAt7 (c : Dev nD) (n : ℕ) (hn : n < cfg1.N) : Buf (Elt Ideal) ((c : Thread nD τ).loc main_v16_1) := (outsAt1 V c n hn).2.1
abbrev resAt8 (c : Dev nD) (n : ℕ) (hn : n < cfg1.N) : Buf (Elt Ideal) ((c : Thread nD τ).loc main_v16_2) := (outsAt1 V c n hn).2.2

theorem flushed7 (c : Dev nD) (n : ℕ) (hn : n < cfg1.N) (h99 : n = 99) (t : Fin cfg1.N) (hf : (cfg1.win 7).flush t = true) :
    (dat1 V c).flushed 7 t = ((cfg1.win 7).blk t).view.read (Elt Ideal) (resAt7 V c n hn) := by
  have h3 : t.val = n := by have := (flush1_7 t).mp hf; have := t.isLt; have := hN; omega
  obtain ⟨-, -, -, -, -, -, -, -, -, -, -, e0, e1, -⟩ := idx1 t
  show (cfg1.win 7).cut (grid1.coords t) ((dat1 V c).after 7 t) = _
  rw [after1_7]
  have hres : ∀ (k : ℕ) (hk : k < cfg1.N), k = n → (outsAt1 V c k hk).2.1 = resAt7 V c n hn := by
    intro k hk e; subst e; rfl
  rw [hres t.val t.isLt h3]
  have hz' : (fun a => win1_7.index t a * main_v16_1.ty.shape.size a) = fun _ => 0 := funext fun a => by
    match a with
    | ⟨0, _⟩ => show win1_7.index t (0 : Fin 2) * 1 = 0; rw [e0]
    | ⟨1, _⟩ => show win1_7.index t (1 : Fin 2) * 64 = 0; rw [e1]
  exact (Memref.read_access_unit_zero (Elt Ideal) main_v16_1 hz' (fun a => by rw [congrFun hz' a]; simp) (resAt7 V c n hn)).symm

theorem mem_blk7 (t : Fin cfg1.N) (i : S1x64.Idx) :
    i ∈ ((cfg1.win 7).blk t).view.set ↔ ∀ a : Fin 2, win1_7.index t a * S1x64.size a ≤ (i a).val ∧ (i a).val < win1_7.index t a * S1x64.size a + S1x64.size a := by
  show i ∈ ((View.whole main_v16_1).slice (win1_7.rect t)).set ↔ _
  rw [View.set_slice_whole, Rect.mem_set_unit]
  exact Iff.rfl

theorem final7 (c : Dev nD) (n : ℕ) (hn : n < cfg1.N) (h99 : n = 99) : (dat1 V c).arrAt 7 cfg1.N = resAt7 V c n hn :=
  (dat1 V c).arrAt_eq_of_cover 7 (resAt7 V c n hn) (flushed7 V c n hn h99) fun i => by
    have hi0 : (i 0).val < 1 := (i 0).isLt
    have hi1 : (i 1).val < 64 := (i 1).isLt
    obtain ⟨-, -, -, -, -, -, -, -, -, -, -, e0, e1, -⟩ := idx1 ⟨n, hn⟩
    refine ⟨⟨n, hn⟩, (flush1_7 _).mpr (by show n % 100 = 99; rw [h99]), ?_⟩
    rw [mem_blk7]
    intro a
    match a with
    | ⟨0, _⟩ => show win1_7.index ⟨n, hn⟩ (0 : Fin 2) * 1 ≤ (i 0).val ∧ (i 0).val < win1_7.index ⟨n, hn⟩ (0 : Fin 2) * 1 + 1; rw [e0]; omega
    | ⟨1, _⟩ => show win1_7.index ⟨n, hn⟩ (1 : Fin 2) * 64 ≤ (i 1).val ∧ (i 1).val < win1_7.index ⟨n, hn⟩ (1 : Fin 2) * 64 + 64; rw [e1]; omega

theorem flushed8 (c : Dev nD) (n : ℕ) (hn : n < cfg1.N) (h99 : n = 99) (t : Fin cfg1.N) (hf : (cfg1.win 8).flush t = true) :
    (dat1 V c).flushed 8 t = ((cfg1.win 8).blk t).view.read (Elt Ideal) (resAt8 V c n hn) := by
  have h3 : t.val = n := by have := (flush1_8 t).mp hf; have := t.isLt; have := hN; omega
  obtain ⟨-, -, -, -, -, -, -, -, -, -, -, -, -, e0, e1⟩ := idx1 t
  show (cfg1.win 8).cut (grid1.coords t) ((dat1 V c).after 8 t) = _
  rw [after1_8]
  have hres : ∀ (k : ℕ) (hk : k < cfg1.N), k = n → (outsAt1 V c k hk).2.2 = resAt8 V c n hn := by
    intro k hk e; subst e; rfl
  rw [hres t.val t.isLt h3]
  have hz' : (fun a => win1_8.index t a * main_v16_2.ty.shape.size a) = fun _ => 0 := funext fun a => by
    match a with
    | ⟨0, _⟩ => show win1_8.index t (0 : Fin 2) * 1 = 0; rw [e0]
    | ⟨1, _⟩ => show win1_8.index t (1 : Fin 2) * 64 = 0; rw [e1]
  exact (Memref.read_access_unit_zero (Elt Ideal) main_v16_2 hz' (fun a => by rw [congrFun hz' a]; simp) (resAt8 V c n hn)).symm

theorem mem_blk8 (t : Fin cfg1.N) (i : S1x64.Idx) :
    i ∈ ((cfg1.win 8).blk t).view.set ↔ ∀ a : Fin 2, win1_8.index t a * S1x64.size a ≤ (i a).val ∧ (i a).val < win1_8.index t a * S1x64.size a + S1x64.size a := by
  show i ∈ ((View.whole main_v16_2).slice (win1_8.rect t)).set ↔ _
  rw [View.set_slice_whole, Rect.mem_set_unit]
  exact Iff.rfl

theorem final8 (c : Dev nD) (n : ℕ) (hn : n < cfg1.N) (h99 : n = 99) : (dat1 V c).arrAt 8 cfg1.N = resAt8 V c n hn :=
  (dat1 V c).arrAt_eq_of_cover 8 (resAt8 V c n hn) (flushed8 V c n hn h99) fun i => by
    have hi0 : (i 0).val < 1 := (i 0).isLt
    have hi1 : (i 1).val < 64 := (i 1).isLt
    obtain ⟨-, -, -, -, -, -, -, -, -, -, -, -, -, e0, e1⟩ := idx1 ⟨n, hn⟩
    refine ⟨⟨n, hn⟩, (flush1_8 _).mpr (by show n % 100 = 99; rw [h99]), ?_⟩
    rw [mem_blk8]
    intro a
    match a with
    | ⟨0, _⟩ => show win1_8.index ⟨n, hn⟩ (0 : Fin 2) * 1 ≤ (i 0).val ∧ (i 0).val < win1_8.index ⟨n, hn⟩ (0 : Fin 2) * 1 + 1; rw [e0]; omega
    | ⟨1, _⟩ => show win1_8.index ⟨n, hn⟩ (1 : Fin 2) * 64 ≤ (i 1).val ∧ (i 1).val < win1_8.index ⟨n, hn⟩ (1 : Fin 2) * 64 + 64; rw [e1]; omega

/-! ## The sums as sums over all points -/

theorem col2_eq (c : Dev nD) (d : Fin 64) (t : Fin cfg1.N) :
    col2 V c d t = ∑ q : Fin 1000, preV V c ⟨t.val * 1000 + q.val, by have := t.isLt; have := hN; have := q.isLt; omega⟩ d := by
  unfold col2
  refine Finset.sum_congr rfl fun q _ => ?_
  rw [pay5_apply]
  exact preB_eq V c t q d ⟨t.val * 1000 + q.val, by have := t.isLt; have := hN; have := q.isLt; omega⟩ rfl
theorem colsq2_eq (c : Dev nD) (d : Fin 64) (t : Fin cfg1.N) :
    colsq2 V c d t = ∑ q : Fin 1000, preV V c ⟨t.val * 1000 + q.val, by have := t.isLt; have := hN; have := q.isLt; omega⟩ d
      * preV V c ⟨t.val * 1000 + q.val, by have := t.isLt; have := hN; have := q.isLt; omega⟩ d := by
  unfold colsq2
  refine Finset.sum_congr rfl fun q _ => ?_
  rw [pay5_apply, preB_eq V c t q d ⟨t.val * 1000 + q.val, by have := t.isLt; have := hN; have := q.isLt; omega⟩ rfl]

theorem sum2_val (c : Dev nD) (n : ℕ) (hn : n < cfg1.N) (h99 : n = 99) (d : Fin 64) :
    resAt7 V c n hn (ix2 (0 : Fin 1) d) = ∑ p : Fin 100000, preV V c p d := by
  show (outsAt1 V c n hn).2.1 (ix2 (0 : Fin 1) d) = _
  rw [(outsAt_eq V c n hn).2.1 d, acc_eq_sum]
  subst h99
  rw [← Cert.FP.sum_tiles_points]
  refine Finset.sum_congr rfl fun t _ => ?_
  rw [col2_eq]
theorem sumsq2_val (c : Dev nD) (n : ℕ) (hn : n < cfg1.N) (h99 : n = 99) (d : Fin 64) :
    resAt8 V c n hn (ix2 (0 : Fin 1) d) = ∑ p : Fin 100000, preV V c p d * preV V c p d := by
  show (outsAt1 V c n hn).2.2 (ix2 (0 : Fin 1) d) = _
  rw [(outsAt_eq V c n hn).2.2 d, acc_eq_sum]
  subst h99
  rw [← Cert.FP.sum_tiles_points (fun p => preV V c p d * preV V c p d)]
  refine Finset.sum_congr rfl fun t _ => ?_
  rw [colsq2_eq]

/-- A one-row array from a function of the channel. -/
def row1 (f : Fin 64 → EReal) : S1x64.Idx → EReal := fun i => f ⟨(i 1).val, (i 1).isLt⟩

/-- The first sum's array after the kernel: per channel, the pooled values summed over all points. -/
theorem final7_val (c : Dev nD) : (dat1 V c).arrAt 7 cfg1.N
    = (row1 (fun d => ∑ p : Fin 100000, preV V c p d) : Buf (Elt Ideal) ((c : Thread nD τ).loc main_v16_1)) := by
  obtain ⟨n, hn, e⟩ : ∃ n, ∃ _ : n < cfg1.N, n = 99 := ⟨99, by rw [hN]; decide, rfl⟩
  rw [final7 V c n hn e]
  funext i
  obtain ⟨u, d, rfl⟩ : ∃ (u : Fin 1) (d : Fin 64), i = ix2 u d := ⟨i 0, i 1, eq_ix2 i⟩
  obtain rfl : u = 0 := Subsingleton.elim _ _
  exact sum2_val V c n hn e d
/-- The second sum's array after the kernel: per channel, the squared pooled values summed over all points. -/
theorem final8_val (c : Dev nD) : (dat1 V c).arrAt 8 cfg1.N
    = (row1 (fun d => ∑ p : Fin 100000, preV V c p d * preV V c p d) : Buf (Elt Ideal) ((c : Thread nD τ).loc main_v16_2)) := by
  obtain ⟨n, hn, e⟩ : ∃ n, ∃ _ : n < cfg1.N, n = 99 := ⟨99, by rw [hN]; decide, rfl⟩
  rw [final8 V c n hn e]
  funext i
  obtain ⟨u, d, rfl⟩ : ∃ (u : Fin 1) (d : Fin 64), i = ix2 u d := ⟨i 0, i 1, eq_ix2 i⟩
  obtain rfl : u = 0 := Subsingleton.elim _ _
  exact sumsq2_val V c n hn e d

end Cert.KernelIdeal.K2A

end
-- ==== Proof.K3Array.lean ====
import proofs.«153973_j47287589929775_2_alg».proof.Proof.K2Array
import proofs.«153973_j47287589929775_2_alg».proof.Proof.K2Value
import Idealize.ShloMosaic.Lib.Pipeline.Value
import Idealize.ShloMosaic.Lib.ValueIdx

noncomputable section

open scoped BigOperators

/-! The third kernel's output array after its 10 grid steps, from whatever its input arrays hold when it starts:
    every entry of the pooled array normalised with the per-channel mean and variance it is given. Each step writes
    its block of 10000 points back, and the blocks tile the array. -/
namespace Cert.KernelIdeal.K3A

open Cert.KernelIdeal Cert.KernelIdeal.Gen Idealize.ShloMosaic Idealize.ShloMosaic.ValueIdx Idealize.ShloMosaic.TcCoe
open Idealize.ShloMosaic.Pipeline (Dat)
open Cert.KernelIdeal.K2V Cert.KernelIdeal.K2A

variable (V : (c : Dev nD) → (b : Ref sig .tc) → Buf (Elt Ideal) ((c : Thread nD τ).loc b))

def xV (c : Dev nD) : Fin 100000 → Fin 64 → EReal := fun p d => V c main_v16_0 (ix2 p d)
def m2V (c : Dev nD) : Fin 64 → EReal := fun d => V c main_v19 (ix1 d)
def v2V (c : Dev nD) : Fin 64 → EReal := fun d => V c main_v24 (ix1 d)
def g2V (c : Dev nD) : Fin 64 → EReal := fun d => V c main_arg7 (ix1 d)
def b2V (c : Dev nD) : Fin 64 → EReal := fun d => V c main_arg8 (ix1 d)

/-- The final normalisation of one entry. -/
def outV (c : Dev nD) (p : Fin 100000) (d : Fin 64) : EReal :=
  g2V V c d * (xV V c p d - m2V V c d) * Ideal.rsqrt (v2V V c d + Cert.FP.eps) + b2V V c d

theorem hN2 : cfg2.N = 10 := N_2

theorem hz2 : (![0, 0] : Fin 2 → Nat) = fun _ => 0 := funext fun a => by fin_cases a <;> rfl
theorem hz1 : (![0] : Fin 1 → Nat) = fun _ => 0 := funext fun a => by fin_cases a <;> rfl

theorem idx2 : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

theorem blk0 (c : Dev nD) (t : Fin cfg2.N) (q : Fin 10000) (d : Fin 64) (p : Fin 100000)
    (hp : p.val = t.val * 10000 + q.val) :
    (iblk2 V c 0 t : Vec Ideal S10000x64 .f32) (ix2 q d) = xV V c p d := by
  obtain ⟨e0, e1, -⟩ := idx2 t
  unfold iblk2 xV
  rw [View.read_apply]
  show V c main_v16_0 _ = V c main_v16_0 _
  refine congrArg (V c main_v16_0) (funext fun a => Fin.ext ?_)
  match a with
  | ⟨0, _⟩ => show win2_0.index t (0 : Fin 2) * 10000 + 1 * q.val = p.val; rw [e0, hp]; omega
  | ⟨1, _⟩ => show win2_0.index t (1 : Fin 2) * 64 + 1 * d.val = d.val; rw [e1]; omega
theorem blk1 (c : Dev nD) (t : Fin cfg2.N) (d : Fin 64) : (iblk2 V c 1 t : Vec Ideal S64 .f32) (ix1 d) = m2V V c d := by
  obtain ⟨-, -, e0, -⟩ := idx2 t
  unfold iblk2 m2V
  rw [View.read_apply]
  show V c main_v19 _ = V c main_v19 _
  refine congrArg (V c main_v19) (funext fun a => Fin.ext ?_)
  match a with
  | ⟨0, _⟩ => show win2_1.index t (0 : Fin 1) * 64 + 1 * d.val = d.val; rw [e0]; omega
theorem blk2 (c : Dev nD) (t : Fin cfg2.N) (d : Fin 64) : (iblk2 V c 2 t : Vec Ideal S64 .f32) (ix1 d) = v2V V c d := by
  obtain ⟨-, -, -, e0, -⟩ := idx2 t
  unfold iblk2 v2V
  rw [View.read_apply]
  show V c main_v24 _ = V c main_v24 _
  refine congrArg (V c main_v24) (funext fun a => Fin.ext ?_)
  match a with
  | ⟨0, _⟩ => show win2_2.index t (0 : Fin 1) * 64 + 1 * d.val = d.val; rw [e0]; omega
theorem blk3 (c : Dev nD) (t : Fin cfg2.N) (d : Fin 64) : (iblk2 V c 3 t : Vec Ideal S64 .f32) (ix1 d) = g2V V c d := by
  obtain ⟨-, -, -, -, e0, -⟩ := idx2 t
  unfold iblk2 g2V
  rw [View.read_apply]
  show V c main_arg7 _ = V c main_arg7 _
  refine congrArg (V c main_arg7) (funext fun a => Fin.ext ?_)
  match a with
  | ⟨0, _⟩ => show win2_3.index t (0 : Fin 1) * 64 + 1 * d.val = d.val; rw [e0]; omega
theorem blk4 (c : Dev nD) (t : Fin cfg2.N) (d : Fin 64) : (iblk2 V c 4 t : Vec Ideal S64 .f32) (ix1 d) = b2V V c d := by
  obtain ⟨-, -, -, -, -, e0, -⟩ := idx2 t
  unfold iblk2 b2V
  rw [View.read_apply]
  show V c main_arg8 _ = V c main_arg8 _
  refine congrArg (V c main_arg8) (funext fun a => Fin.ext ?_)
  match a with
  | ⟨0, _⟩ => show win2_4.index t (0 : Fin 1) * 64 + 1 * d.val = d.val; rw [e0]; omega

theorem outB_eq (c : Dev nD) (t : Fin cfg2.N) (q : Fin 10000) (d : Fin 64) (p : Fin 100000)
    (hp : p.val = t.val * 10000 + q.val) :
    outB (iblk2 V c 0 t) (iblk2 V c 1 t) (iblk2 V c 2 t) (iblk2 V c 3 t) (iblk2 V c 4 t) q d = outV V c p d := by
  unfold outB outV
  rw [blk0 V c t q d p hp, blk1, blk2, blk3, blk4]

/-- The step's one store, as a value. -/
theorem out5_eq (x0 : Vec Ideal S10000x64 .f32) (x1 x2 x3 x4 : Vec Ideal S64 .f32) :
    out2_5 (F := Ideal) x0 x1 x2 x3 x4 = k2_pay1 (F := Ideal) x0 x1 x2 x3 x4 := by
  unfold out2_5
  rw [View.canon_unit_zero hz2]
  simp only [View.ld_unit_zero (S := S10000x64) hz2, View.ld_unit_zero (S := S64) hz1]

theorem blockval (x : FVec Ideal S10000x64 .f32) (mean var γ β : FVec Ideal S64 .f32)
    (f : Fin 100000 → Fin 64 → EReal) (tv : ℕ)
    (hout : ∀ (q : Fin 10000) (d : Fin 64) (p : Fin 100000), p.val = tv * 10000 + q.val → outB x mean var γ β q d = f p d)
    (y : S10000x64.Idx) (i : S100000x64.Idx) (h0 : (i 0).val = tv * 10000 + (y 0).val) (h1 : (i 1).val = (y 1).val) :
    k2_pay1 (F := Ideal) x mean var γ β y = arr2 f i := by
  obtain ⟨q, d, rfl⟩ : ∃ (q : Fin 10000) (d : Fin 64), y = ix2 q d := ⟨y 0, y 1, eq_ix2 y⟩
  rw [k3_apply, hout q d ⟨(i 0).val, (i 0).isLt⟩ h0]
  unfold arr2
  congr 1
  exact Fin.ext h1.symm

theorem flushed5 (c : Dev nD) (t : Fin cfg2.N) :
    (dat2 V c).flushed 5 t = ((cfg2.win 5).blk t).view.read (Elt Ideal) (arr2 (outV V c)) := by
  obtain ⟨-, -, -, -, -, -, e0, e1⟩ := idx2 t
  show (cfg2.win 5).cut (grid2.coords t) ((dat2 V c).after 5 t) = _
  rw [after2_5, out5_eq]
  funext j
  rw [View.read_apply]
  show k2_pay1 (F := Ideal) (iblk2 V c 0 t) (iblk2 V c 1 t) (iblk2 V c 2 t) (iblk2 V c 3 t) (iblk2 V c 4 t) j = arr2 (outV V c) (((cfg2.win 5).blk t).view.emb j)
  refine blockval (iblk2 V c 0 t) (iblk2 V c 1 t) (iblk2 V c 2 t) (iblk2 V c 3 t) (iblk2 V c 4 t) (outV V c) t.val
    (fun q d p hp => outB_eq V c t q d p hp) j _ ?_ ?_
  · show win2_5.index t (0 : Fin 2) * 10000 + 1 * (j 0).val = t.val * 10000 + (j 0).val; rw [e0]; omega
  · show win2_5.index t (1 : Fin 2) * 64 + 1 * (j 1).val = (j 1).val; rw [e1]; omega

theorem mem_blk5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v25).slice (win2_5.rect t)).set ↔ _
  rw [View.set_slice_whole, Rect.mem_set_unit]
  exact Iff.rfl

/-- The result array after the kernel. -/
theorem final5 (c : Dev nD) : (dat2 V c).arrAt 5 cfg2.N = arr2 (outV V c) :=
  (dat2 V c).arrAt_eq_of_cover 5 _ (fun t _ => flushed5 V c t) fun i => by
    have hi0 : (i 0).val < 100000 := (i 0).isLt
    have hi1 : (i 1).val < 64 := (i 1).isLt
    have hlt : (i 0).val / 10000 < cfg2.N := by rw [hN2]; omega
    obtain ⟨-, -, -, -, -, -, e0, e1⟩ := idx2 ⟨(i 0).val / 10000, hlt⟩
    refine ⟨⟨(i 0).val / 10000, hlt⟩, flush2_5 _, ?_⟩
    rw [mem_blk5]
    intro a
    match a with
    | ⟨0, _⟩ =>
      show win2_5.index ⟨(i 0).val / 10000, hlt⟩ (0 : Fin 2) * 10000 ≤ (i 0).val ∧ (i 0).val < win2_5.index ⟨(i 0).val / 10000, hlt⟩ (0 : Fin 2) * 10000 + 10000
      rw [e0]; dsimp only; omega
    | ⟨1, _⟩ =>
      show win2_5.index ⟨(i 0).val / 10000, hlt⟩ (1 : Fin 2) * 64 ≤ (i 1).val ∧ (i 1).val < win2_5.index ⟨(i 0).val / 10000, hlt⟩ (1 : Fin 2) * 64 + 64
      rw [e1]; omega

end Cert.KernelIdeal.K3A

end
-- ==== Proof.KChain.lean ====
import proofs.«153973_j47287589929775_2_alg».proof.Proof.K1Final
import proofs.«153973_j47287589929775_2_alg».proof.Proof.K2Final
import proofs.«153973_j47287589929775_2_alg».proof.Proof.K3Array
import Idealize.ShloMosaic.Lib.StableHlo.Run
import Idealize.ShloMosaic.Lib.Tactic

noncomputable section

open scoped BigOperators

/-! The three kernels chained through the host operations between them: what each kernel finds in its input
    arrays is what the launch memory, the host operations and the kernels before it left there. The result is the
    moment form of the specification, of the gathered rows and the launch contents of the other arguments. -/
namespace Cert.KernelIdeal.Chain

open Cert.KernelIdeal Cert.KernelIdeal.Gen Idealize.ShloMosaic Idealize.ShloMosaic.ValueIdx Idealize.ShloMosaic.TcCoe
open Idealize.SL.Sem Idealize.ShloMosaic.StableHlo
open Idealize.ShloMosaic.Pipeline (Dat)

variable (m : (ℓ : Loc nD τ sig) → Buf (Elt Ideal) ℓ) (ρ : Dev nD → PrngReg)

/-- The inputs by coordinates: the gathered rows as the first kernel finds them, the rest as launched. -/
def gK (c : Dev nD) : Fin 100000 → Fin 16 → Fin 128 → EReal := K1A.gV (V1 m ρ) c
def wK (c : Dev nD) : Fin 64 → Fin 128 → EReal := fun d k => m ((c : Thread nD τ).loc main_arg3) (ix2 d k)
def bK (c : Dev nD) : Fin 64 → EReal := fun d => m ((c : Thread nD τ).loc main_arg4) (ix1 d)
def g1K (c : Dev nD) : Fin 64 → EReal := fun d => m ((c : Thread nD τ).loc main_arg5) (ix1 d)
def b1K (c : Dev nD) : Fin 64 → EReal := fun d => m ((c : Thread nD τ).loc main_arg6) (ix1 d)
def g2K (c : Dev nD) : Fin 64 → EReal := fun d => m ((c : Thread nD τ).loc main_arg7) (ix1 d)
def b2K (c : Dev nD) : Fin 64 → EReal := fun d => m ((c : Thread nD τ).loc main_arg8) (ix1 d)
def fK (c : Dev nD) : Fin 100000 → Fin 64 → EReal := fun p d => m ((c : Thread nD τ).loc main_arg0) (ix2 p d)

/-- A scalar repeated over the 64 channels reads the scalar. -/
theorem bc0 {α : Type} (x : S_.Idx → α) (h : S_.BroadcastsInDim S64 ![]) (d : Fin 64) :
    broadcastInDim S64 ![] h x (ix1 d) = x ix0 :=
  broadcastInDim_apply ![] h x (ix1 d) ix0 fun ax => ax.elim0

/-! ## Before the first kernel -/

theorem V1_arg3 (c : Dev nD) : V1 m ρ c main_arg3 = m ((c : Thread nD τ).loc main_arg3) := by
  show StableHlo.after hostOps0 (W0 m ρ c) (Proc.devRef .tc main_arg3) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl

theorem wV1 (c : Dev nD) : K1A.wV (V1 m ρ) c = wK m c := by
  unfold K1A.wV wK; rw [V1_arg3]
theorem bV1 (c : Dev nD) : K1A.bV (V1 m ρ) c = bK m c := by
  unfold K1A.bV bK; rw [V1_arg4]

/-! ## Between the first and the second kernel -/

theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem V3_arg0 (c : Dev nD) : V3 m ρ c main_arg0 = m ((c : Thread nD τ).loc main_arg0) := by
  show StableHlo.after hostOps1 (W2 m ρ c) (Proc.devRef .tc main_arg0) = _
  after_results
  exact W2_arg m ρ c main_arg0 (by decide) (by after_results <;> rfl)
theorem V3_arg5 (c : Dev nD) : V3 m ρ c main_arg5 = m ((c : Thread nD τ).loc main_arg5) := by
  show StableHlo.after hostOps1 (W2 m ρ c) (Proc.devRef .tc main_arg5) = _
  after_results
  exact W2_arg m ρ c main_arg5 (by decide) (by after_results <;> rfl)
theorem V3_arg6 (c : Dev nD) : V3 m ρ c main_arg6 = m ((c : Thread nD τ).loc main_arg6) := by
  show StableHlo.after hostOps1 (W2 m ρ c) (Proc.devRef .tc main_arg6) = _
  after_results
  exact W2_arg m ρ c main_arg6 (by decide) (by after_results <;> rfl)

/-- The layer's array, as the second kernel finds it. -/
theorem V3_h (c : Dev nD) : V3 m ρ c main_v7_0 = K1A.arr3 (Cert.FP.lin (gK m ρ c) (wK m c) (bK m c)) := by
  have e : V3 m ρ c main_v7_0 = W2 m ρ c (Proc.devRef .tc main_v7_0) := by
    show StableHlo.after hostOps1 (W2 m ρ c) (Proc.devRef .tc main_v7_0) = _
    after_results <;> rfl
  rw [e]
  have h3 : W2 m ρ c (Proc.devRef .tc main_v7_0) = (dat0 (V1 m ρ) c).arrAt 3 cfg0.N := W2_arr m ρ c 3
  rw [h3, K1A.final3, wV1, bV1]; rfl

theorem hV3 (c : Dev nD) : K2A.hV (V3 m ρ) c = Cert.FP.lin (gK m ρ c) (wK m c) (bK m c) := by
  funext p s d
  unfold K2A.hV
  rw [V3_h]; rfl

/-- The first sum, as the host operations after the first kernel find it. -/
theorem W2_sum1 (c : Dev nD) (d : Fin 64) : W2 m ρ c (Proc.devRef .tc main_v7_1) (ix2 (0 : Fin 1) d)
    = ∑ p : Fin 100000, ∑ s : Fin 16, Cert.FP.lin (gK m ρ c) (wK m c) (bK m c) p s d := by
  have h4 : W2 m ρ c (Proc.devRef .tc main_v7_1) = (dat0 (V1 m ρ) c).arrAt 4 cfg0.N := W2_arr m ρ c 4
  rw [h4, K1A.final4_val, wV1, bV1]; rfl
theorem W2_sumsq1 (c : Dev nD) (d : Fin 64) : W2 m ρ c (Proc.devRef .tc main_v7_2) (ix2 (0 : Fin 1) d)
    = ∑ p : Fin 100000, ∑ s : Fin 16, Cert.FP.lin (gK m ρ c) (wK m c) (bK m c) p s d * Cert.FP.lin (gK m ρ c) (wK m c) (bK m c) p s d := by
  have h5 : W2 m ρ c (Proc.devRef .tc main_v7_2) = (dat0 (V1 m ρ) c).arrAt 5 cfg0.N := W2_arr m ρ c 5
  rw [h5, K1A.final5_val, wV1, bV1]; rfl

/-- The mean and the variance the second kernel is given are the moment forms. -/
theorem meanV3 (c : Dev nD) (d : Fin 64) : K2A.meanV (V3 m ρ) c d = Cert.FP.kmean1 (gK m ρ c) (wK m c) (bK m c) d := by
  unfold K2A.meanV Cert.FP.kmean1
  show StableHlo.after hostOps1 (W2 m ρ c) (Proc.devRef .tc main_v10) (ix1 d) = _
  after_results
  show Ideal.div (shapeCast S64 (W2 m ρ c (Proc.devRef .tc main_v7_1)) shapeCasts_S1x64_S64 (ix1 d))
    (broadcastInDim S64 ![] bcast_S_S64 (constant (F := Ideal) S_ .f32 0x49C35000#32) (ix1 d)) = _
  rw [shapeCast_1a_a_apply, bc0, W2_sum1]; rfl
theorem varV3 (c : Dev nD) (d : Fin 64) : K2A.varV (V3 m ρ) c d = Cert.FP.kvar1 (gK m ρ c) (wK m c) (bK m c) d := by
  unfold K2A.varV Cert.FP.kvar1 Cert.FP.kmean1
  show StableHlo.after hostOps1 (W2 m ρ c) (Proc.devRef .tc main_v15) (ix1 d) = _
  after_results
  show Ideal.div (shapeCast S64 (W2 m ρ c (Proc.devRef .tc main_v7_2)) shapeCasts_S1x64_S64 (ix1 d))
      (broadcastInDim S64 ![] bcast_S_S64 (constant (F := Ideal) S_ .f32 0x49C35000#32) (ix1 d))
    - Ideal.div (shapeCast S64 (W2 m ρ c (Proc.devRef .tc main_v7_1)) shapeCasts_S1x64_S64 (ix1 d))
        (broadcastInDim S64 ![] bcast_S_S64 (constant (F := Ideal) S_ .f32 0x49C35000#32) (ix1 d))
      * Ideal.div (shapeCast S64 (W2 m ρ c (Proc.devRef .tc main_v7_1)) shapeCasts_S1x64_S64 (ix1 d))
        (broadcastInDim S64 ![] bcast_S_S64 (constant (F := Ideal) S_ .f32 0x49C35000#32) (ix1 d)) = _
  rw [shapeCast_1a_a_apply, shapeCast_1a_a_apply, bc0, W2_sum1, W2_sumsq1]; rfl

/-! ## The second kernel's inputs in terms of the specification -/

theorem fV3 (c : Dev nD) : K2A.fV (V3 m ρ) c = fK m c := by
  unfold K2A.fV fK; rw [V3_arg0]
theorem g1V3 (c : Dev nD) : K2A.g1V (V3 m ρ) c = g1K m c := by
  unfold K2A.g1V g1K; rw [V3_arg5]
theorem b1V3 (c : Dev nD) : K2A.b1V (V3 m ρ) c = b1K m c := by
  unfold K2A.b1V b1K; rw [V3_arg6]

/-- The pooled values the second kernel computes are the moment form's. -/
theorem preV3 (c : Dev nD) (p : Fin 100000) (d : Fin 64) :
    K2A.preV (V3 m ρ) c p d = Cert.FP.kpre (gK m ρ c) (wK m c) (bK m c) (g1K m c) (b1K m c) (fK m c) p d := by
  unfold K2A.preV Cert.FP.kpre Cert.FP.kpool Cert.FP.kact
  rw [hV3, fV3, g1V3, b1V3, meanV3, varV3]

/-! ## Between the second and the third kernel -/

theorem W4_arg (c : Dev nD) (b : Ref sig .tc) (hb : ∀ w, Pipeline.arrRef spec1 w ≠ b)
    (h : W3 m ρ c (Proc.devRef .tc b) = m ((c : Thread nD τ).loc b)) :
    W4 m ρ c (Proc.devRef .tc b) = m ((c : Thread nD τ).loc b) :=
  (W4_of_ne m ρ c b hb).trans h

theorem V5_arg7 (c : Dev nD) : V5 m ρ c main_arg7 = m ((c : Thread nD τ).loc main_arg7) := by
  show StableHlo.after hostOps2 (W4 m ρ c) (Proc.devRef .tc main_arg7) = _
  after_results
  refine W4_arg m ρ c main_arg7 (by decide) ?_
  show StableHlo.after hostOps1 (W2 m ρ c) (Proc.devRef .tc main_arg7) = _
  after_results
  exact W2_arg m ρ c main_arg7 (by decide) (by after_results <;> rfl)
theorem V5_arg8 (c : Dev nD) : V5 m ρ c main_arg8 = m ((c : Thread nD τ).loc main_arg8) := by
  show StableHlo.after hostOps2 (W4 m ρ c) (Proc.devRef .tc main_arg8) = _
  after_results
  refine W4_arg m ρ c main_arg8 (by decide) ?_
  show StableHlo.after hostOps1 (W2 m ρ c) (Proc.devRef .tc main_arg8) = _
  after_results
  exact W2_arg m ρ c main_arg8 (by decide) (by after_results <;> rfl)

theorem g2V5 (c : Dev nD) : K3A.g2V (V5 m ρ) c = g2K m c := by
  unfold K3A.g2V g2K; rw [V5_arg7]
theorem b2V5 (c : Dev nD) : K3A.b2V (V5 m ρ) c = b2K m c := by
  unfold K3A.b2V b2K; rw [V5_arg8]

/-- The pooled array, as the third kernel finds it. -/
theorem V5_x (c : Dev nD) : V5 m ρ c main_v16_0
    = K2A.arr2 (Cert.FP.kpre (gK m ρ c) (wK m c) (bK m c) (g1K m c) (b1K m c) (fK m c)) := by
  have e : V5 m ρ c main_v16_0 = W4 m ρ c (Proc.devRef .tc main_v16_0) := by
    show StableHlo.after hostOps2 (W4 m ρ c) (Proc.devRef .tc main_v16_0) = _
    after_results <;> rfl
  rw [e]
  have h6 : W4 m ρ c (Proc.devRef .tc main_v16_0) = (dat1 (V3 m ρ) c).arrAt 6 cfg1.N := W4_arr m ρ c 6
  rw [h6, K2A.final6]
  exact congrArg K2A.arr2 (funext fun p => funext fun d => preV3 m ρ c p d)

theorem xV5 (c : Dev nD) : K3A.xV (V5 m ρ) c = Cert.FP.kpre (gK m ρ c) (wK m c) (bK m c) (g1K m c) (b1K m c) (fK m c) := by
  funext p d
  unfold K3A.xV
  rw [V5_x]; rfl

theorem W4_sum2 (c : Dev nD) (d : Fin 64) : W4 m ρ c (Proc.devRef .tc main_v16_1) (ix2 (0 : Fin 1) d)
    = ∑ p : Fin 100000, Cert.FP.kpre (gK m ρ c) (wK m c) (bK m c) (g1K m c) (b1K m c) (fK m c) p d := by
  have h7 : W4 m ρ c (Proc.devRef .tc main_v16_1) = (dat1 (V3 m ρ) c).arrAt 7 cfg1.N := W4_arr m ρ c 7
  rw [h7, K2A.final7_val]
  show ∑ p : Fin 100000, K2A.preV (V3 m ρ) c p d = _
  exact Finset.sum_congr rfl fun p _ => preV3 m ρ c p d
theorem W4_sumsq2 (c : Dev nD) (d : Fin 64) : W4 m ρ c (Proc.devRef .tc main_v16_2) (ix2 (0 : Fin 1) d)
    = ∑ p : Fin 100000, Cert.FP.kpre (gK m ρ c) (wK m c) (bK m c) (g1K m c) (b1K m c) (fK m c) p d
        * Cert.FP.kpre (gK m ρ c) (wK m c) (bK m c) (g1K m c) (b1K m c) (fK m c) p d := by
  have h8 : W4 m ρ c (Proc.devRef .tc main_v16_2) = (dat1 (V3 m ρ) c).arrAt 8 cfg1.N := W4_arr m ρ c 8
  rw [h8, K2A.final8_val]
  show ∑ p : Fin 100000, K2A.preV (V3 m ρ) c p d * K2A.preV (V3 m ρ) c p d = _
  exact Finset.sum_congr rfl fun p _ => by rw [preV3]

theorem m2V5 (c : Dev nD) (d : Fin 64) :
    K3A.m2V (V5 m ρ) c d = Cert.FP.kmean2 (gK m ρ c) (wK m c) (bK m c) (g1K m c) (b1K m c) (fK m c) d := by
  unfold K3A.m2V Cert.FP.kmean2
  show StableHlo.after hostOps2 (W4 m ρ c) (Proc.devRef .tc main_v19) (ix1 d) = _
  after_results
  show Ideal.div (shapeCast S64 (W4 m ρ c (Proc.devRef .tc main_v16_1)) shapeCasts_S1x64_S64 (ix1 d))
    (broadcastInDim S64 ![] bcast_S_S64 (constant (F := Ideal) S_ .f32 0x47C35000#32) (ix1 d)) = _
  rw [shapeCast_1a_a_apply, bc0, W4_sum2]; rfl
theorem v2V5 (c : Dev nD) (d : Fin 64) :
    K3A.v2V (V5 m ρ) c d = Cert.FP.kvar2 (gK m ρ c) (wK m c) (bK m c) (g1K m c) (b1K m c) (fK m c) d := by
  unfold K3A.v2V Cert.FP.kvar2 Cert.FP.kmean2
  show StableHlo.after hostOps2 (W4 m ρ c) (Proc.devRef .tc main_v24) (ix1 d) = _
  after_results
  show Ideal.div (shapeCast S64 (W4 m ρ c (Proc.devRef .tc main_v16_2)) shapeCasts_S1x64_S64 (ix1 d))
      (broadcastInDim S64 ![] bcast_S_S64 (constant (F := Ideal) S_ .f32 0x47C35000#32) (ix1 d))
    - Ideal.div (shapeCast S64 (W4 m ρ c (Proc.devRef .tc main_v16_1)) shapeCasts_S1x64_S64 (ix1 d))
        (broadcastInDim S64 ![] bcast_S_S64 (constant (F := Ideal) S_ .f32 0x47C35000#32) (ix1 d))
      * Ideal.div (shapeCast S64 (W4 m ρ c (Proc.devRef .tc main_v16_1)) shapeCasts_S1x64_S64 (ix1 d))
        (broadcastInDim S64 ![] bcast_S_S64 (constant (F := Ideal) S_ .f32 0x47C35000#32) (ix1 d)) = _
  rw [shapeCast_1a_a_apply, shapeCast_1a_a_apply, bc0, W4_sum2, W4_sumsq2]; rfl

/-! ## The result -/

theorem outV5 (c : Dev nD) (p : Fin 100000) (d : Fin 64) :
    K3A.outV (V5 m ρ) c p d
      = Cert.FP.kout (gK m ρ c) (wK m c) (bK m c) (g1K m c) (b1K m c) (g2K m c) (b2K m c) (fK m c) p d := by
  unfold K3A.outV Cert.FP.kout
  rw [xV5, g2V5, b2V5, m2V5, v2V5]

/-- The result array after the program: the moment form of the specification. -/
theorem kernel_val (c : Dev nD) : W6 m ρ c (Proc.devRef .tc main_v25)
    = K2A.arr2 (Cert.FP.kout (gK m ρ c) (wK m c) (bK m c) (g1K m c) (b1K m c) (g2K m c) (b2K m c) (fK m c)) := by
  have h5 : W6 m ρ c (Proc.devRef .tc main_v25) = (dat2 (V5 m ρ) c).arrAt 5 cfg2.N := W6_arr m ρ c 5
  rw [h5, K3A.final5]
  exact congrArg K2A.arr2 (funext fun p => funext fun d => outV5 m ρ c p d)

/-- The gathered rows the first kernel finds are the host's gather of the launched table at the launched indices. -/
theorem V1_v6 (c : Dev nD) : V1 m ρ c main_v6
    = Host.gather gather_S200000x128_S100000x16x1_S100000x16x128_2_0_n_n_0_2_1128 (m ((c : Thread nD τ).loc main_arg1))
      (broadcastInDim S100000x16x1 ![0, 1] bcast_S100000x16_S100000x16x1_0_1
        (select
          (cmpi CmpIPredicate.slt (m ((c : Thread nD τ).loc main_arg2))
            (broadcastInDim S100000x16 ![] bcast_S_S100000x16 (constantI S_ 32 0#32)))
          (addi (m ((c : Thread nD τ).loc main_arg2))
            (broadcastInDim S100000x16 ![] bcast_S_S100000x16 (constantI S_ 32 200000#32)))
          (m ((c : Thread nD τ).loc main_arg2)))) := by
  show StableHlo.after hostOps0 (W0 m ρ c) (Proc.devRef .tc main_v6) = _
  after_results <;> rfl

end Cert.KernelIdeal.Chain

end
-- ==== Proof.RefSide.lean ====
/-
  The reference program read at coordinates: each stage of its run, at an index built from coordinates, is the
  corresponding quantity of the specification (the linear layer, the two batch normalisations' means and variances,
  the clipped activation, the maximum over a point's neighbours, and the result).
-/
import proofs.«153973_j47287589929775_2_alg».proof.Proof.Gen.ReferenceIdeal.Read
import proofs.«153973_j47287589929775_2_alg».proof.Proof.Spec
import proofs.«153973_j47287589929775_2_alg».proof.Proof.LibCol
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Sums over the first two axes, and a maximum over the middle axis, of a three-axis array -/

/-- Dropping the first two coordinates of `(p, s, d)` leaves `d`. -/
theorem drop01_ix3 {n0 n1 n2 : ℕ} (h : (⟨3, ![n0, n1, n2]⟩ : Shape).ReducesTo [0, 1] ⟨1, ![n2]⟩) (p : Fin n0) (s : Fin n1)
    (d : Fin n2) : h.drop (ix3 p s d) = ix1 d := by
  funext b
  match b with
  | ⟨0, _⟩ => rfl

/-- The sum over the first two axes of a three-axis array, from an initial value, at `d`: the initial value plus the
    double sum over the first two coordinates. -/
theorem hostReduceAdd_first_two {n0 n1 n2 : ℕ} (h : (⟨3, ![n0, n1, n2]⟩ : Shape).ReducesTo [0, 1] ⟨1, ![n2]⟩)
    (x : (⟨3, ![n0, n1, n2]⟩ : Shape).Idx → EReal) (init : EReal) (d : Fin n2) :
    Ideal.hostReduceAdd h x init (ix1 d) = init + ∑ p : Fin n0, ∑ s : Fin n1, x (ix3 p s d) := by
  unfold Ideal.hostReduceAdd
  refine congrArg (init + ·) ?_
  rw [← Fintype.sum_prod_type' fun (p : Fin n0) (s : Fin n1) => x (ix3 p s d)]
  symm
  refine Finset.sum_bij (fun (ps : Fin n0 × Fin n1) _ => (ix3 ps.1 ps.2 d : (⟨3, ![n0, n1, n2]⟩ : Shape).Idx)) ?_ ?_ ?_ ?_
  · intro ps _
    exact Finset.mem_filter.mpr ⟨Finset.mem_univ _, drop01_ix3 h ps.1 ps.2 d⟩
  · intro a _ b _ e
    exact Prod.ext (congrFun e 0) (congrFun e 1)
  · intro i hi
    obtain ⟨a, b, c, rfl⟩ : ∃ (a : Fin n0) (b : Fin n1) (c : Fin n2), i = ix3 a b c := ⟨i 0, i 1, i 2, eq_ix3 i⟩
    have e' : c = d := congrFun (Finset.mem_filter.mp hi).2 0
    subst e'
    exact ⟨(a, b), Finset.mem_univ _, rfl⟩
  · intro ps _
    rfl

/-- The index over `(p, d)` with neighbour `s` put back on the middle axis is `(p, s, d)`. -/
theorem lift_mid (h : S100000x16x64.Reduces [1] S100000x64) (p : Fin 100000) (d : Fin 64) (s : Fin 16) :
    h.lift (ix2 p d) s = ix3 p s d :=
  funext fun c => Fin.ext (by
    match c with
    | ⟨0, _⟩ => rfl
    | ⟨1, _⟩ => rfl
    | ⟨2, _⟩ => rfl)

/-- The maximum over the middle axis, from an initial value, at `(p, d)`: the maximum, from that value, over the
    neighbours. -/
theorem hostReduce_max_mid (h' : S100000x16x64.ReducesTo [1] S100000x64) (hu : 0 < S_.numel)
    (x : S100000x16x64.Idx → EReal) (init : S_.Idx → EReal) (p : Fin 100000) (d : Fin 64) :
    Host.reduce (FloatOps.maximumf (F := Ideal) (φ := .f32)) x init h' hu (ix2 p d)
      = (Finset.univ : Finset (Fin 16)).fold max (init (Shape.Idx.first hu)) fun s => x (ix3 p s d) := by
  have h : S100000x16x64.Reduces [1] S100000x64 := by decide
  rw [Host.reduce_eq_fold_single (FloatOps.maximumf (F := Ideal) (φ := .f32)) x init h' h hu]
  have hf : (x ∘ h.lift (ix2 p d)) = fun s : Fin 16 => x (ix3 p s d) := funext fun s => congrArg x (lift_mid h p d s)
  exact congrArg (fun f => Finset.fold max (init (Shape.Idx.first hu)) f (Finset.univ : Finset (Fin 16))) hf

/-- The sum over points and neighbours, as the reference program takes it: the initial value's element plus the double
    sum. -/
theorem reduceAdd_first_two_apply (y : (⟨S100000x16x64, .f32⟩ : BufTy).Contents (Elt Ideal))
    (c : (⟨S_, .f32⟩ : BufTy).Contents (Elt Ideal)) (h : S100000x16x64.ReducesTo [0, 1] S64) (hu : 0 < S_.numel) (d : Fin 64) :
    Host.reduceAdd (F := Ideal) (φ := .f32) y c h hu (ix1 d) = c (Shape.Idx.first hu) + ∑ p : Fin 100000, ∑ s : Fin 16, y (ix3 p s d) := by
  simp only [Host.reduceAdd, Ideal.hostReduceAdd_def]
  exact hostReduceAdd_first_two h y _ d

/-! ## The inputs by coordinates -/

/-- The gathered neighbour rows by coordinates. -/
def gOf (x1 : (⟨S200000x128, .f32⟩ : BufTy).Contents (Elt Ideal)) (x2 : (⟨S100000x16, .i32⟩ : BufTy).Contents (Elt Ideal)) : Fin 100000 → Fin 16 → Fin 128 → EReal :=
  fun p s k => val_main_v6 (F := Ideal) x1 x2 (ix3 p s k)

/-- A matrix of 64 rows of 128 entries by coordinates. -/
abbrev matOf (x3 : (⟨S64x128, .f32⟩ : BufTy).Contents (Elt Ideal)) : Fin 64 → Fin 128 → EReal := fun d k => x3 (ix2 d k)
/-- A vector of 64 entries by its coordinate. -/
abbrev vecOf (x : (⟨S64, .f32⟩ : BufTy).Contents (Elt Ideal)) : Fin 64 → EReal := fun d => x (ix1 d)
/-- The points' own features by coordinates. -/
abbrev featOf (x0 : (⟨S100000x64, .f32⟩ : BufTy).Contents (Elt Ideal)) : Fin 100000 → Fin 64 → EReal := fun p d => x0 (ix2 p d)

/-! ## The stages of the reference program at coordinates -/

section Stages

variable (x0 : (⟨S100000x64, .f32⟩ : BufTy).Contents (Elt Ideal)) (x1 : (⟨S200000x128, .f32⟩ : BufTy).Contents (Elt Ideal))
  (x2 : (⟨S100000x16, .i32⟩ : BufTy).Contents (Elt Ideal)) (x3 : (⟨S64x128, .f32⟩ : BufTy).Contents (Elt Ideal))
  (x4 x5 x6 x7 x8 : (⟨S64, .f32⟩ : BufTy).Contents (Elt Ideal))

/-- The linear layer. -/
theorem lin_eq (p : Fin 100000) (s : Fin 16) (d : Fin 64) :
    val_main_v10 (F := Ideal) x1 x2 x3 x4 (ix3 p s d) = Cert.FP.lin (gOf x1 x2) (matOf x3) (vecOf x4) p s d := by
  rw [val_main_v10_apply, val_main_v7_apply, val_main_v9_apply, val_main_v8_apply]
  have e1 : ∀ k : Fin 128, lidx_main_v7 (ix3 p s d) k = ix3 p s k := fun k => funext fun a => Fin.ext (by
    match a with
    | ⟨0, _⟩ => rfl
    | ⟨1, _⟩ => rfl
    | ⟨2, _⟩ => rfl)
  have e2 : ∀ k : Fin 128, ridx_main_v7 (ix3 p s d) k = ix2 d k := fun k => funext fun a => Fin.ext (by
    match a with
    | ⟨0, _⟩ => rfl
    | ⟨1, _⟩ => rfl)
  have e3 : idx_main_v8 (idx_main_v9 (ix3 p s d)) = ix1 d := funext fun a => Fin.ext (by
    match a with
    | ⟨0, _⟩ => rfl)
  simp only [e1, e2, e3]
  rfl

/-- The sum of the linear layer over all (point, neighbour) pairs. -/
theorem sum1_eq (d : Fin 64) :
    val_main_v11 (F := Ideal) x1 x2 x3 x4 (ix1 d)
      = 0 + ∑ p : Fin 100000, ∑ s : Fin 16, Cert.FP.lin (gOf x1 x2) (matOf x3) (vecOf x4) p s d := by
  unfold val_main_v11
  rw [reduceAdd_first_two_apply, val_main_cst_apply, Ideal.ofBits_def, Ideal.ofBits_zero_f32]
  simp only [lin_eq]

/-- The first mean. -/
theorem mean1_eq (d : Fin 64) :
    val_main_v14 (F := Ideal) x1 x2 x3 x4 (ix3 (0 : Fin 1) (0 : Fin 1) d)
      = Cert.FP.mean1 (gOf x1 x2) (matOf x3) (vecOf x4) d := by
  rw [val_main_v14_apply, val_main_v12_apply, val_main_v13_apply, val_main_cst_1_apply]
  have e : idx_main_v12 (ix3 (0 : Fin 1) (0 : Fin 1) d) = ix1 d := funext fun a => Fin.ext (by
    match a with
    | ⟨0, _⟩ => rfl)
  rw [e, sum1_eq]
  rfl

/-- The deviation from the first mean. -/
theorem dev1_eq (p : Fin 100000) (s : Fin 16) (d : Fin 64) :
    val_main_v16 (F := Ideal) x1 x2 x3 x4 (ix3 p s d)
      = Cert.FP.lin (gOf x1 x2) (matOf x3) (vecOf x4) p s d - Cert.FP.mean1 (gOf x1 x2) (matOf x3) (vecOf x4) d := by
  rw [val_main_v16_apply, val_main_v15_apply, lin_eq]
  have e : idx_main_v15 (ix3 p s d) = ix3 (0 : Fin 1) (0 : Fin 1) d := funext fun a => Fin.ext (by
    match a with
    | ⟨0, _⟩ => rfl
    | ⟨1, _⟩ => rfl
    | ⟨2, _⟩ => rfl)
  rw [e, mean1_eq]
  rfl

/-- The first variance. -/
theorem var1_eq (d : Fin 64) :
    val_main_v21 (F := Ideal) x1 x2 x3 x4 (ix3 (0 : Fin 1) (0 : Fin 1) d)
      = Cert.FP.var1 (gOf x1 x2) (matOf x3) (vecOf x4) d := by
  rw [val_main_v21_apply, val_main_v19_apply, val_main_v20_apply, val_main_cst_3_apply]
  have e : idx_main_v19 (ix3 (0 : Fin 1) (0 : Fin 1) d) = ix1 d := funext fun a => Fin.ext (by
    match a with
    | ⟨0, _⟩ => rfl)
  rw [e]
  unfold val_main_v18
  rw [reduceAdd_first_two_apply, val_main_cst_2_apply, Ideal.ofBits_def, Ideal.ofBits_zero_f32]
  simp only [val_main_v17_apply, dev1_eq]
  rfl

/-- The normalised, scaled, shifted activation clipped below at zero. -/
theorem act_eq (p : Fin 100000) (s : Fin 16) (d : Fin 64) :
    val_main_v35 (F := Ideal) x1 x2 x3 x4 x5 x6 (ix3 p s d)
      = Cert.FP.act (gOf x1 x2) (matOf x3) (vecOf x4) (vecOf x5) (vecOf x6) p s d := by
  rw [val_main_v35_apply, val_main_call0_v0_apply, val_main_call0_cst_apply, val_main_v34_apply, val_main_v31_apply,
    val_main_v26_apply, val_main_v25_apply, val_main_v24_apply, val_main_v23_apply, val_main_v22_apply, lin_eq,
    val_main_v30_apply, val_main_v29_apply, val_main_v28_apply, val_main_v27_apply, val_main_cst_4_apply,
    val_main_v33_apply, val_main_v32_apply]
  have e22 : idx_main_v22 (ix3 p s d) = ix3 (0 : Fin 1) (0 : Fin 1) d := funext fun a => Fin.ext (by
    match a with
    | ⟨0, _⟩ => rfl
    | ⟨1, _⟩ => rfl
    | ⟨2, _⟩ => rfl)
  have e30 : idx_main_v30 (ix3 p s d) = ix3 (0 : Fin 1) (0 : Fin 1) d := funext fun a => Fin.ext (by
    match a with
    | ⟨0, _⟩ => rfl
    | ⟨1, _⟩ => rfl
    | ⟨2, _⟩ => rfl)
  have e25 : idx_main_v24 (idx_main_v25 (ix3 p s d)) = ix1 d := funext fun a => Fin.ext (by
    match a with
    | ⟨0, _⟩ => rfl)
  have e33 : idx_main_v32 (idx_main_v33 (ix3 p s d)) = ix1 d := funext fun a => Fin.ext (by
    match a with
    | ⟨0, _⟩ => rfl)
  rw [e22, e30, e25, e33, mean1_eq, var1_eq]
  simp only [Ideal.ofBits_def, Ideal.ofBits_zero_f32]
  rfl

/-- The largest of a point's sixteen activations. -/
theorem pool_eq (p : Fin 100000) (d : Fin 64) :
    val_main_v36 (F := Ideal) x1 x2 x3 x4 x5 x6 (ix2 p d)
      = Cert.FP.pool (gOf x1 x2) (matOf x3) (vecOf x4) (vecOf x5) (vecOf x6) p d := by
  unfold val_main_v36
  rw [hostReduce_max_mid, val_main_cst_5_apply]
  simp only [act_eq]
  rfl

/-- The point's own feature plus the pooled activation. -/
theorem pre_eq (p : Fin 100000) (d : Fin 64) :
    val_main_v37 (F := Ideal) x0 x1 x2 x3 x4 x5 x6 (ix2 p d)
      = Cert.FP.pre (gOf x1 x2) (matOf x3) (vecOf x4) (vecOf x5) (vecOf x6) (featOf x0) p d := by
  rw [val_main_v37_apply, pool_eq]
  rfl

/-- The second mean. -/
theorem mean2_eq (d : Fin 64) :
    val_main_v41 (F := Ideal) x0 x1 x2 x3 x4 x5 x6 (ix2 (0 : Fin 1) d)
      = Cert.FP.mean2 (gOf x1 x2) (matOf x3) (vecOf x4) (vecOf x5) (vecOf x6) (featOf x0) d := by
  rw [val_main_v41_apply, val_main_v39_apply, val_main_v40_apply, val_main_cst_7_apply]
  have e : idx_main_v39 (ix2 (0 : Fin 1) d) = ix1 d := funext fun a => Fin.ext (by
    match a with
    | ⟨0, _⟩ => rfl)
  rw [e, val_main_v38_apply, val_main_cst_6_apply, Ideal.ofBits_def, Ideal.ofBits_zero_f32]
  have e2 : ∀ k : Fin 100000, idx_main_v38 (ix1 d) k = ix2 k d := fun k => funext fun a => Fin.ext (by
    match a with
    | ⟨0, _⟩ => rfl
    | ⟨1, _⟩ => rfl)
  simp only [e2, pre_eq]
  rfl

/-- The deviation from the second mean. -/
theorem dev2_eq (p : Fin 100000) (d : Fin 64) :
    val_main_v43 (F := Ideal) x0 x1 x2 x3 x4 x5 x6 (ix2 p d)
      = Cert.FP.pre (gOf x1 x2) (matOf x3) (vecOf x4) (vecOf x5) (vecOf x6) (featOf x0) p d
        - Cert.FP.mean2 (gOf x1 x2) (matOf x3) (vecOf x4) (vecOf x5) (vecOf x6) (featOf x0) d := by
  rw [val_main_v43_apply, val_main_v42_apply, pre_eq]
  have e : idx_main_v42 (ix2 p d) = ix2 (0 : Fin 1) d := funext fun a => Fin.ext (by
    match a with
    | ⟨0, _⟩ => rfl
    | ⟨1, _⟩ => rfl)
  rw [e, mean2_eq]
  rfl

/-- The second variance. -/
theorem var2_eq (d : Fin 64) :
    val_main_v48 (F := Ideal) x0 x1 x2 x3 x4 x5 x6 (ix2 (0 : Fin 1) d)
      = Cert.FP.var2 (gOf x1 x2) (matOf x3) (vecOf x4) (vecOf x5) (vecOf x6) (featOf x0) d := by
  rw [val_main_v48_apply, val_main_v46_apply, val_main_v47_apply, val_main_cst_9_apply]
  have e : idx_main_v46 (ix2 (0 : Fin 1) d) = ix1 d := funext fun a => Fin.ext (by
    match a with
    | ⟨0, _⟩ => rfl)
  rw [e, val_main_v45_apply, val_main_cst_8_apply, Ideal.ofBits_def, Ideal.ofBits_zero_f32]
  have e2 : ∀ k : Fin 100000, idx_main_v45 (ix1 d) k = ix2 k d := fun k => funext fun a => Fin.ext (by
    match a with
    | ⟨0, _⟩ => rfl
    | ⟨1, _⟩ => rfl)
  simp only [e2, val_main_v44_apply, dev2_eq]
  rfl

/-- The result. -/
theorem out_eq (p : Fin 100000) (d : Fin 64) :
    val_main_v61 (F := Ideal) x0 x1 x2 x3 x4 x5 x6 x7 x8 (ix2 p d)
      = Cert.FP.out (gOf x1 x2) (matOf x3) (vecOf x4) (vecOf x5) (vecOf x6) (vecOf x7) (vecOf x8) (featOf x0) p d := by
  rw [val_main_v61_apply, val_main_v58_apply, val_main_v53_apply, val_main_v52_apply, val_main_v51_apply,
    val_main_v50_apply, val_main_v49_apply, pre_eq, val_main_v57_apply, val_main_v56_apply, val_main_v55_apply,
    val_main_v54_apply, val_main_cst_10_apply, val_main_v60_apply, val_main_v59_apply]
  have e49 : idx_main_v49 (ix2 p d) = ix2 (0 : Fin 1) d := funext fun a => Fin.ext (by
    match a with
    | ⟨0, _⟩ => rfl
    | ⟨1, _⟩ => rfl)
  have e57 : idx_main_v57 (ix2 p d) = ix2 (0 : Fin 1) d := funext fun a => Fin.ext (by
    match a with
    | ⟨0, _⟩ => rfl
    | ⟨1, _⟩ => rfl)
  have e52 : idx_main_v51 (idx_main_v52 (ix2 p d)) = ix1 d := funext fun a => Fin.ext (by
    match a with
    | ⟨0, _⟩ => rfl)
  have e60 : idx_main_v59 (idx_main_v60 (ix2 p d)) = ix1 d := funext fun a => Fin.ext (by
    match a with
    | ⟨0, _⟩ => rfl)
  rw [e49, e57, e52, e60, mean2_eq, var2_eq]
  rfl

end Stages

/-- The reference program's result at point `p`, channel `d` is the specification's, of the inputs by coordinates. -/
theorem ref_eq (x0 : (⟨S100000x64, .f32⟩ : BufTy).Contents (Elt Ideal)) (x1 : (⟨S200000x128, .f32⟩ : BufTy).Contents (Elt Ideal)) (x2 : (⟨S100000x16, .i32⟩ : BufTy).Contents (Elt Ideal)) (x3 : (⟨S64x128, .f32⟩ : BufTy).Contents (Elt Ideal)) (x4 x5 x6 x7 x8 : (⟨S64, .f32⟩ : BufTy).Contents (Elt Ideal)) (p : Fin 100000) (d : Fin 64) :
    val_main_v61 (F := Ideal) x0 x1 x2 x3 x4 x5 x6 x7 x8 (ix2 p d)
      = Cert.FP.out (gOf x1 x2) (fun d k => x3 (ix2 d k)) (fun d => x4 (ix1 d)) (fun d => x5 (ix1 d)) (fun d => x6 (ix1 d)) (fun d => x7 (ix1 d)) (fun d => x8 (ix1 d)) (fun p d => x0 (ix2 p d)) p d :=
  out_eq x0 x1 x2 x3 x4 x5 x6 x7 x8 p d

end Cert.ReferenceIdeal.RefValue

end
-- ==== Proof.Finite.lean ====
/-
  From the finiteness test to real entries.

  The precondition computes, for each of the eight floating-point inputs a, the array of tests "max(x, -x) < +inf" over
  its entries x, folds that array by "and" from the constant 1 down to a single bit, and takes the "and" of the eight
  bits. When the final bit is 1, every one of the eight bits is 1 (an "and" of two bits is 1 only when both are); a fold
  by "and" over all positions that ends at 1 met a 1 at every position; and an extended real whose absolute value is
  below plus infinity is a real number. So every entry of every floating-point input is a real number.
-/
import proofs.«153973_j47287589929775_2_alg».proof.Pre_finite_inputs
import proofs.«153973_j47287589929775_2_alg».proof.Proof.Gen.Pre_finite_inputs
import proofs.«153973_j47287589929775_2_alg».proof.Proof.LibReal
import Idealize.ShloMosaic.Lib.ReduceAll
import Idealize.ShloMosaic.Lib.ValueIdx

noncomputable section

namespace Cert.Finite

open Cert.LibReal Idealize.ShloMosaic

/-- The shape with no axes has one index. -/
instance subsingleton_scalar_idx : Subsingleton (⟨0, ![]⟩ : Shape).Idx := ⟨fun a b => funext fun d => d.elim0⟩

/-- One array: when the fold by "and" of the tests "|entry| < +inf" over all positions is 1, every entry is real. -/
theorem all_real {s : Shape} {axes : List (Fin s.rank)} (a : FVec Ideal s .f32)
    (hb : (⟨0, ![]⟩ : Shape).BroadcastsInDim s ![]) (hr : s.ReducesTo axes (⟨0, ![]⟩ : Shape))
    (hu : 0 < (⟨0, ![]⟩ : Shape).numel) (j : (⟨0, ![]⟩ : Shape).Idx)
    (e : Host.reduce IntOp.andi
          (cmpf .olt (Host.absf (F := Ideal) a) (broadcastInDim s ![] hb (constant (F := Ideal) ⟨0, ![]⟩ .f32 0x7F800000#32)))
          (constantI (⟨0, ![]⟩ : Shape) 1 1#1) hr hu j = 1#1)
    (i : s.Idx) : IsReal (a i) :=
  entry_real a hb i (Host.reduce_andi_all _ _ hr hu j e i)

/-- The precondition, true, makes every entry of every floating-point input a real number. -/
theorem reals_of_pre [hP : Cert.Pre_finite_inputs.Facts]
    (a0 : FVec Ideal Cert.Pre_finite_inputs.S100000x64 .f32) (a1 : FVec Ideal Cert.Pre_finite_inputs.S200000x128 .f32)
    (a2 : IVec Cert.Pre_finite_inputs.S100000x16 32)
    (a3 : FVec Ideal Cert.Pre_finite_inputs.S64x128 .f32) (a4 a5 a6 a7 a8 : FVec Ideal Cert.Pre_finite_inputs.S64 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a3 i)) ∧ (∀ i, IsReal (a4 i)) ∧ (∀ i, IsReal (a5 i)) ∧
      (∀ i, IsReal (a6 i)) ∧ (∀ i, IsReal (a7 i)) ∧ (∀ i, IsReal (a8 i)) := by
  have h0 := congrFun h ValueIdx.ix0
  unfold Cert.Pre_finite_inputs.fn Cert.Pre_finite_inputs.fn_part1 Cert.Pre_finite_inputs.fn_part2 at h0
  dsimp only at h0
  unfold andi at h0
  simp only [IntOp.andi_eq_one] at h0
  obtain ⟨⟨⟨⟨⟨⟨⟨e0, e1⟩, e3⟩, e4⟩, e5⟩, e6⟩, e7⟩, e8⟩ := h0
  exact ⟨all_real a0 _ _ _ _ e0, all_real a1 _ _ _ _ e1, all_real a3 _ _ _ _ e3, all_real a4 _ _ _ _ e4,
    all_real a5 _ _ _ _ e5, all_real a6 _ _ _ _ e6, all_real a7 _ _ _ _ e7, all_real a8 _ _ _ _ e8⟩

end Cert.Finite

end
-- ==== Proof.Assemble.lean ====
import proofs.«153973_j47287589929775_2_alg».proof.Defs
import proofs.«153973_j47287589929775_2_alg».proof.Proof.Gen.Kernel.Frame
import proofs.«153973_j47287589929775_2_alg».proof.Proof.Gen.KernelIdeal.Frame
import proofs.«153973_j47287589929775_2_alg».proof.Proof.Gen.ReferenceIdeal.Run
import proofs.«153973_j47287589929775_2_alg».proof.Proof.Gen.ReferenceIdeal.Read
import proofs.«153973_j47287589929775_2_alg».proof.Proof.Gen.Pre_finite_inputs
import proofs.«153973_j47287589929775_2_alg».proof.Proof.KRun
import proofs.«153973_j47287589929775_2_alg».proof.Proof.KChain
import proofs.«153973_j47287589929775_2_alg».proof.Proof.RefSide
import proofs.«153973_j47287589929775_2_alg».proof.Proof.Finite
import proofs.«153973_j47287589929775_2_alg».proof.Proof.SpecBridge

noncomputable section

open scoped BigOperators

/-! The five claims. The kernel program's result is the moment form of the specification (the mean of squares
    minus the squared mean as variance); the reference's is the deviation form (the mean of squared deviations).
    On finite inputs every intermediate is a real number, where the two forms agree. -/
namespace Cert.Proof.Claims

open Idealize.ShloMosaic Idealize.ShloMosaic.TcCoe Idealize.SL.Sem Idealize.ShloMosaic.ValueIdx
open Cert.LibReal

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

open Cert.KernelIdeal.Chain in
/-- The gathered rows the kernel program finds are the ones the reference gathers. -/
theorem g_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.RefValue.gOf
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = gK m ρ c := by
  funext p s k
  unfold Cert.ReferenceIdeal.RefValue.gOf gK Cert.KernelIdeal.K1A.gV
  rw [V1_v6]
  rfl

open Cert.KernelIdeal.Chain in
/-- On finite inputs the gathered rows are real. -/
theorem g_real (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h1 : ∀ i, IsReal (m ((c.tc : Thread Cert.KernelIdeal.nD Cert.KernelIdeal.τ).loc Cert.KernelIdeal.main_arg1) i))
    (p : Fin 100000) (s : Fin 16) (k : Fin 128) : IsReal (gK m ρ c p s k) := by
  unfold gK Cert.KernelIdeal.K1A.gV
  rw [V1_v6]
  unfold Host.gather
  exact h1 _

open Cert.KernelIdeal.Chain in
theorem algebraic : Cert.algebraic_KernelIdeal_ReferenceIdeal := by
  intro m ρ m' ρ' hpre hagree
  refine ⟨fun c => Cert.KernelIdeal.K2A.arr2 (Cert.FP.kout (gK m ρ c) (wK m c) (bK m c) (g1K m c) (b1K m c) (g2K m c) (b2K m c) (fK m c)), ?_, ?_⟩
  · exact (θ_run Cert.KernelIdeal.defs _ _).mono (fun r h c => ⟨(h c).1.trans (kernel_val m ρ c), (h c).2⟩)
      (Cert.KernelIdeal.Gen.run_value m ρ)
  · refine (θ_run Cert.ReferenceIdeal.defs _ _).mono (fun r h c => ⟨(h c).1.trans ?_, (h c).2⟩)
      (Cert.ReferenceIdeal.Value.run (F := Ideal) m' ρ')
    obtain ⟨h0, h1, h3, h4, h5, h6, h7, h8⟩ := Cert.Finite.reals_of_pre _ _ _ _ _ _ _ _ _ (hpre c)
    obtain ⟨a0, a1, a2, a3, a4, a5, a6, a7, a8⟩ := hagree c
    rw [Cert.ReferenceIdeal.Read.val_main_v61_eq, a0, a1, a2, a3, a4, a5, a6, a7, a8]
    funext i
    obtain ⟨p, d, rfl⟩ : ∃ (p : Fin 100000) (d : Fin 64), i = ix2 p d := ⟨i 0, i 1, eq_ix2 i⟩
    rw [Cert.ReferenceIdeal.RefValue.ref_eq, g_eq m ρ c]
    show _ = Cert.FP.kout (gK m ρ c) (wK m c) (bK m c) (g1K m c) (b1K m c) (g2K m c) (b2K m c) (fK m c) p d
    rw [Cert.FP.kout_eq_out (gK m ρ c) (wK m c) (bK m c) (g1K m c) (b1K m c) (g2K m c) (b2K m c) (fK m c)
      (g_real m ρ c h1) (fun d k => h3 _) (fun d => h4 _) (fun d => h5 _) (fun d => h6 _) (fun p d => h0 _) p d]
    rfl

end Cert.Proof.Claims

end
-- ==== Proof.lean ====
/- The proof of `Cert.Claim`: the three programs run and leave their arguments unchanged, the idealized kernel program
   is the kernel program's text read over the extended reals (no rewrite was needed), and on finite inputs the
   idealized kernel program and the idealized reference end with the same result — the batch-normalised,
   neighbour-pooled feature propagation of `Proof/Spec.lean`. The kernel side accumulates the normalisation
   statistics as sums and sums of squares over grid steps; the reference takes means of squared deviations; the two
   agree on real numbers (`Proof/SpecBridge.lean`). -/
import proofs.«153973_j47287589929775_2_alg».proof.Defs
import proofs.«153973_j47287589929775_2_alg».proof.Proof.Gen.Kernel
import proofs.«153973_j47287589929775_2_alg».proof.Proof.Gen.KernelIdeal
import proofs.«153973_j47287589929775_2_alg».proof.Proof.Gen.ReferenceIdeal
import proofs.«153973_j47287589929775_2_alg».proof.Proof.Gen.Pre_finite_inputs
import proofs.«153973_j47287589929775_2_alg».proof.Proof.Assemble

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
